-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x2 : Shape := ⟨2, ![16384, 2]⟩
abbrev S1000x1000 : Shape := ⟨2, ![1000, 1000]⟩
abbrev S_ : Shape := ⟨0, ![]⟩

class Facts : Prop where
  bcast_S_S1000x1000 : S_.BroadcastsInDim S1000x1000 (![] : Fin 0 → Fin S1000x1000.rank)
  reducesTo_S1000x1000_S_d0_1 : S1000x1000.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_

variable [Facts]

def fn {F : FTy → Type} [FloatOps F] (main_arg0 : IVec S16384x2 32) (main_arg1 : FVec F S1000x1000 .f32) : IVec S_ 1 :=
  let main_v0 : FVec F S1000x1000 .f32 := Host.absf main_arg1
  let main_cst : FVec F S_ .f32 := constant S_ .f32 0x7F800000#32
  let main_v1 : FVec F S1000x1000 .f32 := broadcastInDim S1000x1000 ![] bcast_S_S1000x1000 main_cst
  let main_v2 : IVec S1000x1000 1 := cmpf .olt main_v0 main_v1
  let main_c : IVec S_ 1 := constantI S_ 1 1#1
  let main_v3 : IVec S_ 1 := (fun x v => Host.reduce IntOp.andi x v reducesTo_S1000x1000_S_d0_1 h_S_) main_v2 main_c
  let main_c_0 : IVec S_ 32 := constantI S_ 32 0#32
  let main_v4 : IVec S16384x2 32 := broadcastInDim S16384x2 ![] bcast_S_S16384x2 main_c_0
  let main_v5 : IVec S16384x2 1 := cmpi .sge main_arg0 main_v4
  let main_c_1 : IVec S_ 32 := constantI S_ 32 999#32
  let main_v6 : IVec S16384x2 32 := broadcastInDim S16384x2 ![] bcast_S_S16384x2 main_c_1
  let main_v7 : IVec S16384x2 1 := cmpi .sle main_arg0 main_v6
  let main_v8 : IVec S16384x2 1 := andi main_v5 main_v7
  let main_c_2 : IVec S_ 1 := constantI S_ 1 1#1
  let main_v9 : IVec S_ 1 := (fun x v => Host.reduce IntOp.andi x v reducesTo_S16384x2_S_d0_1 h_S_) main_v8 main_c_2
  let main_v10 : IVec S_ 1 := andi main_v3 main_v9
  main_v10
-- ==== Kernel.lean ====
abbrev S16384x2 : Shape := ⟨2, ![16384, 2]⟩
abbrev S1000x1000 : Shape := ⟨2, ![1000, 1000]⟩
abbrev S2x16384 : Shape := ⟨2, ![2, 16384]⟩
abbrev S2x128x128 : Shape := ⟨3, ![2, 128, 128]⟩
abbrev S128x2x128 : Shape := ⟨3, ![128, 2, 128]⟩
abbrev S32768 : Shape := ⟨1, ![32768]⟩
abbrev S1000000 : Shape := ⟨1, ![1000000]⟩
abbrev S16384 : Shape := ⟨1, ![16384]⟩
abbrev S1024 : Shape := ⟨1, ![1024]⟩
abbrev S4x128 : Shape := ⟨2, ![4, 128]⟩
abbrev S4 : Shape := ⟨1, ![4]⟩
abbrev S_ : Shape := ⟨0, ![]⟩
abbrev S16 : Shape := ⟨1, ![16]⟩
abbrev S1x16 : Shape := ⟨2, ![1, 16]⟩
abbrev S1x128 : Shape := ⟨2, ![1, 128]⟩
abbrev S128 : Shape := ⟨1, ![128]⟩
abbrev S1 : Shape := ⟨1, ![1]⟩

abbrev nBuf : Table → Nat
  | .hbm => 8
  | .local .scVector .vmem => 3
  | _ => 0

abbrev bufTy : (tb : Table) → Fin (nBuf tb) → BufTy
  | .hbm, ⟨0, _⟩ => ⟨S16384x2, .i32⟩
  | .hbm, ⟨1, _⟩ => ⟨S1000x1000, .f32⟩
  | .hbm, ⟨2, _⟩ => ⟨S2x16384, .i32⟩
  | .hbm, ⟨3, _⟩ => ⟨S2x128x128, .i32⟩
  | .hbm, ⟨4, _⟩ => ⟨S128x2x128, .i32⟩
  | .hbm, ⟨5, _⟩ => ⟨S32768, .i32⟩
  | .hbm, ⟨6, _⟩ => ⟨S1000000, .f32⟩
  | .hbm, ⟨7, _⟩ => ⟨S16384, .f32⟩
  | .local .scVector .vmem, ⟨0, _⟩ => ⟨S1024, .i32⟩
  | .local .scVector .vmem, ⟨1, _⟩ => ⟨S4x128, .i32⟩
  | .local .scVector .vmem, ⟨2, _⟩ => ⟨S4x128, .f32⟩
  | _, _ => ⟨S16384x2, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v3_scv : Ref sig .scVector := ⟨.hbm, 5, rfl⟩
abbrev main_v4_scv : Ref sig .scVector := ⟨.hbm, 6, rfl⟩
abbrev main_v5_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c1024_i32 : BitVec 32 := 1024#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v3 : BitVec 32 := Scalar.muli c1024_i32 v1
  ![v3.toNat]
def k0_off2 (i : grid0.Coords) (c0_i32_122 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v391 : BitVec 32 := Scalar.addi v2 c0_i32_122
  ![v391.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x2_S2x16384_1_0 : S16384x2.Transposes [1, 0] S2x16384
  shapeCasts_S2x16384_S2x128x128 : S2x16384.ShapeCasts S2x128x128
  transposes_S2x128x128_S128x2x128_1_0_2 : S2x128x128.Transposes [1, 0, 2] S128x2x128
  shapeCasts_S128x2x128_S32768 : S128x2x128.ShapeCasts S32768
  shapeCasts_S1000x1000_S1000000 : S1000x1000.ShapeCasts S1000000
  inb_S1024_S16_0 : ∀ a, (![0] : Fin 1 → Nat) a + S16.size a ≤ S1024.size a
  h_S16 : 0 < S16.numel
  shapeCasts_S16_S16 : S16.ShapeCasts S16
  inb_S1024_S16_128 : ∀ a, (![128] : Fin 1 → Nat) a + S16.size a ≤ S1024.size a
  inb_S4x128_S1x16_0_0 : ∀ a, (![0, 0] : Fin 2 → Nat) a + S1x16.size a ≤ S4x128.size a
  h_S1x16 : 0 < S1x16.numel
  shapeCasts_S1x16_S16 : S1x16.ShapeCasts S16
  shapeCasts_S16_S1x16 : S16.ShapeCasts S1x16
  inb_S1024_S16_16 : ∀ a, (![16] : Fin 1 → Nat) a + S16.size a ≤ S1024.size a
  inb_S1024_S16_144 : ∀ a, (![144] : Fin 1 → Nat) a + S16.size a ≤ S1024.size a
  inb_S4x128_S1x16_0_16 : ∀ a, (![0, 16] : Fin 2 → Nat) a + S1x16.size a ≤ S4x128.size a
  inb_S1024_S16_32 : ∀ a, (![32] : Fin 1 → Nat) a + S16.size a ≤ S1024.size a
  inb_S1024_S16_160 : ∀ a, (![160] : Fin 1 → Nat) a + S16.size a ≤ S1024.size a
  inb_S4x128_S1x16_0_32 : ∀ a, (![0, 32] : Fin 2 → Nat) a + S1x16.size a ≤ S4x128.size a
  inb_S1024_S16_48 : ∀ a, (![48] : Fin 1 → Nat) a + S16.size a ≤ S1024.size a
  inb_S1024_S16_176 : ∀ a, (![176] : Fin 1 → Nat) a + S16.size a ≤ S1024.size a
  inb_S4x128_S1x16_0_48 : ∀ a, (![0, 48] : Fin 2 → Nat) a + S1x16.size a ≤ S4x128.size a
  inb_S1024_S16_64 : ∀ a, (![64] : Fin 1 → Nat) a + S16.size a ≤ S1024.size a
  inb_S1024_S16_192 : ∀ a, (![192] : Fin 1 → Nat) a + S16.size a ≤ S1024.size a
  inb_S4x128_S1x16_0_64 : ∀ a, (![0, 64] : Fin 2 → Nat) a + S1x16.size a ≤ S4x128.size a
  inb_S1024_S16_80 : ∀ a, (![80] : Fin 1 → Nat) a + S16.size a ≤ S1024.size a
  inb_S1024_S16_208 : ∀ a, (![208] : Fin 1 → Nat) a + S16.size a ≤ S1024.size a
  inb_S4x128_S1x16_0_80 : ∀ a, (![0, 80] : Fin 2 → Nat) a + S1x16.size a ≤ S4x128.size a
  inb_S1024_S16_96 : ∀ a, (![96] : Fin 1 → Nat) a + S16.size a ≤ S1024.size a
  inb_S1024_S16_224 : ∀ a, (![224] : Fin 1 → Nat) a + S16.size a ≤ S1024.size a
  inb_S4x128_S1x16_0_96 : ∀ a, (![0, 96] : Fin 2 → Nat) a + S1x16.size a ≤ S4x128.size a
  inb_S1024_S16_112 : ∀ a, (![112] : Fin 1 → Nat) a + S16.size a ≤ S1024.size a
  inb_S1024_S16_240 : ∀ a, (![240] : Fin 1 → Nat) a + S16.size a ≤ S1024.size a
  inb_S4x128_S1x16_0_112 : ∀ a, (![0, 112] : Fin 2 → Nat) a + S1x16.size a ≤ S4x128.size a
  inb_S4x128_S1x128_0_0 : ∀ a, (![0, 0] : Fin 2 → Nat) a + S1x128.size a ≤ S4x128.size a
  squeezes_S1x128_S128 : S1x128.Squeezes S128
  inb_S1000000_S1000000_0 : ∀ a, (![0] : Fin 1 → Nat) a + S1000000.size a ≤ S1000000.size a
  inb_S4_S1_0 : ∀ a, (![0] : Fin 1 → Nat) a + S1.size a ≤ S4.size a
  squeezes_S1_S_ : S1.Squeezes S_
  gathers_S1000000_S128 : S1000000.Gathers 0 S128
  inb_S1024_S16_256 : ∀ a, (![256] : Fin 1 → Nat) a + S16.size a ≤ S1024.size a
  inb_S1024_S16_384 : ∀ a, (![384] : Fin 1 → Nat) a + S16.size a ≤ S1024.size a
  inb_S4x128_S1x16_1_0 : ∀ a, (![1, 0] : Fin 2 → Nat) a + S1x16.size a ≤ S4x128.size a
  inb_S1024_S16_272 : ∀ a, (![272] : Fin 1 → Nat) a + S16.size a ≤ S1024.size a
  inb_S1024_S16_400 : ∀ a, (![400] : Fin 1 → Nat) a + S16.size a ≤ S1024.size a
  inb_S4x128_S1x16_1_16 : ∀ a, (![1, 16] : Fin 2 → Nat) a + S1x16.size a ≤ S4x128.size a
  inb_S1024_S16_288 : ∀ a, (![288] : Fin 1 → Nat) a + S16.size a ≤ S1024.size a
  inb_S1024_S16_416 : ∀ a, (![416] : Fin 1 → Nat) a + S16.size a ≤ S1024.size a
  inb_S4x128_S1x16_1_32 : ∀ a, (![1, 32] : Fin 2 → Nat) a + S1x16.size a ≤ S4x128.size a
  inb_S1024_S16_304 : ∀ a, (![304] : Fin 1 → Nat) a + S16.size a ≤ S1024.size a
  inb_S1024_S16_432 : ∀ a, (![432] : Fin 1 → Nat) a + S16.size a ≤ S1024.size a
  inb_S4x128_S1x16_1_48 : ∀ a, (![1, 48] : Fin 2 → Nat) a + S1x16.size a ≤ S4x128.size a
  inb_S1024_S16_320 : ∀ a, (![320] : Fin 1 → Nat) a + S16.size a ≤ S1024.size a
  inb_S1024_S16_448 : ∀ a, (![448] : Fin 1 → Nat) a + S16.size a ≤ S1024.size a
  inb_S4x128_S1x16_1_64 : ∀ a, (![1, 64] : Fin 2 → Nat) a + S1x16.size a ≤ S4x128.size a
  inb_S1024_S16_336 : ∀ a, (![336] : Fin 1 → Nat) a + S16.size a ≤ S1024.size a
  inb_S1024_S16_464 : ∀ a, (![464] : Fin 1 → Nat) a + S16.size a ≤ S1024.size a
  inb_S4x128_S1x16_1_80 : ∀ a, (![1, 80] : Fin 2 → Nat) a + S1x16.size a ≤ S4x128.size a
  inb_S1024_S16_352 : ∀ a, (![352] : Fin 1 → Nat) a + S16.size a ≤ S1024.size a
  inb_S1024_S16_480 : ∀ a, (![480] : Fin 1 → Nat) a + S16.size a ≤ S1024.size a
  inb_S4x128_S1x16_1_96 : ∀ a, (![1, 96] : Fin 2 → Nat) a + S1x16.size a ≤ S4x128.size a
  inb_S1024_S16_368 : ∀ a, (![368] : Fin 1 → Nat) a + S16.size a ≤ S1024.size a
  inb_S1024_S16_496 : ∀ a, (![496] : Fin 1 → Nat) a + S16.size a ≤ S1024.size a
  inb_S4x128_S1x16_1_112 : ∀ a, (![1, 112] : Fin 2 → Nat) a + S1x16.size a ≤ S4x128.size a
  inb_S4x128_S1x128_1_0 : ∀ a, (![1, 0] : Fin 2 → Nat) a + S1x128.size a ≤ S4x128.size a
  inb_S4_S1_1 : ∀ a, (![1] : Fin 1 → Nat) a + S1.size a ≤ S4.size a
  inb_S1024_S16_512 : ∀ a, (![512] : Fin 1 → Nat) a + S16.size a ≤ S1024.size a
  inb_S1024_S16_640 : ∀ a, (![640] : Fin 1 → Nat) a + S16.size a ≤ S1024.size a
  inb_S4x128_S1x16_2_0 : ∀ a, (![2, 0] : Fin 2 → Nat) a + S1x16.size a ≤ S4x128.size a
  inb_S1024_S16_528 : ∀ a, (![528] : Fin 1 → Nat) a + S16.size a ≤ S1024.size a
  inb_S1024_S16_656 : ∀ a, (![656] : Fin 1 → Nat) a + S16.size a ≤ S1024.size a
  inb_S4x128_S1x16_2_16 : ∀ a, (![2, 16] : Fin 2 → Nat) a + S1x16.size a ≤ S4x128.size a
  inb_S1024_S16_544 : ∀ a, (![544] : Fin 1 → Nat) a + S16.size a ≤ S1024.size a
  inb_S1024_S16_672 : ∀ a, (![672] : Fin 1 → Nat) a + S16.size a ≤ S1024.size a
  inb_S4x128_S1x16_2_32 : ∀ a, (![2, 32] : Fin 2 → Nat) a + S1x16.size a ≤ S4x128.size a
  inb_S1024_S16_560 : ∀ a, (![560] : Fin 1 → Nat) a + S16.size a ≤ S1024.size a
  inb_S1024_S16_688 : ∀ a, (![688] : Fin 1 → Nat) a + S16.size a ≤ S1024.size a
  inb_S4x128_S1x16_2_48 : ∀ a, (![2, 48] : Fin 2 → Nat) a + S1x16.size a ≤ S4x128.size a
  inb_S1024_S16_576 : ∀ a, (![576] : Fin 1 → Nat) a + S16.size a ≤ S1024.size a
  inb_S1024_S16_704 : ∀ a, (![704] : Fin 1 → Nat) a + S16.size a ≤ S1024.size a
  inb_S4x128_S1x16_2_64 : ∀ a, (![2, 64] : Fin 2 → Nat) a + S1x16.size a ≤ S4x128.size a
  inb_S1024_S16_592 : ∀ a, (![592] : Fin 1 → Nat) a + S16.size a ≤ S1024.size a
  inb_S1024_S16_720 : ∀ a, (![720] : Fin 1 → Nat) a + S16.size a ≤ S1024.size a
  inb_S4x128_S1x16_2_80 : ∀ a, (![2, 80] : Fin 2 → Nat) a + S1x16.size a ≤ S4x128.size a
  inb_S1024_S16_608 : ∀ a, (![608] : Fin 1 → Nat) a + S16.size a ≤ S1024.size a
  inb_S1024_S16_736 : ∀ a, (![736] : Fin 1 → Nat) a + S16.size a ≤ S1024.size a
  inb_S4x128_S1x16_2_96 : ∀ a, (![2, 96] : Fin 2 → Nat) a + S1x16.size a ≤ S4x128.size a
  inb_S1024_S16_624 : ∀ a, (![624] : Fin 1 → Nat) a + S16.size a ≤ S1024.size a
  inb_S1024_S16_752 : ∀ a, (![752] : Fin 1 → Nat) a + S16.size a ≤ S1024.size a
  inb_S4x128_S1x16_2_112 : ∀ a, (![2, 112] : Fin 2 → Nat) a + S1x16.size a ≤ S4x128.size a
  inb_S4x128_S1x128_2_0 : ∀ a, (![2, 0] : Fin 2 → Nat) a + S1x128.size a ≤ S4x128.size a
  inb_S4_S1_2 : ∀ a, (![2] : Fin 1 → Nat) a + S1.size a ≤ S4.size a
  inb_S1024_S16_768 : ∀ a, (![768] : Fin 1 → Nat) a + S16.size a ≤ S1024.size a
  inb_S1024_S16_896 : ∀ a, (![896] : Fin 1 → Nat) a + S16.size a ≤ S1024.size a
  inb_S4x128_S1x16_3_0 : ∀ a, (![3, 0] : Fin 2 → Nat) a + S1x16.size a ≤ S4x128.size a
  inb_S1024_S16_784 : ∀ a, (![784] : Fin 1 → Nat) a + S16.size a ≤ S1024.size a
  inb_S1024_S16_912 : ∀ a, (![912] : Fin 1 → Nat) a + S16.size a ≤ S1024.size a
  inb_S4x128_S1x16_3_16 : ∀ a, (![3, 16] : Fin 2 → Nat) a + S1x16.size a ≤ S4x128.size a
  inb_S1024_S16_800 : ∀ a, (![800] : Fin 1 → Nat) a + S16.size a ≤ S1024.size a
  inb_S1024_S16_928 : ∀ a, (![928] : Fin 1 → Nat) a + S16.size a ≤ S1024.size a
  inb_S4x128_S1x16_3_32 : ∀ a, (![3, 32] : Fin 2 → Nat) a + S1x16.size a ≤ S4x128.size a
  inb_S1024_S16_816 : ∀ a, (![816] : Fin 1 → Nat) a + S16.size a ≤ S1024.size a
  inb_S1024_S16_944 : ∀ a, (![944] : Fin 1 → Nat) a + S16.size a ≤ S1024.size a
  inb_S4x128_S1x16_3_48 : ∀ a, (![3, 48] : Fin 2 → Nat) a + S1x16.size a ≤ S4x128.size a
  inb_S1024_S16_832 : ∀ a, (![832] : Fin 1 → Nat) a + S16.size a ≤ S1024.size a
  inb_S1024_S16_960 : ∀ a, (![960] : Fin 1 → Nat) a + S16.size a ≤ S1024.size a
  inb_S4x128_S1x16_3_64 : ∀ a, (![3, 64] : Fin 2 → Nat) a + S1x16.size a ≤ S4x128.size a
  inb_S1024_S16_848 : ∀ a, (![848] : Fin 1 → Nat) a + S16.size a ≤ S1024.size a
  inb_S1024_S16_976 : ∀ a, (![976] : Fin 1 → Nat) a + S16.size a ≤ S1024.size a
  inb_S4x128_S1x16_3_80 : ∀ a, (![3, 80] : Fin 2 → Nat) a + S1x16.size a ≤ S4x128.size a
  inb_S1024_S16_864 : ∀ a, (![864] : Fin 1 → Nat) a + S16.size a ≤ S1024.size a
  inb_S1024_S16_992 : ∀ a, (![992] : Fin 1 → Nat) a + S16.size a ≤ S1024.size a
  inb_S4x128_S1x16_3_96 : ∀ a, (![3, 96] : Fin 2 → Nat) a + S1x16.size a ≤ S4x128.size a
  inb_S1024_S16_880 : ∀ a, (![880] : Fin 1 → Nat) a + S16.size a ≤ S1024.size a
  inb_S1024_S16_1008 : ∀ a, (![1008] : Fin 1 → Nat) a + S16.size a ≤ S1024.size a
  inb_S4x128_S1x16_3_112 : ∀ a, (![3, 112] : Fin 2 → Nat) a + S1x16.size a ≤ S4x128.size a
  inb_S4x128_S1x128_3_0 : ∀ a, (![3, 0] : Fin 2 → Nat) a + S1x128.size a ≤ S4x128.size a
  inb_S4_S1_3 : ∀ a, (![3] : Fin 1 → Nat) a + S1.size a ≤ S4.size a
  hcc0_scratch3 : 0 + S4.numel ≤ 9
  hcc0_scoped0 : 4 + S_.numel ≤ 9
  hcc0_scoped1 : 5 + S_.numel ≤ 9
  hcc0_scoped2 : 6 + S_.numel ≤ 9
  hcc0_scoped3 : 7 + S_.numel ≤ 9
  hcc0_scoped4 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S32768.size a
  k0_off2_inb : ∀ i : grid0.Coords, ∀ (r : Fin 4), ∀ a, (k0_off2 i (BitVec.ofNat 32 (128 * r.val))) a + S128.size a ≤ S16384.size a

variable [Facts₀]

abbrev cc0_scratch3 : DmaSems sig S4 := SemArray.consecutive 0 S4 hcc0_scratch3
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3
abbrev cc0_scoped4 : DmaSems sig S_ := SemArray.consecutive 8 S_ hcc0_scoped4

class Facts : Prop extends Facts₀ where

variable [Facts]
-- ==== ReferenceIdeal.lean ====
abbrev S16384x2 : Shape := ⟨2, ![16384, 2]⟩
abbrev S1000x1000 : Shape := ⟨2, ![1000, 1000]⟩
abbrev S16384x1 : Shape := ⟨2, ![16384, 1]⟩
abbrev S16384 : Shape := ⟨1, ![16384]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16384x2, .i32⟩
  | .hbm, ⟨1, _⟩ => ⟨S1000x1000, .f32⟩
  | .hbm, ⟨2, _⟩ => ⟨S16384x1, .i32⟩
  | .hbm, ⟨3, _⟩ => ⟨S16384, .i32⟩
  | .hbm, ⟨4, _⟩ => ⟨S16384x1, .i32⟩
  | .hbm, ⟨5, _⟩ => ⟨S16384, .i32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16384x1, .i32⟩
  | .hbm, ⟨22, _⟩ => ⟨S16384x2, .i32⟩
  | .hbm, ⟨23, _⟩ => ⟨S16384, .f32⟩
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x2_d1 : Shape.Concatenates [S16384x1, S16384x1] S16384x2 1
  gather_S1000x1000_S16384x2_S16384_n_01_n_n_01_1_11_wf : GatherDims.WF S1000x1000 S16384x2 S16384 [] [0, 1] [] [0, 1] [] 1 ![1, 1]

variable [Facts₀]

def gather_S1000x1000_S16384x2_S16384_n_01_n_n_01_1_11 : GatherDims S1000x1000 S16384x2 S16384 where
  offsetDims := []
  collapsedSliceDims := [0, 1]
  operandBatchingDims := []
  startIndicesBatchingDims := []
  startIndexMap := [0, 1]
  indexVectorDim := 1
  sliceSizes := ![1, 1]
  wf := gather_S1000x1000_S16384x2_S16384_n_01_n_n_01_1_11_wf

class Facts : Prop extends Facts₀ where

variable [Facts]
-- ==== Proof.RowsB.lean ====
import proofs.«208194_g50654844289024_cont_8to1c4_348_33_alg».proof.Defs
import Idealize.ShloMosaic.Lib.Writes
import Idealize.ShloMosaic.Lib.ValueIdx
import Idealize.ShloMosaic.Lib.Pipeline.Value
import proofs.«208194_g50654844289024_cont_8to1c4_348_33_alg».proof.Proof.Gen.Kernel

/-!
  What one tile leaves in its scratch of gather indices.

  A tile holds 1024 index words `w` (four chunks of 256: 128 first coordinates, then 128 second coordinates). Store
  number `n` (0 … 31) belongs to chunk `n / 8` and lanes `16 (n % 8) … 16 (n % 8) + 15`: it reads sixteen first
  coordinates at `256 (n / 8) + 16 (n % 8)`, the sixteen second coordinates 128 words later, and writes
  `first · 1000 + second` at row `n / 8`, lanes `16 (n % 8) …` of the 4 × 128 scratch. So after the first `8 (r + 1)`
  stores, row `r` of the scratch holds `w (256 r + l) · 1000 + w (256 r + 128 + l)` at lane `l`, whatever it held before;
  and when every index word is at most 999 this is below one million.
-/

noncomputable section

namespace Cert.Proof.KB

open Cert.Kernel Idealize.ShloMosaic Idealize.ShloMosaic.ValueIdx

variable {F : FTy → Type}

local notation "a5" => (Memref.whole Cert.Kernel.cc0_scratch0 : Memref Cert.Kernel.sig Kind.scVector Space.vmem Cert.Kernel.S1024 EltTy.i32)
local notation "a6" => (Memref.whole Cert.Kernel.cc0_scratch1 : Memref Cert.Kernel.sig Kind.scVector Space.vmem Cert.Kernel.S4x128 EltTy.i32)

theorem rS_inb (n : ℕ) : ∀ a, (![(n / 8) % 4, 16 * (n % 8)] : Fin 2 → ℕ) a + S1x16.size a ≤ S4x128.size a := by
  intro a
  match a with
  | ⟨0, _⟩ => show (n / 8) % 4 + 1 ≤ 4; omega
  | ⟨1, _⟩ => show 16 * (n % 8) + 16 ≤ 128; omega
theorem rA_inb (n : ℕ) : ∀ a, (![256 * ((n / 8) % 4) + 16 * (n % 8)] : Fin 1 → ℕ) a + S16.size a ≤ S1024.size a := by
  intro a
  match a with
  | ⟨0, _⟩ => show 256 * ((n / 8) % 4) + 16 * (n % 8) + 16 ≤ 1024; omega
theorem rB_inb (n : ℕ) : ∀ a, (![256 * ((n / 8) % 4) + 128 + 16 * (n % 8)] : Fin 1 → ℕ) a + S16.size a ≤ S1024.size a := by
  intro a
  match a with
  | ⟨0, _⟩ => show 256 * ((n / 8) % 4) + 128 + 16 * (n % 8) + 16 ≤ 1024; omega

/-- Where store `n` writes, and where its two loads read. -/
def rS (n : ℕ) : Rect S4x128 := Rect.unit (s := S4x128) ![(n / 8) % 4, 16 * (n % 8)] S1x16.size (rS_inb n)
def rA (n : ℕ) : Rect S1024 := Rect.unit (s := S1024) ![256 * ((n / 8) % 4) + 16 * (n % 8)] S16.size (rA_inb n)
def rB (n : ℕ) : Rect S1024 := Rect.unit (s := S1024) ![256 * ((n / 8) % 4) + 128 + 16 * (n % 8)] S16.size (rB_inb n)

/-- What store `n` writes, from the index words `g5`. -/
def pay (g5 : S1024.Idx → BitVec 32) (n : ℕ) : S1x16.Idx → BitVec 32 :=
  shapeCast S1x16 (addi (muli (shapeCast S16 ((a5).view.readAt (Elt F) (rA n).toLoadRect g5) Cert.Kernel.Gen.shapeCasts_S16_S16) (broadcast S16 1000#32))
    (shapeCast S16 ((a5).view.readAt (Elt F) (rB n).toLoadRect g5) Cert.Kernel.Gen.shapeCasts_S16_S16)) Cert.Kernel.Gen.shapeCasts_S16_S1x16

/-- The first `n` stores, the last one first. -/
def pieces (g5 : S1024.Idx → BitVec 32) : ℕ → List (View.Piece (Elt F) S4x128 .i32)
  | 0 => []
  | n + 1 => ⟨rS n, pay (F := F) g5 n⟩ :: pieces g5 n

/-- Row `y 0`, lane `y 1` of the scratch of gather indices, from the index words `w`. -/
def Qf (w : S1024.Idx → BitVec 32) (y : S4x128.Idx) : BitVec 32 :=
  w (ix1 ⟨256 * (y 0).val + (y 1).val, by have h0 := idx2_lt0 y; have h1 := idx2_lt1 y; omega⟩) * 1000#32
    + w (ix1 ⟨256 * (y 0).val + 128 + (y 1).val, by have h0 := idx2_lt0 y; have h1 := idx2_lt1 y; omega⟩)

theorem pay_apply (g5 : S1024.Idx → BitVec 32) (n : ℕ) (x : S1x16.Idx) : pay (F := F) g5 n x = Qf g5 ((rS n).emb x) := by
  have hx0 : (x 0).val = 0 := by have := idx2_lt0 x; omega
  have e1 : shapeCast S16 ((a5).view.readAt (Elt F) (rA n).toLoadRect g5) Cert.Kernel.Gen.shapeCasts_S16_S16
      = (a5).view.readAt (Elt F) (rA n).toLoadRect g5 := shapeCast_self _ _
  have e2 : shapeCast S16 ((a5).view.readAt (Elt F) (rB n).toLoadRect g5) Cert.Kernel.Gen.shapeCasts_S16_S16
      = (a5).view.readAt (Elt F) (rB n).toLoadRect g5 := shapeCast_self _ _
  unfold pay Qf
  rw [e1, e2]
  refine (shapeCast_apply _ _ x (ix1 (x 1)) (by rw [Shape.rowMajor_val_one, Shape.rowMajor_val_two]; show (x 1).val = (x 0).val * 16 + (x 1).val; omega)).trans ?_
  show (g5 _) * 1000#32 + (g5 _) = _
  congr 2
  · congr 1
    funext a
    match a with
    | ⟨0, _⟩ =>
      apply Fin.ext
      show 256 * ((n / 8) % 4) + 16 * (n % 8) + 1 * (x 1).val = 256 * ((n / 8) % 4 + 1 * (x 0).val) + (16 * (n % 8) + 1 * (x 1).val)
      omega
  · congr 1
    funext a
    match a with
    | ⟨0, _⟩ =>
      apply Fin.ext
      show 256 * ((n / 8) % 4) + 128 + 16 * (n % 8) + 1 * (x 1).val = 256 * ((n / 8) % 4 + 1 * (x 0).val) + 128 + (16 * (n % 8) + 1 * (x 1).val)
      omega

/-- Every store writes the one function `Qf g5` of the scratch's index. -/
theorem pieces_agree (g5 : S1024.Idx → BitVec 32) : ∀ n, ∀ p ∈ pieces (F := F) g5 n, ∀ x : p.1.shape.Idx, p.2 x = Qf g5 (p.1.emb x)
  | 0, p, hp, _ => absurd hp List.not_mem_nil
  | n + 1, p, hp, x => by
    rcases List.mem_cons.mp hp with rfl | hp
    · exact pay_apply g5 n x
    · exact pieces_agree g5 n p hp x

/-- The first `n` stores cover the first `16 n` lanes in row-major order. -/
theorem pieces_cover (g5 : S1024.Idx → BitVec 32) : ∀ n, n ≤ 32 → ∀ y : S4x128.Idx, 128 * (y 0).val + (y 1).val < 16 * n →
    ∃ p ∈ pieces (F := F) g5 n, y ∈ p.1.set
  | 0, _, y, h => absurd h (by omega)
  | n + 1, hn, y, h => by
    have h0 := idx2_lt0 y; have h1 := idx2_lt1 y
    by_cases hy : 128 * (y 0).val + (y 1).val < 16 * n
    · obtain ⟨p, hp, hm⟩ := pieces_cover g5 n (by omega) y hy
      exact ⟨p, List.mem_cons_of_mem _ hp, hm⟩
    · refine ⟨⟨rS n, pay (F := F) g5 n⟩, List.mem_cons_self, ?_⟩
      show y ∈ (rS n).set
      unfold rS
      rw [Rect.mem_set_unit]
      intro a
      match a with
      | ⟨0, _⟩ =>
        show (n / 8) % 4 ≤ (y 0).val ∧ (y 0).val < (n / 8) % 4 + 1
        omega
      | ⟨1, _⟩ =>
        show 16 * (n % 8) ≤ (y 1).val ∧ (y 1).val < 16 * (n % 8) + 16
        omega

/-- After the first `n` stores an index among the first `16 n` reads `Qf g5`, whatever the scratch held before. -/
theorem read_pieces (g5 : S1024.Idx → BitVec 32) (g6 : S4x128.Idx → BitVec 32) (n : ℕ) (hn : n ≤ 32) (y : S4x128.Idx)
    (hy : 128 * (y 0).val + (y 1).val < 16 * n) :
    (a6).view.writes (Elt F) g6 (pieces (F := F) g5 n) y = Qf g5 y := by
  have h := View.read_writes_apply_of_pieces (v := (a6).view) (f := g6) (Qf g5) (pieces (F := F) g5 n) (pieces_agree g5 n) y (pieces_cover g5 n hn y hy)
  exact h

/-- With every index word at most 999 the gather index is below one million. -/
theorem word_toNat (a b : BitVec 32) (ha : a.toNat ≤ 999) (hb : b.toNat ≤ 999) : (a * 1000#32 + b).toNat = a.toNat * 1000 + b.toNat := by
  have h1000 : (1000#32 : BitVec 32).toNat = 1000 := by decide
  rw [BitVec.toNat_add, BitVec.toNat_mul, h1000, Nat.mod_eq_of_lt (show a.toNat * 1000 < 2 ^ 32 by omega),
    Nat.mod_eq_of_lt (show a.toNat * 1000 + b.toNat < 2 ^ 32 by omega)]

theorem Qf_toNat (w : S1024.Idx → BitVec 32) (hw : ∀ z, (w z).toNat ≤ 999) (y : S4x128.Idx) :
    (Qf w y).toNat = (w (ix1 ⟨256 * (y 0).val + (y 1).val, by have h0 := idx2_lt0 y; have h1 := idx2_lt1 y; omega⟩)).toNat * 1000
      + (w (ix1 ⟨256 * (y 0).val + 128 + (y 1).val, by have h0 := idx2_lt0 y; have h1 := idx2_lt1 y; omega⟩)).toNat :=
  word_toNat _ _ (hw _) (hw _)

/-- With every index word at most 999 the gather index is below one million. -/
theorem Qf_lt (w : S1024.Idx → BitVec 32) (hw : ∀ z, (w z).toNat ≤ 999) (y : S4x128.Idx) : (Qf w y).toNat < 1000000 := by
  rw [Qf_toNat w hw y]
  have h1 := hw (ix1 ⟨256 * (y 0).val + (y 1).val, by have h0 := idx2_lt0 y; have h1 := idx2_lt1 y; omega⟩)
  have h2 := hw (ix1 ⟨256 * (y 0).val + 128 + (y 1).val, by have h0 := idx2_lt0 y; have h1 := idx2_lt1 y; omega⟩)
  omega

end Cert.Proof.KB

end
-- ==== Proof.GeomB.lean ====
import proofs.«208194_g50654844289024_cont_8to1c4_348_33_alg».proof.Defs
import Idealize.ShloMosaic.Lib.SparseCore.Launch
import proofs.«208194_g50654844289024_cont_8to1c4_348_33_alg».proof.Proof.Gen.Kernel

/-!
  How the kernel's thirty-two tiles share the two arrays they move whole runs of.

  Tile (c, s) — SparseCore c, vector subcore s — is worker w = 2 s + c. It copies in the 1024 index words
  [1024 w, 1024 w + 1024) of the interleaved index array, and writes out the four runs of 128 results
  [512 w + 128 r, 512 w + 128 r + 128), r = 0 … 3. The thirty-two input runs are pairwise disjoint and cover the 32768
  words; the hundred and twenty-eight output runs are pairwise disjoint and cover the 16384 results.
-/

noncomputable section

namespace Cert.Proof.KB

open Cert.Kernel Cert.Kernel.Gen
open Idealize.ShloMosaic

/-- The grid point of SparseCore `c`, vector subcore `s`, as the launch spells it -/
def coV (c : Fin (grid0.bound 0)) (s : Fin (grid0.bound 1)) : grid0.Coords :=
  fun | 0 => c | 1 => s | ⟨_ + 2, h⟩ => absurd h (Nat.not_lt.2 (Nat.le_add_left _ _))

/-- and over the two SparseCores and their sixteen tiles. -/
def co (c : Fin 2) (s : Fin 16) : grid0.Coords := coV c s

/-- The input run of the tile at grid point `L`, as a set of indices of the interleaved index array. -/
def inSet (L : grid0.Coords) : Finset S32768.Idx := (Rect.unit (s := S32768) (k0_off1 L) S1024.size (k0_off1_inb L)).set

/-- Output run `r` of the tile at grid point `L`, as a set of indices of the result array. -/
def outSet (L : grid0.Coords) (r : Fin 4) : Finset S16384.Idx :=
  (Rect.unit (s := S16384) (k0_off2 L (BitVec.ofNat 32 (128 * r.val))) S128.size (k0_off2_inb L r)).set

theorem mem_inSet (c : Fin 2) (s : Fin 16) (i : S32768.Idx) :
    i ∈ inSet (co c s) ↔ 2048 * s.val + 1024 * c.val ≤ (i 0).val ∧ (i 0).val < 2048 * s.val + 1024 * c.val + 1024 := by
  unfold inSet
  rw [Rect.mem_set_unit]
  constructor
  · intro h
    have h0 := h 0
    rw [k0_off1_eq] at h0
    exact h0
  · intro h a
    obtain rfl : a = 0 := Subsingleton.elim _ _
    rw [k0_off1_eq]
    exact h

theorem mem_outSet (c : Fin 2) (s : Fin 16) (r : Fin 4) (i : S16384.Idx) :
    i ∈ outSet (co c s) r ↔ 1024 * s.val + 512 * c.val + 128 * r.val ≤ (i 0).val ∧ (i 0).val < 1024 * s.val + 512 * c.val + 128 * r.val + 128 := by
  unfold outSet
  rw [Rect.mem_set_unit]
  constructor
  · intro h
    have h0 := h 0
    rw [k0_off2_eq] at h0
    exact h0
  · intro h a
    obtain rfl : a = 0 := Subsingleton.elim _ _
    rw [k0_off2_eq]
    exact h

theorem inSet_disjoint (p p' : Fin 2 × Fin 16) (h : p ≠ p') : Disjoint (inSet (co p.1 p.2)) (inSet (co p'.1 p'.2)) := by
  rw [Finset.disjoint_left]
  intro i h1 h2
  rw [mem_inSet] at h1 h2
  apply h
  have hc := p.1.isLt; have hc' := p'.1.isLt
  exact Prod.ext (Fin.ext (by omega)) (Fin.ext (by omega))

theorem inSet_cover : (Finset.univ : Finset (Fin 2 × Fin 16)).biUnion (fun p => inSet (co p.1 p.2)) = Finset.univ := by
  ext i
  simp only [Finset.mem_biUnion, Finset.mem_univ, true_and, iff_true]
  have hi : (i 0).val < 32768 := (i 0).isLt
  refine ⟨(⟨(i 0).val % 2048 / 1024, by omega⟩, ⟨(i 0).val / 2048, by omega⟩), ?_⟩
  rw [mem_inSet]
  dsimp only
  omega

theorem outSet_disjoint (p p' : Fin 2 × Fin 16 × Fin 4) (h : p ≠ p') :
    Disjoint (outSet (co p.1 p.2.1) p.2.2) (outSet (co p'.1 p'.2.1) p'.2.2) := by
  rw [Finset.disjoint_left]
  intro i h1 h2
  rw [mem_outSet] at h1 h2
  apply h
  have hc := p.1.isLt; have hc' := p'.1.isLt
  have hr := p.2.2.isLt; have hr' := p'.2.2.isLt
  exact Prod.ext (Fin.ext (by omega)) (Prod.ext (Fin.ext (by omega)) (Fin.ext (by omega)))

theorem outSet_cover : (Finset.univ : Finset (Fin 2 × Fin 16 × Fin 4)).biUnion (fun p => outSet (co p.1 p.2.1) p.2.2) = Finset.univ := by
  ext i
  simp only [Finset.mem_biUnion, Finset.mem_univ, true_and, iff_true]
  have hi : (i 0).val < 16384 := (i 0).isLt
  refine ⟨(⟨(i 0).val % 1024 / 512, by omega⟩, ⟨(i 0).val / 1024, by omega⟩, ⟨(i 0).val % 512 / 128, by omega⟩), ?_⟩
  rw [mem_outSet]
  dsimp only
  omega

end Cert.Proof.KB

end
-- ==== Proof.ValueB.lean ====
import proofs.«208194_g50654844289024_cont_8to1c4_348_33_alg».proof.Proof.RowsB
import proofs.«208194_g50654844289024_cont_8to1c4_348_33_alg».proof.Proof.GeomB
import Idealize.ShloMosaic.Lib.SparseCore.Stream

/-!
  What one tile writes out.

  Result `i` of the kernel is the table entry at the word `first · 1000 + second`, where `first` and `second` are the
  interleaved index array's words at `256 (i / 128) + i % 128` and 128 further on. A tile reaches it in four steps: its
  1024 index words are the interleaved array's from `1024 w` on; row `r` of its scratch of gather indices holds the
  words' combinations (Rows); the gather brings, for lane `l` of row `r`, the table's entry at that row's lane-`l`
  word; and run `r` of its output, `128` results from `512 w + 128 r` on, is that row copied out.
-/

noncomputable section

namespace Cert.Proof.KB

open Cert.Kernel Cert.Kernel.Gen Idealize.ShloMosaic Idealize.ShloMosaic.ValueIdx

variable {F : FTy → Type}

local notation "a2" => (Memref.whole Cert.Kernel.main_v3_scv : Memref Cert.Kernel.sig Kind.scVector Space.hbm Cert.Kernel.S32768 EltTy.i32)
local notation "a3" => (Memref.whole Cert.Kernel.main_v4_scv : Memref Cert.Kernel.sig Kind.scVector Space.hbm Cert.Kernel.S1000000 EltTy.f32)
local notation "a4" => (Memref.whole Cert.Kernel.main_v5_scv : Memref Cert.Kernel.sig Kind.scVector Space.hbm Cert.Kernel.S16384 EltTy.f32)
local notation "a5" => (Memref.whole Cert.Kernel.cc0_scratch0 : Memref Cert.Kernel.sig Kind.scVector Space.vmem Cert.Kernel.S1024 EltTy.i32)
local notation "a6" => (Memref.whole Cert.Kernel.cc0_scratch1 : Memref Cert.Kernel.sig Kind.scVector Space.vmem Cert.Kernel.S4x128 EltTy.i32)
local notation "a7" => (Memref.whole Cert.Kernel.cc0_scratch2 : Memref Cert.Kernel.sig Kind.scVector Space.vmem Cert.Kernel.S4x128 EltTy.f32)

/-! ## The value the kernel computes, as one function of the result's index -/

/-- The word the kernel forms for result `i`: `first · 1000 + second`. -/
def wordAt (fi : S32768.Idx → BitVec 32) (i : S16384.Idx) : BitVec 32 :=
  fi (ix1 ⟨256 * ((i 0).val / 128) + (i 0).val % 128, by have h := (i 0).isLt; have h' : (i 0).val < 16384 := h; omega⟩) * 1000#32
    + fi (ix1 ⟨256 * ((i 0).val / 128) + 128 + (i 0).val % 128, by have h := (i 0).isLt; have h' : (i 0).val < 16384 := h; omega⟩)

/-- Result `i`: the flat table at the word's value. -/
def Gout (fi : S32768.Idx → BitVec 32) (ft : S1000000.Idx → Elt F .f32) (i : S16384.Idx) : Elt F .f32 :=
  ft (ix1 ⟨(wordAt fi i).toNat % 1000000, Nat.mod_lt _ (by norm_num)⟩)

/-! ## Rows of a 4 × 128 scratch -/

section Row
variable {e : EltTy} {Val : EltTy → Type}

/-- Row `r` of a 4 × 128 array, as the 128-vector the kernel's copies address. -/
abbrev rowM (M : Memref sig .scVector .vmem S4x128 e) (r : ℕ) (inb : ∀ a, (![r, 0] : Fin 2 → ℕ) a + S1x128.size a ≤ S4x128.size a) :
    Memref sig .scVector .vmem S128 e :=
  (M.slice (Rect.unit (s := S4x128) ![r, 0] S1x128.size inb) (fun _ => rfl)).squeeze S128 Cert.Kernel.Gen.squeezes_S1x128_S128

theorem rowM_emb (M : Memref sig .scVector .vmem S4x128 e) (r : ℕ) (hr : r < 4) (inb) (x : S128.Idx) :
    (rowM M r inb).view.emb x = M.view.emb (ix2 (⟨r, hr⟩ : Fin 4) (x 0)) := by
  show M.view.emb ((Rect.unit (s := S4x128) ![r, 0] S1x128.size inb).emb (Shape.reshapeEquiv _ x)) = _
  congr 1
  rw [Shape.reshapeEquiv_eq_of_rowMajor (y := (ix2 (0 : Fin 1) (x 0) : S1x128.Idx)) _
    (by rw [Shape.rowMajor_val_two, Shape.rowMajor_val_one]; show 0 * 128 + (x 0).val = (x 0).val; omega)]
  funext a
  match a with
  | ⟨0, _⟩ => apply Fin.ext; show r + 1 * 0 = r; omega
  | ⟨1, _⟩ => apply Fin.ext; show 0 + 1 * (x 0).val = (x 0).val; omega

theorem rowM_set (M : Memref sig .scVector .vmem S4x128 e) (r : ℕ) (inb) :
    (rowM M r inb).view.set = (Rect.unit (s := S4x128) ![r, 0] S1x128.size inb).set.map M.view.emb := by
  show ((M.view.slice _).reshape S128 _).set = _
  rw [View.set_reshape, View.set_slice]

theorem rowM_disjoint (M : Memref sig .scVector .vmem S4x128 e) (r r' : ℕ) (hne : r ≠ r') (inb inb') :
    Disjoint (rowM M r inb).view.set (rowM M r' inb').view.set := by
  rw [rowM_set, rowM_set, Finset.disjoint_map]
  exact Rect.unit_disjoint 0 (by show r + 1 ≤ r' ∨ r' + 1 ≤ r; omega)

/-- A row reads past a write of another row. -/
theorem read_row_write_ne (M : Memref sig .scVector .vmem S4x128 e) (r r' : ℕ) (hne : r ≠ r') (inb inb')
    (f : M.view.ty.Contents Val) (g : S128.Idx → Val e) :
    (rowM M r inb).view.read Val ((rowM M r' inb').view.write Val f g Finset.univ) = (rowM M r inb).view.read Val f :=
  View.read_congr fun _ hi => View.write_of_not_mem _ _ _ (fun h => Finset.disjoint_left.mp (rowM_disjoint M r r' hne inb inb') hi h)

/-- The four rows written one after the other: each reads what was written to it. -/
theorem read_nest0 (M : Memref sig .scVector .vmem S4x128 e) (f : M.view.ty.Contents Val) (g0 g1 g2 g3 : S128.Idx → Val e) (i0 i1 i2 i3 j) :
    (rowM M 0 j).view.read Val ((rowM M 3 i3).view.write Val ((rowM M 2 i2).view.write Val ((rowM M 1 i1).view.write Val
      ((rowM M 0 i0).view.write Val f g0 Finset.univ) g1 Finset.univ) g2 Finset.univ) g3 Finset.univ) = g0 := by
  rw [read_row_write_ne M 0 3 (by omega), read_row_write_ne M 0 2 (by omega), read_row_write_ne M 0 1 (by omega)]
  exact View.read_write_univ _ _
theorem read_nest1 (M : Memref sig .scVector .vmem S4x128 e) (f : M.view.ty.Contents Val) (g0 g1 g2 g3 : S128.Idx → Val e) (i0 i1 i2 i3 j) :
    (rowM M 1 j).view.read Val ((rowM M 3 i3).view.write Val ((rowM M 2 i2).view.write Val ((rowM M 1 i1).view.write Val
      ((rowM M 0 i0).view.write Val f g0 Finset.univ) g1 Finset.univ) g2 Finset.univ) g3 Finset.univ) = g1 := by
  rw [read_row_write_ne M 1 3 (by omega), read_row_write_ne M 1 2 (by omega)]
  exact View.read_write_univ _ _
theorem read_nest2 (M : Memref sig .scVector .vmem S4x128 e) (f : M.view.ty.Contents Val) (g0 g1 g2 g3 : S128.Idx → Val e) (i0 i1 i2 i3 j) :
    (rowM M 2 j).view.read Val ((rowM M 3 i3).view.write Val ((rowM M 2 i2).view.write Val ((rowM M 1 i1).view.write Val
      ((rowM M 0 i0).view.write Val f g0 Finset.univ) g1 Finset.univ) g2 Finset.univ) g3 Finset.univ) = g2 := by
  rw [read_row_write_ne M 2 3 (by omega)]
  exact View.read_write_univ _ _
theorem read_nest3 (M : Memref sig .scVector .vmem S4x128 e) (f : M.view.ty.Contents Val) (g0 g1 g2 g3 : S128.Idx → Val e) (i0 i1 i2 i3 j) :
    (rowM M 3 j).view.read Val ((rowM M 3 i3).view.write Val ((rowM M 2 i2).view.write Val ((rowM M 1 i1).view.write Val
      ((rowM M 0 i0).view.write Val f g0 Finset.univ) g1 Finset.univ) g2 Finset.univ) g3 Finset.univ) = g3 :=
  View.read_write_univ _ _

end Row

/-! ## The tile's index words and its rows of gather indices -/

/-- The 1024 index words of the tile at `L`, as the kernel slices them out of the interleaved array. -/
abbrev inSl (L : grid0.Coords) : Memref sig .scVector .hbm S1024 .i32 :=
  (a2).slice (Rect.unit (s := S32768) (k0_off1 L) S1024.size (k0_off1_inb L)) (fun _ => rfl)

/-- The tile's index words: word `z` is the interleaved array's at `2048 s + 1024 c + z`. -/
theorem inSl_read (L : grid0.Coords) (fi : S32768.Idx → BitVec 32) (z : S1024.Idx) :
    (inSl L).view.read (Elt F) fi z
      = fi (ix1 ⟨2048 * (L 1).val + 1024 * (L 0).val + (z 0).val, by
          have h0 : (L 0).val < 2 := (L 0).isLt; have h1 : (L 1).val < 16 := (L 1).isLt; have hz : (z 0).val < 1024 := (z 0).isLt; omega⟩) := by
  show fi ((Rect.unit (s := S32768) (k0_off1 L) S1024.size (k0_off1_inb L)).emb z) = _
  congr 1
  funext a
  match a with
  | ⟨0, _⟩ =>
    apply Fin.ext
    rw [Rect.emb_apply]
    show (k0_off1 L) 0 + 1 * (z 0).val = _
    rw [k0_off1_eq]
    show 2048 * (L 1).val + 1024 * (L 0).val + 1 * (z 0).val = 2048 * (L 1).val + 1024 * (L 0).val + (z 0).val
    omega

/-- Row `r` of the scratch of gather indices after the first `n ≥ 8 (r + 1)` stores. -/
theorem row6_read (g5 : S1024.Idx → BitVec 32) (g6 : S4x128.Idx → BitVec 32) (n : ℕ) (hn : n ≤ 32) (r : ℕ) (hr : r < 4) (h8 : 8 * (r + 1) ≤ n)
    (inb) (x : S128.Idx) :
    (rowM (a6) r inb).view.read (Elt F) ((a6).view.writes (Elt F) g6 (pieces (F := F) g5 n)) x = Qf g5 (ix2 (⟨r, hr⟩ : Fin 4) (x 0)) := by
  have hx : (x 0).val < 128 := (x 0).isLt
  rw [View.read_apply, rowM_emb (a6) r hr inb x]
  exact read_pieces g5 g6 n hn (ix2 (⟨r, hr⟩ : Fin 4) (x 0)) (by show 128 * r + (x 0).val < 16 * n; omega)

/-- The rank-one shape's row-major order is the index itself. -/
theorem rowMajor_symm_128 (k : Fin S128.numel) : (S128.rowMajor.symm k) 0 = ⟨k.val, k.isLt⟩ := by
  apply Fin.ext
  have h := Shape.rowMajor_val_one (d := ![128]) (S128.rowMajor.symm k)
  rw [Equiv.apply_symm_apply] at h
  exact h.symm

/-! ## What the gather brings, and what is copied out -/

/-- Lane `y` of the gather through row `r` of the index scratch is the result the kernel owes at position `y` of the tile's
    run `r`. -/
theorem gather_value (L : grid0.Coords) (fi : S32768.Idx → BitVec 32) (hpre : ∀ z, (fi z).toNat ≤ 999) (ft : S1000000.Idx → Elt F .f32)
    (g5 : S1024.Idx → BitVec 32) (hg5 : g5 = (inSl L).view.read (Elt F) fi)
    (g6 : S4x128.Idx → BitVec 32) (n : ℕ) (hn : n ≤ 32) (r : Fin 4) (h8 : 8 * (r.val + 1) ≤ n) (inb inb3)
    (hg : S1000000.Gathers 0 S128) (hnum : S128.numel = S128.size hg.axis')
    (hin : ∀ x, ((rowM (a6) r.val inb).view.read (Elt F) ((a6).view.writes (Elt F) g6 (pieces (F := F) g5 n)) x).toNat < S1000000.size hg.axis)
    (y : S128.Idx) :
    SparseCore.gatherPayload hg (((a3).slice (Rect.unit (s := S1000000) ![0] S1000000.size inb3) (fun _ => rfl)).view.read (Elt F) ft)
        (SparseCore.rows ((rowM (a6) r.val inb).view.read (Elt F) ((a6).view.writes (Elt F) g6 (pieces (F := F) g5 n))) hnum hin) y
      = Gout fi ft ((Rect.unit (s := S16384) (k0_off2 L (BitVec.ofNat 32 (128 * r.val))) S128.size (k0_off2_inb L r)).emb y) := by
  subst hg5
  have hy : (y 0).val < 128 := (y 0).isLt
  have h0 : (L 0).val < 2 := (L 0).isLt
  have h1 : (L 1).val < 16 := (L 1).isLt
  have hw5 : ∀ z, ((inSl L).view.read (Elt F) fi z).toNat ≤ 999 := fun z => by rw [inSl_read]; exact hpre _
  unfold SparseCore.gatherPayload Gout
  show ft ((Rect.unit (s := S1000000) ![0] S1000000.size inb3).emb (hg.idx _ y)) = _
  congr 1
  funext a
  match a with
  | ⟨0, _⟩ =>
    apply Fin.ext
    rw [Rect.emb_apply]
    show 0 + 1 * (hg.idx _ y hg.axis).val = (wordAt fi _).toNat % 1000000
    rw [Shape.Gathers.idx_axis]
    unfold SparseCore.rows
    show 0 + 1 * ((rowM (a6) r.val inb).view.read (Elt F) _ _).toNat = _
    rw [row6_read _ g6 n hn r.val r.isLt h8 inb, Nat.zero_add, Nat.one_mul]
    have hx0 : (S128.rowMajor.symm ((y hg.axis').cast hnum.symm)) 0 = y 0 := by
      rw [rowMajor_symm_128]; apply Fin.ext; rfl
    rw [hx0]
    have hlt := Qf_lt _ hw5 (ix2 (⟨r.val, r.isLt⟩ : Fin 4) (y 0))
    have hword : Qf ((inSl L).view.read (Elt F) fi) (ix2 (⟨r.val, r.isLt⟩ : Fin 4) (y 0))
        = wordAt fi ((Rect.unit (s := S16384) (k0_off2 L (BitVec.ofNat 32 (128 * r.val))) S128.size (k0_off2_inb L r)).emb y) := by
      have hemb : (((Rect.unit (s := S16384) (k0_off2 L (BitVec.ofNat 32 (128 * r.val))) S128.size (k0_off2_inb L r)).emb y) 0).val
          = 1024 * (L 1).val + 512 * (L 0).val + 128 * r.val + (y 0).val := by
        rw [Rect.emb_apply]
        show (k0_off2 L (BitVec.ofNat 32 (128 * r.val))) 0 + 1 * (y 0).val = _
        rw [k0_off2_eq]
        show 1024 * (L 1).val + 512 * (L 0).val + 128 * r.val + 1 * (y 0).val = _
        omega
      have hr : r.val < 4 := r.isLt
      unfold Qf wordAt
      rw [inSl_read, inSl_read]
      have key : ∀ (A B : ℕ) (hA : A < 32768) (hB : B < 32768), A = B → fi (ix1 ⟨A, hA⟩) = fi (ix1 ⟨B, hB⟩) := by
        intro A B hA hB h; subst h; rfl
      refine congrArg₂ (· + ·) (congrArg (· * 1000#32) (key _ _ _ _ ?_)) (key _ _ _ _ ?_)
      · show 2048 * (L 1).val + 1024 * (L 0).val + (256 * r.val + (y 0).val) = 256 * (_ / 128) + _ % 128
        rw [hemb]
        omega
      · show 2048 * (L 1).val + 1024 * (L 0).val + (256 * r.val + 128 + (y 0).val) = 256 * (_ / 128) + 128 + _ % 128
        rw [hemb]
        omega
    rw [← hword, Nat.mod_eq_of_lt hlt]

/-- The same bound the gathers ask of their index lists: every word of row `r` is below one million. -/
theorem row6_lt (L : grid0.Coords) (fi : S32768.Idx → BitVec 32) (hpre : ∀ z, (fi z).toNat ≤ 999)
    (g5 : S1024.Idx → BitVec 32) (hg5 : g5 = (inSl L).view.read (Elt F) fi)
    (g6 : S4x128.Idx → BitVec 32) (n : ℕ) (hn : n ≤ 32) (r : ℕ) (hr : r < 4) (h8 : 8 * (r + 1) ≤ n) (inb) (x : S128.Idx) :
    ((rowM (a6) r inb).view.read (Elt F) ((a6).view.writes (Elt F) g6 (pieces (F := F) g5 n)) x).toNat < 1000000 := by
  subst hg5
  rw [row6_read _ g6 n hn r hr h8 inb]
  exact Qf_lt _ (fun z => by rw [inSl_read]; exact hpre _) _

/-- A run written whole: the element under position `y` holds the payload's `y`. -/
theorem writes_whole_emb {sg : RefSig} {κ : Kind} {sp : Space} {s : Shape} {e : EltTy} {Val : EltTy → Type} (v : View sg κ sp s e)
    (f : v.ty.Contents Val) (w : s.Idx → Val e) (y : s.Idx) :
    v.read Val (v.writes Val f [⟨Rect.whole s, w⟩]) y = w y := by
  have h := View.read_writes_cons_emb v f (Rect.whole s) w [] y
  rw [Rect.emb_whole_apply] at h
  exact h

end Cert.Proof.KB

end
-- ==== Proof.SetupB.lean ====
import proofs.«208194_g50654844289024_cont_8to1c4_348_33_alg».proof.Defs
import Idealize.ShloMosaic.Lib.SparseCore.Launch
import Idealize.ShloMosaic.Lib.StableHlo.Run
import Idealize.ShloMosaic.Lib.Pipeline.Kit
import Idealize.ShloMosaic.Lib.Tactic
import proofs.«208194_g50654844289024_cont_8to1c4_348_33_alg».proof.Proof.Gen.Kernel
import proofs.«208194_g50654844289024_cont_8to1c4_348_33_alg».proof.Proof.Gen.Kernel.Skeleton
import proofs.«208194_g50654844289024_cont_8to1c4_348_33_alg».proof.Proof.ValueB

/-!
  The program as the launch theorem reads it: one vector-subcore call on two SparseCores of sixteen tiles each; the
  ghost state is the launch handshakes' rounds beside the local copies' counters; the three arrays the kernel names, and
  what each tile is handed of them — its run of the interleaved index array, a read share of the flat table, its four
  runs of the result array.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays, and a tile's part of each -/

abbrev iLoc (d : Dev nD) : Loc nD τ sig := (SparseCore.T d).loc main_v3
abbrev tLoc (d : Dev nD) : Loc nD τ sig := (SparseCore.T d).loc main_v4
abbrev oLoc (d : Dev nD) : Loc nD τ sig := (SparseCore.T d).loc main_v5

abbrev cV (L : grid0.Coords) : Fin τ.nSC := (L 0).castLE hcore0
abbrev jV (L : grid0.Coords) : Fin τ.nSub := (L 1).castLE hsub0

/-- The read share of the flat table the tile at `L` is handed: the two SparseCores halve it, each SparseCore's
    sixteen tiles take a token of its half. -/
def qT (L : grid0.Coords) : PosShare TreeShare := Transfers.shareTokN (Transfers.shareTokN fullShare (L 0).val) (L 1).val

end Cert.Proof.KB

end
-- ==== Proof.TileB.lean ====
import proofs.«208194_g50654844289024_cont_8to1c4_348_33_alg».proof.Proof.SetupB

/-!
  One tile's task, run once at a symbolic tile.

  The tile copies its 1024 index words in and waits; four times over it forms a row of 128 gather indices, sixteen
  at a time, and starts the gather of the flat table through that row into a row of its result scratch, each gather on a
  semaphore of its own; then, four times over, it waits for a gather and copies the row it brought out to its run of the
  result array, waiting for the copy. No gather's list, source or destination is touched while it is in flight: the
  stores of the later rows fall on other rows of the index scratch, and a row is copied out only after its gather's
  wait. The index words are at most 999, so every gather index is below one million (Rows): the gathers' range
  condition. At the end the four runs hold the kernel's function of the result's index (Value).
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "a2" => (Memref.whole Cert.Kernel.main_v3_scv : Memref Cert.Kernel.sig Kind.scVector Space.hbm Cert.Kernel.S32768 EltTy.i32)
local notation "a3" => (Memref.whole Cert.Kernel.main_v4_scv : Memref Cert.Kernel.sig Kind.scVector Space.hbm Cert.Kernel.S1000000 EltTy.f32)
local notation "a4" => (Memref.whole Cert.Kernel.main_v5_scv : Memref Cert.Kernel.sig Kind.scVector Space.hbm Cert.Kernel.S16384 EltTy.f32)
local notation "a5" => (Memref.whole Cert.Kernel.cc0_scratch0 : Memref Cert.Kernel.sig Kind.scVector Space.vmem Cert.Kernel.S1024 EltTy.i32)
local notation "a6" => (Memref.whole Cert.Kernel.cc0_scratch1 : Memref Cert.Kernel.sig Kind.scVector Space.vmem Cert.Kernel.S4x128 EltTy.i32)
local notation "a7" => (Memref.whole Cert.Kernel.cc0_scratch2 : Memref Cert.Kernel.sig Kind.scVector Space.vmem Cert.Kernel.S4x128 EltTy.f32)

local notation "𝕄" => MT nD τ sig (HIx 1) (Elt F) ℕ UU ℕ

/-! ## The tile's semaphores and scratch among its subcore's own -/

abbrev gsem0 : DmaSem sig := ((cc0_scratch3.slice (Rect.unit (s := S4) ![0] S1.size inb_S4_S1_0)).squeeze S_ squeezes_S1_S_).sem
abbrev gsem1 : DmaSem sig := ((cc0_scratch3.slice (Rect.unit (s := S4) ![1] S1.size inb_S4_S1_1)).squeeze S_ squeezes_S1_S_).sem
abbrev gsem2 : DmaSem sig := ((cc0_scratch3.slice (Rect.unit (s := S4) ![2] S1.size inb_S4_S1_2)).squeeze S_ squeezes_S1_S_).sem
abbrev gsem3 : DmaSem sig := ((cc0_scratch3.slice (Rect.unit (s := S4) ![3] S1.size inb_S4_S1_3)).squeeze S_ squeezes_S1_S_).sem

theorem cell_ne {thr : Thread nD τ} {a b : SemLoc sig} (h : a ≠ b) : ((thr, a) : GSem nD τ sig) ≠ (thr, b) := fun e => h (Prod.mk.inj e).2

variable (d : Dev nD) (c : Fin τ.nSC) (i : Fin τ.nSub)

theorem ownSems0_V :
    (ownSems0 (V d c i) : sProp 𝕄)
      = iprop(semVal ((V d c i, SemLoc.dma gsem0) : GSem nD τ sig) 0
          ∗ semVal ((V d c i, SemLoc.dma gsem1) : GSem nD τ sig) 0
          ∗ semVal ((V d c i, SemLoc.dma gsem2) : GSem nD τ sig) 0
          ∗ semVal ((V d c i, SemLoc.dma gsem3) : GSem nD τ sig) 0
          ∗ semVal ((V d c i, SemLoc.dma cc0_scoped0.sem) : GSem nD τ sig) 0
          ∗ semVal ((V d c i, SemLoc.dma cc0_scoped1.sem) : GSem nD τ sig) 0
          ∗ semVal ((V d c i, SemLoc.dma cc0_scoped2.sem) : GSem nD τ sig) 0
          ∗ semVal ((V d c i, SemLoc.dma cc0_scoped3.sem) : GSem nD τ sig) 0
          ∗ semVal ((V d c i, SemLoc.dma cc0_scoped4.sem) : GSem nD τ sig) 0
          ∗ bigSep ((((((((((ownCells (V d c i)).erase (V d c i, SemLoc.dma gsem0)).erase (V d c i, SemLoc.dma gsem1)).erase (V d c i, SemLoc.dma gsem2)).erase (V d c i, SemLoc.dma gsem3)).erase (V d c i, SemLoc.dma cc0_scoped0.sem)).erase (V d c i, SemLoc.dma cc0_scoped1.sem)).erase (V d c i, SemLoc.dma cc0_scoped2.sem)).erase (V d c i, SemLoc.dma cc0_scoped3.sem)).erase (V d c i, SemLoc.dma cc0_scoped4.sem)) fun g => semVal g 0) := by
  unfold SparseCore.Cfg.ownSems0
  rw [SparseCore.bigSep_erase' ((mem_ownCells (g := ((V d c i, SemLoc.dma gsem0) : GSem nD τ sig))).mpr ⟨rfl, by show (SemLoc.dma gsem0 : SemLoc sig).isScoped .scVector = true; decide⟩),
    SparseCore.bigSep_erase' (Finset.mem_erase.mpr ⟨cell_ne (show (SemLoc.dma gsem1 : SemLoc sig) ≠ SemLoc.dma gsem0 by decide), (mem_ownCells (g := ((V d c i, SemLoc.dma gsem1) : GSem nD τ sig))).mpr ⟨rfl, by show (SemLoc.dma gsem1 : SemLoc sig).isScoped .scVector = true; decide⟩⟩),
    SparseCore.bigSep_erase' (Finset.mem_erase.mpr ⟨cell_ne (show (SemLoc.dma gsem2 : SemLoc sig) ≠ SemLoc.dma gsem1 by decide), Finset.mem_erase.mpr ⟨cell_ne (show (SemLoc.dma gsem2 : SemLoc sig) ≠ SemLoc.dma gsem0 by decide), (mem_ownCells (g := ((V d c i, SemLoc.dma gsem2) : GSem nD τ sig))).mpr ⟨rfl, by show (SemLoc.dma gsem2 : SemLoc sig).isScoped .scVector = true; decide⟩⟩⟩),
    SparseCore.bigSep_erase' (Finset.mem_erase.mpr ⟨cell_ne (show (SemLoc.dma gsem3 : SemLoc sig) ≠ SemLoc.dma gsem2 by decide), Finset.mem_erase.mpr ⟨cell_ne (show (SemLoc.dma gsem3 : SemLoc sig) ≠ SemLoc.dma gsem1 by decide), Finset.mem_erase.mpr ⟨cell_ne (show (SemLoc.dma gsem3 : SemLoc sig) ≠ SemLoc.dma gsem0 by decide), (mem_ownCells (g := ((V d c i, SemLoc.dma gsem3) : GSem nD τ sig))).mpr ⟨rfl, by show (SemLoc.dma gsem3 : SemLoc sig).isScoped .scVector = true; decide⟩⟩⟩⟩),
    SparseCore.bigSep_erase' (Finset.mem_erase.mpr ⟨cell_ne (show (SemLoc.dma cc0_scoped0.sem : SemLoc sig) ≠ SemLoc.dma gsem3 by decide), Finset.mem_erase.mpr ⟨cell_ne (show (SemLoc.dma cc0_scoped0.sem : SemLoc sig) ≠ SemLoc.dma gsem2 by decide), Finset.mem_erase.mpr ⟨cell_ne (show (SemLoc.dma cc0_scoped0.sem : SemLoc sig) ≠ SemLoc.dma gsem1 by decide), Finset.mem_erase.mpr ⟨cell_ne (show (SemLoc.dma cc0_scoped0.sem : SemLoc sig) ≠ SemLoc.dma gsem0 by decide), (mem_ownCells (g := ((V d c i, SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨cell_ne (show (SemLoc.dma cc0_scoped1.sem : SemLoc sig) ≠ SemLoc.dma cc0_scoped0.sem by decide), Finset.mem_erase.mpr ⟨cell_ne (show (SemLoc.dma cc0_scoped1.sem : SemLoc sig) ≠ SemLoc.dma gsem3 by decide), Finset.mem_erase.mpr ⟨cell_ne (show (SemLoc.dma cc0_scoped1.sem : SemLoc sig) ≠ SemLoc.dma gsem2 by decide), Finset.mem_erase.mpr ⟨cell_ne (show (SemLoc.dma cc0_scoped1.sem : SemLoc sig) ≠ SemLoc.dma gsem1 by decide), Finset.mem_erase.mpr ⟨cell_ne (show (SemLoc.dma cc0_scoped1.sem : SemLoc sig) ≠ SemLoc.dma gsem0 by decide), (mem_ownCells (g := ((V d c i, SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨cell_ne (show (SemLoc.dma cc0_scoped2.sem : SemLoc sig) ≠ SemLoc.dma cc0_scoped1.sem by decide), Finset.mem_erase.mpr ⟨cell_ne (show (SemLoc.dma cc0_scoped2.sem : SemLoc sig) ≠ SemLoc.dma cc0_scoped0.sem by decide), Finset.mem_erase.mpr ⟨cell_ne (show (SemLoc.dma cc0_scoped2.sem : SemLoc sig) ≠ SemLoc.dma gsem3 by decide), Finset.mem_erase.mpr ⟨cell_ne (show (SemLoc.dma cc0_scoped2.sem : SemLoc sig) ≠ SemLoc.dma gsem2 by decide), Finset.mem_erase.mpr ⟨cell_ne (show (SemLoc.dma cc0_scoped2.sem : SemLoc sig) ≠ SemLoc.dma gsem1 by decide), Finset.mem_erase.mpr ⟨cell_ne (show (SemLoc.dma cc0_scoped2.sem : SemLoc sig) ≠ SemLoc.dma gsem0 by decide), (mem_ownCells (g := ((V d c i, SemLoc.dma cc0_scoped2.sem) : GSem nD τ sig))).mpr ⟨rfl, by show (SemLoc.dma cc0_scoped2.sem : SemLoc sig).isScoped .scVector = true; decide⟩⟩⟩⟩⟩⟩⟩),
    SparseCore.bigSep_erase' (Finset.mem_erase.mpr ⟨cell_ne (show (SemLoc.dma cc0_scoped3.sem : SemLoc sig) ≠ SemLoc.dma cc0_scoped2.sem by decide), Finset.mem_erase.mpr ⟨cell_ne (show (SemLoc.dma cc0_scoped3.sem : SemLoc sig) ≠ SemLoc.dma cc0_scoped1.sem by decide), Finset.mem_erase.mpr ⟨cell_ne (show (SemLoc.dma cc0_scoped3.sem : SemLoc sig) ≠ SemLoc.dma cc0_scoped0.sem by decide), Finset.mem_erase.mpr ⟨cell_ne (show (SemLoc.dma cc0_scoped3.sem : SemLoc sig) ≠ SemLoc.dma gsem3 by decide), Finset.mem_erase.mpr ⟨cell_ne (show (SemLoc.dma cc0_scoped3.sem : SemLoc sig) ≠ SemLoc.dma gsem2 by decide), Finset.mem_erase.mpr ⟨cell_ne (show (SemLoc.dma cc0_scoped3.sem : SemLoc sig) ≠ SemLoc.dma gsem1 by decide), Finset.mem_erase.mpr ⟨cell_ne (show (SemLoc.dma cc0_scoped3.sem : SemLoc sig) ≠ SemLoc.dma gsem0 by decide), (mem_ownCells (g := ((V d c i, SemLoc.dma cc0_scoped3.sem) : GSem nD τ sig))).mpr ⟨rfl, by show (SemLoc.dma cc0_scoped3.sem : SemLoc sig).isScoped .scVector = true; decide⟩⟩⟩⟩⟩⟩⟩⟩),
    SparseCore.bigSep_erase' (Finset.mem_erase.mpr ⟨cell_ne (show (SemLoc.dma cc0_scoped4.sem : SemLoc sig) ≠ SemLoc.dma cc0_scoped3.sem by decide), Finset.mem_erase.mpr ⟨cell_ne (show (SemLoc.dma cc0_scoped4.sem : SemLoc sig) ≠ SemLoc.dma cc0_scoped2.sem by decide), Finset.mem_erase.mpr ⟨cell_ne (show (SemLoc.dma cc0_scoped4.sem : SemLoc sig) ≠ SemLoc.dma cc0_scoped1.sem by decide), Finset.mem_erase.mpr ⟨cell_ne (show (SemLoc.dma cc0_scoped4.sem : SemLoc sig) ≠ SemLoc.dma cc0_scoped0.sem by decide), Finset.mem_erase.mpr ⟨cell_ne (show (SemLoc.dma cc0_scoped4.sem : SemLoc sig) ≠ SemLoc.dma gsem3 by decide), Finset.mem_erase.mpr ⟨cell_ne (show (SemLoc.dma cc0_scoped4.sem : SemLoc sig) ≠ SemLoc.dma gsem2 by decide), Finset.mem_erase.mpr ⟨cell_ne (show (SemLoc.dma cc0_scoped4.sem : SemLoc sig) ≠ SemLoc.dma gsem1 by decide), Finset.mem_erase.mpr ⟨cell_ne (show (SemLoc.dma cc0_scoped4.sem : SemLoc sig) ≠ SemLoc.dma gsem0 by decide), (mem_ownCells (g := ((V d c i, SemLoc.dma cc0_scoped4.sem) : GSem nD τ sig))).mpr ⟨rfl, by show (SemLoc.dma cc0_scoped4.sem : SemLoc sig).isScoped .scVector = true; decide⟩⟩⟩⟩⟩⟩⟩⟩⟩)]

theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)
          ∗ bigSep ((((ownRefs (τ := τ) (.scVector c i)).erase ((Proc.scVector c i).devRef cc0_scratch0)).erase
              ((Proc.scVector c i).devRef cc0_scratch1)).erase ((Proc.scVector c i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector c i) (b := (Proc.scVector c i).devRef cc0_scratch2) rfl⟩⟩)]

/-! ## The tile's share of the three arrays -/

abbrev outSl0 (L : grid0.Coords) : Memref sig .scVector .hbm S128 .f32 := ((a4).slice (Rect.unit (s := S16384) (k0_off2 L 0#32) S128.size (k0_off2_inb L 0)) (fun _ => rfl))
abbrev outSl1 (L : grid0.Coords) : Memref sig .scVector .hbm S128 .f32 := ((a4).slice (Rect.unit (s := S16384) (k0_off2 L 128#32) S128.size (k0_off2_inb L 1)) (fun _ => rfl))
abbrev outSl2 (L : grid0.Coords) : Memref sig .scVector .hbm S128 .f32 := ((a4).slice (Rect.unit (s := S16384) (k0_off2 L 256#32) S128.size (k0_off2_inb L 2)) (fun _ => rfl))
abbrev outSl3 (L : grid0.Coords) : Memref sig .scVector .hbm S128 .f32 := ((a4).slice (Rect.unit (s := S16384) (k0_off2 L 384#32) S128.size (k0_off2_inb L 3)) (fun _ => rfl))

/-- What a tile is handed: its run of the interleaved index array, its read share of the flat table, its four runs of
    the result array. -/
def tileGo (L : grid0.Coords) (fi : Buf (Elt F) (iLoc d)) (ft : Buf (Elt F) (tLoc d)) (fo : Buf (Elt F) (oLoc d)) : sProp 𝕄 :=
  iprop((iLoc d ↦[inSet L]{fullShare} fi) ∗ (tLoc d ↦{qT L} ft)
    ∗ (oLoc d ↦[outSet L 0]{fullShare} fo) ∗ (oLoc d ↦[outSet L 1]{fullShare} fo) ∗ (oLoc d ↦[outSet L 2]{fullShare} fo) ∗ (oLoc d ↦[outSet L 3]{fullShare} fo))

/-- What it hands back: the same, its four runs at the kernel's function of the result's index. -/
def tileTd (L : grid0.Coords) (fi : Buf (Elt F) (iLoc d)) (ft : Buf (Elt F) (tLoc d)) : sProp 𝕄 :=
  tileGo d L fi ft (Gout fi ft)

variable (L : grid0.Coords)

theorem pts_in (q : PosShare TreeShare) (f : Buf (Elt F) (iLoc d)) :
    ((inSl L).view.loc (V d (cV L) (jV L)) ↦[(inSl L).view.set]{q} f : sProp 𝕄) = (iLoc d ↦[inSet L]{q} f) := by
  unfold inSet
  have h : (inSl L).view.set = (Rect.unit (s := S32768) (k0_off1 L) S1024.size (k0_off1_inb L)).set := View.set_slice_whole _ _
  rw [h]
theorem pts_out0 (f : Buf (Elt F) (oLoc d)) :
    ((outSl0 L).view.loc (V d (cV L) (jV L)) ↦[(outSl0 L).view.set]{fullShare} f : sProp 𝕄) = (oLoc d ↦[outSet L 0]{fullShare} f) := by
  unfold outSet
  have h : (outSl0 L).view.set = (Rect.unit (s := S16384) (k0_off2 L 0#32) S128.size (k0_off2_inb L 0)).set := View.set_slice_whole _ _
  rw [h]
  try rfl
theorem pts_out1 (f : Buf (Elt F) (oLoc d)) :
    ((outSl1 L).view.loc (V d (cV L) (jV L)) ↦[(outSl1 L).view.set]{fullShare} f : sProp 𝕄) = (oLoc d ↦[outSet L 1]{fullShare} f) := by
  unfold outSet
  have h : (outSl1 L).view.set = (Rect.unit (s := S16384) (k0_off2 L 128#32) S128.size (k0_off2_inb L 1)).set := View.set_slice_whole _ _
  rw [h]
  try rfl
theorem pts_out2 (f : Buf (Elt F) (oLoc d)) :
    ((outSl2 L).view.loc (V d (cV L) (jV L)) ↦[(outSl2 L).view.set]{fullShare} f : sProp 𝕄) = (oLoc d ↦[outSet L 2]{fullShare} f) := by
  unfold outSet
  have h : (outSl2 L).view.set = (Rect.unit (s := S16384) (k0_off2 L 256#32) S128.size (k0_off2_inb L 2)).set := View.set_slice_whole _ _
  rw [h]
  try rfl
theorem pts_out3 (f : Buf (Elt F) (oLoc d)) :
    ((outSl3 L).view.loc (V d (cV L) (jV L)) ↦[(outSl3 L).view.set]{fullShare} f : sProp 𝕄) = (oLoc d ↦[outSet L 3]{fullShare} f) := by
  unfold outSet
  have h : (outSl3 L).view.set = (Rect.unit (s := S16384) (k0_off2 L 384#32) S128.size (k0_off2_inb L 3)).set := View.set_slice_whole _ _
  rw [h]
  try rfl

theorem toks4 (ℓ : Loc nD τ sig) (f : Buf (Elt F) ℓ) (q : PosShare TreeShare) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h := Transfers.pointsTo_toks_range (Ix := HIx 1) (Name := ℕ) (U := UU) (Lvl := ℕ) (ℓ := ℓ) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

/-- A run written whole: the element under position `y` holds the payload's `y`. -/
theorem writes_whole_apply {sg : RefSig} {κ : Kind} {sp : Space} {s : Shape} {e : EltTy} {Val : EltTy → Type} (v : View sg κ sp s e)
    (f : v.ty.Contents Val) (w : s.Idx → Val e) (y : s.Idx) :
    v.writes Val f [⟨Rect.whole s, w⟩] (v.emb y) = _root_.cast (congrArg Val v.elt_eq.symm) (w y) := by
  have h := View.write_emb_of_mem (v := v.slice (Rect.whole s)) f w (Finset.mem_univ y)
  have he : (v.slice (Rect.whole s)).emb y = v.emb y := by
    show v.emb ((Rect.whole s).emb y) = _
    rw [Rect.emb_whole_apply]
  rw [he] at h
  exact h

/-- The index scratch, held as row 0, row 1 and the rest, is the scratch whole. -/
theorem a6_join (g0 g1 g2 : Buf (Elt F) ((V d (cV L) (jV L)).loc cc0_scratch1)) (i0 i1) :
    iprop(((a6).view.loc (V d (cV L) (jV L)) ↦[(rowM (a6) 0 i0).view.set]{fullShare} g0)
        ∗ ((a6).view.loc (V d (cV L) (jV L)) ↦[(rowM (a6) 1 i1).view.set]{fullShare} g1)
        ∗ ((a6).view.loc (V d (cV L) (jV L)) ↦[(Finset.univ \ (rowM (a6) 0 i0).view.set) \ (rowM (a6) 1 i1).view.set]{fullShare} g2))
      ⊢ (iprop(∃ f, (V d (cV L) (jV L)).loc cc0_scratch1 ↦{fullShare} f) : sProp 𝕄) := by
  iintro ⟨H0, H1, H2⟩
  ihave H12 := (pointsTo_join_subset (ℓ := (V d (cV L) (jV L)).loc cc0_scratch1) (I := (rowM (a6) 1 i1).view.set) (S := Finset.univ \ (rowM (a6) 0 i0).view.set)
      (Finset.subset_sdiff.mpr ⟨Finset.subset_univ _, rowM_disjoint (a6) 1 0 (by omega) i1 i0⟩)) $$ [H1 H2]
  · isplitl [H1] <;> iassumption
  ihave H := (pointsTo_join_subset (ℓ := (V d (cV L) (jV L)).loc cc0_scratch1) (I := (rowM (a6) 0 i0).view.set) (S := Finset.univ) (Finset.subset_univ _)) $$ [H0 H12]
  · isplitl [H0] <;> iassumption
  iexists _; iexact H

/-! ## The task -/

theorem tile_body (hF : (K (F := F)).Facts) (fi : Buf (Elt F) (iLoc d)) (ft : Buf (Elt F) (tLoc d)) (fo : Buf (Elt F) (oLoc d))
    (hpre : ∀ z, (fi z).toNat ≤ 999) (O : CellTallies nD τ sig (HIx 1)) (W : Waits sig (HIx 1)) (hO : ∀ g, O g none = 0) :
    iprop(levAts (K (F := F)).L (K (F := F)).lev ∗ emp ∗ tileGo d L fi ft fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L a2 (Memref.isWhole_whole _) a3 (Memref.isWhole_whole _) a4 (Memref.isWhole_whole _)
            a5 (Memref.isWhole_whole _) a6 (Memref.isWhole_whole _) a7 (Memref.isWhole_whole _) cc0_scratch3 cc0_scoped0 cc0_scoped1 cc0_scoped2 cc0_scoped3 cc0_scoped4)
          fun _ => iprop(tileTd d L fi ft ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileTd tileGo
  iintro ⟨#Hlv, -, ⟨Hin, Ht, Ho0, Ho1, Ho2, Ho3⟩, ⟨⟨%f5, H5⟩, ⟨%f6, H6⟩, ⟨%f7, H7⟩, Hbufs⟩, ⟨Hg0, Hg1, Hg2, Hg3, Hs0, Hs1, Hs2, Hs3, Hs4, Hsems⟩, HO⟩
  ihave Hmw := ((K (F := F)).mayWaits_none (thr := (V d (cV L) (jV L))) hO) $$ Hlv
  ihave Htt := ((toks4 (F := F) (tLoc d) ft (qT L)).1) $$ Ht
  icases Htt with ⟨Htd, Ht0, Ht1, Ht2, Ht3⟩
  ihave Hin := (Entails.of_eq (pts_in (F := F) d L fullShare fi).symm) $$ Hin
  ihave Ht0 := (Entails.of_eq (show (tLoc d ↦{Transfers.shareTokN (qT L) 0} ft : sProp 𝕄) = ((a3).view.loc (V d (cV L) (jV L)) ↦{Transfers.shareTokN (qT L) 0} ft) from rfl)) $$ Ht0
  ihave Ht1 := (Entails.of_eq (show (tLoc d ↦{Transfers.shareTokN (qT L) 1} ft : sProp 𝕄) = ((a3).view.loc (V d (cV L) (jV L)) ↦{Transfers.shareTokN (qT L) 1} ft) from rfl)) $$ Ht1
  ihave Ht2 := (Entails.of_eq (show (tLoc d ↦{Transfers.shareTokN (qT L) 2} ft : sProp 𝕄) = ((a3).view.loc (V d (cV L) (jV L)) ↦{Transfers.shareTokN (qT L) 2} ft) from rfl)) $$ Ht2
  ihave Ht3 := (Entails.of_eq (show (tLoc d ↦{Transfers.shareTokN (qT L) 3} ft : sProp 𝕄) = ((a3).view.loc (V d (cV L) (jV L)) ↦{Transfers.shareTokN (qT L) 3} ft) from rfl)) $$ Ht3
  ihave Ho0 := (Entails.of_eq (pts_out0 (F := F) d L fo).symm) $$ Ho0
  ihave Ho1 := (Entails.of_eq (pts_out1 (F := F) d L fo).symm) $$ Ho1
  ihave Ho2 := (Entails.of_eq (pts_out2 (F := F) d L fo).symm) $$ Ho2
  ihave Ho3 := (Entails.of_eq (pts_out3 (F := F) d L fo).symm) $$ Ho3
  ihave H5 := (Entails.of_eq (show ((V d (cV L) (jV L)).loc cc0_scratch0 ↦{fullShare} f5 : sProp 𝕄) = ((a5).view.loc (V d (cV L) (jV L)) ↦{fullShare} f5) from rfl)) $$ H5
  ihave H6 := (Entails.of_eq (show ((V d (cV L) (jV L)).loc cc0_scratch1 ↦{fullShare} f6 : sProp 𝕄) = ((a6).view.loc (V d (cV L) (jV L)) ↦{fullShare} f6) from rfl)) $$ H6
  ihave H7 := (Entails.of_eq (show ((V d (cV L) (jV L)).loc cc0_scratch2 ↦{fullShare} f7 : sProp 𝕄) = ((a7).view.loc (V d (cV L) (jV L)) ↦{fullShare} f7) from rfl)) $$ H7
  sl_exec_parts
  -- the index words the copy brought in
  have hF5 : View.write (Elt F) (a5).view f5 (tile_body.sl.dma0 d L fi) Finset.univ = (inSl L).view.read (Elt F) fi :=
    View.write_whole_univ _ _ _
  have hin0 : ∀ x, ((rowM (a6) 0 inb_S4x128_S1x128_0_0).view.read (Elt F) ((a6).view.writes (Elt F) f6 (tile_body.sl.H6_8 d L fi f5)) x).toNat < S1000000.size gathers_S1000000_S128.axis :=
    fun x => row6_lt L fi hpre _ hF5 f6 8 (by omega) 0 (by omega) (by omega) _ x
  sl_exec_parts
  have hin1 : ∀ x, ((rowM (a6) 1 inb_S4x128_S1x128_1_0).view.read (Elt F) ((a6).view.writes (Elt F) f6 (tile_body.sl.H6_16 d L fi f5)) x).toNat < S1000000.size gathers_S1000000_S128.axis :=
    fun x => row6_lt L fi hpre _ hF5 f6 16 (by omega) 1 (by omega) (by omega) _ x
  sl_exec_parts
  have hin2 : ∀ x, ((rowM (a6) 2 inb_S4x128_S1x128_2_0).view.read (Elt F) ((a6).view.writes (Elt F) f6 (tile_body.sl.H6_24 d L fi f5)) x).toNat < S1000000.size gathers_S1000000_S128.axis :=
    fun x => row6_lt L fi hpre _ hF5 f6 24 (by omega) 2 (by omega) (by omega) _ x
  sl_exec_parts
  have hin3 : ∀ x, ((rowM (a6) 3 inb_S4x128_S1x128_3_0).view.read (Elt F) ((a6).view.writes (Elt F) f6 (tile_body.sl.H6_32 d L fi f5)) x).toNat < S1000000.size gathers_S1000000_S128.axis :=
    fun x => row6_lt L fi hpre _ hF5 f6 32 (by omega) 3 (by omega) (by omega) _ x
  sl_exec_parts
  have hval0 : ∀ i ∈ (outSl0 L).view.set, ((outSl0 L).view.writes (Elt F) fo [⟨Rect.whole S128, tile_body.sl.dma0_1 d L fi ft f5 f6 f7 hin0 hin1 hin2 hin3⟩]) i = Gout fi ft i := by
    intro i hi
    obtain ⟨y, -, rfl⟩ := Finset.mem_map.mp hi
    refine ((writes_whole_apply (outSl0 L).view fo _ y).trans (cast_eq _ _)).trans ?_
    show (rowM (a7) 0 inb_S4x128_S1x128_0_0).view.read (Elt F) _ y = _
    rw [read_nest0]
    exact gather_value L fi hpre ft _ hF5 f6 8 (by omega) (0 : Fin 4) (by show 8 * (0 + 1) ≤ 8; omega) _ _ _ _ _ y
  have hval1 : ∀ i ∈ (outSl1 L).view.set, ((outSl1 L).view.writes (Elt F) fo [⟨Rect.whole S128, tile_body.sl.dma0_2 d L fi ft f5 f6 f7 hin0 hin1 hin2 hin3⟩]) i = Gout fi ft i := by
    intro i hi
    obtain ⟨y, -, rfl⟩ := Finset.mem_map.mp hi
    refine ((writes_whole_apply (outSl1 L).view fo _ y).trans (cast_eq _ _)).trans ?_
    show (rowM (a7) 1 inb_S4x128_S1x128_1_0).view.read (Elt F) _ y = _
    rw [read_nest1]
    exact gather_value L fi hpre ft _ hF5 f6 16 (by omega) (1 : Fin 4) (by show 8 * (1 + 1) ≤ 16; omega) _ _ _ _ _ y
  have hval2 : ∀ i ∈ (outSl2 L).view.set, ((outSl2 L).view.writes (Elt F) fo [⟨Rect.whole S128, tile_body.sl.dma0_3 d L fi ft f5 f6 f7 hin0 hin1 hin2 hin3⟩]) i = Gout fi ft i := by
    intro i hi
    obtain ⟨y, -, rfl⟩ := Finset.mem_map.mp hi
    refine ((writes_whole_apply (outSl2 L).view fo _ y).trans (cast_eq _ _)).trans ?_
    show (rowM (a7) 2 inb_S4x128_S1x128_2_0).view.read (Elt F) _ y = _
    rw [read_nest2]
    exact gather_value L fi hpre ft _ hF5 f6 24 (by omega) (2 : Fin 4) (by show 8 * (2 + 1) ≤ 24; omega) _ _ _ _ _ y
  have hval3 : ∀ i ∈ (outSl3 L).view.set, ((outSl3 L).view.writes (Elt F) fo [⟨Rect.whole S128, tile_body.sl.dma0_4 d L fi ft f5 f6 f7 hin0 hin1 hin2 hin3⟩]) i = Gout fi ft i := by
    intro i hi
    obtain ⟨y, -, rfl⟩ := Finset.mem_map.mp hi
    refine ((writes_whole_apply (outSl3 L).view fo _ y).trans (cast_eq _ _)).trans ?_
    show (rowM (a7) 3 inb_S4x128_S1x128_3_0).view.read (Elt F) _ y = _
    rw [read_nest3]
    exact gather_value L fi hpre ft _ hF5 f6 32 (by omega) (3 : Fin 4) (by show 8 * (3 + 1) ≤ 32; omega) _ _ _ _ _ y
  ihave Ho0 := (Entails.of_eq (pointsTo_congr hval0)) $$ Ho0
  ihave Ho0 := (Entails.of_eq (pts_out0 (F := F) d L (Gout fi ft))) $$ Ho0
  ihave Ho1 := (Entails.of_eq (pointsTo_congr hval1)) $$ Ho1
  ihave Ho1 := (Entails.of_eq (pts_out1 (F := F) d L (Gout fi ft))) $$ Ho1
  ihave Ho2 := (Entails.of_eq (pointsTo_congr hval2)) $$ Ho2
  ihave Ho2 := (Entails.of_eq (pts_out2 (F := F) d L (Gout fi ft))) $$ Ho2
  ihave Ho3 := (Entails.of_eq (pointsTo_congr hval3)) $$ Ho3
  ihave Ho3 := (Entails.of_eq (pts_out3 (F := F) d L (Gout fi ft))) $$ Ho3
  ihave Hin := (Entails.of_eq (pts_in (F := F) d L fullShare fi)) $$ Hin
  ihave Ht := ((toks4 (F := F) (tLoc d) ft (qT L)).2) $$ [Htd Ht0 Ht1 Ht2 Ht3]
  · isplitl [Htd]; · iexact Htd
    isplitl [Ht0]; · iexact Ht0
    isplitl [Ht1]; · iexact Ht1
    isplitl [Ht2]; · iexact Ht2
    iexact Ht3
  ihave H6' := (a6_join (F := F) d L _ _ _ _ _) $$ [H6_2 H6_3 H6]
  · isplitl [H6_2]; · iexact H6_2
    isplitl [H6_3]; · iexact H6_3
    iexact H6
  sl_step
  isplitl [Hin Ht Ho0 Ho1 Ho2 Ho3]
  · isplitl [Hin]; · iexact Hin
    isplitl [Ht]; · iexact Ht
    isplitl [Ho0]; · iexact Ho0
    isplitl [Ho1]; · iexact Ho1
    isplitl [Ho2]; · iexact Ho2
    iexact Ho3
  isplitl [H5 H6' H7 Hbufs]
  · isplitl [H5]; · iexists _; iexact H5
    isplitl [H6']; · iexact H6'
    isplitl [H7]; · iexists _; iexact H7
    iexact Hbufs
  isplitl [Hg0 Hg1 Hg2 Hg3 Hs0 Hs1 Hs2 Hs3 Hs4 Hsems]
  · isplitl [Hg0]; · iexact Hg0
    isplitl [Hg1]; · iexact Hg1
    isplitl [Hg2]; · iexact Hg2
    isplitl [Hg3]; · iexact Hg3
    isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  rotate_left
  · iexact HO
  · ipureintro; intro p hp
    repeat (rcases Finset.mem_insert.mp hp with rfl | hp; · exact .inr rfl)
    exact .inl hp

end Cert.Proof.KB

end
-- ==== Proof.LaunchB.lean ====
import proofs.«208194_g50654844289024_cont_8to1c4_348_33_alg».proof.Proof.TileB

/-!
  The launch: what the one SparseCore call carries, and how the arrays are dealt.

  The call hands each of the two SparseCores its sixteen tiles' parts of the interleaved index array and of the result
  array, and half the read share of the flat table, a sixteenth of it (but for a remainder kept with the SparseCore) to
  each tile; the tiles hand the same back, the result runs at the kernel's function. The thirty-two input runs tile the
  index array and the hundred and twenty-eight output runs the result array (Geom), so the arrays held whole are exactly
  the tiles' parts.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "a2" => (Memref.whole Cert.Kernel.main_v3_scv : Memref Cert.Kernel.sig Kind.scVector Space.hbm Cert.Kernel.S32768 EltTy.i32)
local notation "a3" => (Memref.whole Cert.Kernel.main_v4_scv : Memref Cert.Kernel.sig Kind.scVector Space.hbm Cert.Kernel.S1000000 EltTy.f32)
local notation "a4" => (Memref.whole Cert.Kernel.main_v5_scv : Memref Cert.Kernel.sig Kind.scVector Space.hbm Cert.Kernel.S16384 EltTy.f32)
local notation "a5" => (Memref.whole Cert.Kernel.cc0_scratch0 : Memref Cert.Kernel.sig Kind.scVector Space.vmem Cert.Kernel.S1024 EltTy.i32)
local notation "a6" => (Memref.whole Cert.Kernel.cc0_scratch1 : Memref Cert.Kernel.sig Kind.scVector Space.vmem Cert.Kernel.S4x128 EltTy.i32)
local notation "a7" => (Memref.whole Cert.Kernel.cc0_scratch2 : Memref Cert.Kernel.sig Kind.scVector Space.vmem Cert.Kernel.S4x128 EltTy.f32)

local notation "𝕄" => MT nD τ sig (HIx 1) (Elt F) ℕ UU ℕ

theorem bound0 : (K (F := F)).nCore 0 = 2 := rfl
theorem bound1 : (K (F := F)).nSub 0 = 16 := rfl

/-- The four runs of the result array the tile (c, s) writes. -/
def oBlock (d : Dev nD) (c : Fin 2) (s : Fin 16) (go : Buf (Elt F) (oLoc d)) : sProp 𝕄 :=
  iprop((oLoc d ↦[outSet (co c s) 0]{fullShare} go) ∗ (oLoc d ↦[outSet (co c s) 1]{fullShare} go)
    ∗ (oLoc d ↦[outSet (co c s) 2]{fullShare} go) ∗ (oLoc d ↦[outSet (co c s) 3]{fullShare} go))

/-- What a SparseCore is handed: what its half of the table's read share leaves after its tiles' tokens, and its
    sixteen tiles' parts. -/
def coreSt (d : Dev nD) (c : Fin 2) (gi : Buf (Elt F) (iLoc d)) (gt : Buf (Elt F) (tLoc d)) (go : Buf (Elt F) (oLoc d)) : sProp 𝕄 :=
  iprop((tLoc d ↦{Transfers.shareDrop (Transfers.shareTokN fullShare c.val) 16} gt) ∗ bigSep Finset.univ fun s : Fin 16 => tileGo d (co c s) gi gt go)

theorem tileGo_eq (d : Dev nD) (c : Fin 2) (s : Fin 16) (gi : Buf (Elt F) (iLoc d)) (gt : Buf (Elt F) (tLoc d)) (go : Buf (Elt F) (oLoc d)) :
    (tileGo d (co c s) gi gt go : sProp 𝕄)
      = iprop((iLoc d ↦[inSet (co c s)]{fullShare} gi) ∗ (tLoc d ↦{Transfers.shareTok (Transfers.shareTokN fullShare c.val) 16 s} gt) ∗ oBlock d c s go) := rfl

theorem fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The interleaved index array held whole is the thirty-two tiles' runs of it. -/
theorem iPts_tiles (d : Dev nD) (g : Buf (Elt F) (iLoc d)) :
    (iLoc d ↦{fullShare} g : sProp 𝕄) = bigSep Finset.univ fun c : Fin 2 => bigSep Finset.univ fun s : Fin 16 => iLoc d ↦[inSet (co c s)]{fullShare} g := by
  have h1 : (iLoc d ↦{fullShare} g : sProp 𝕄) = bigSep Finset.univ fun p : Fin 2 × Fin 16 => iLoc d ↦[inSet (co p.1 p.2)]{fullShare} g := by
    rw [← pointsTo_biUnion Finset.univ (ℓ := iLoc d) (fun p : Fin 2 × Fin 16 => inSet (co p.1 p.2)) (fun p _ p' _ h => inSet_disjoint p p' h), inSet_cover]
    try rfl
  rw [h1, ← Finset.univ_product_univ]
  exact SparseCore.bigSep_product Finset.univ Finset.univ (fun p : Fin 2 × Fin 16 => (iLoc d ↦[inSet (co p.1 p.2)]{fullShare} g : sProp 𝕄))

/-- The result array held whole is the hundred and twenty-eight runs the tiles write. -/
theorem oPts_tiles (d : Dev nD) (g : Buf (Elt F) (oLoc d)) :
    (oLoc d ↦{fullShare} g : sProp 𝕄) = bigSep Finset.univ fun c : Fin 2 => bigSep Finset.univ fun s : Fin 16 => oBlock d c s g := by
  have h1 : (oLoc d ↦{fullShare} g : sProp 𝕄) = bigSep Finset.univ fun p : Fin 2 × Fin 16 × Fin 4 => oLoc d ↦[outSet (co p.1 p.2.1) p.2.2]{fullShare} g := by
    rw [← pointsTo_biUnion Finset.univ (ℓ := oLoc d) (fun p : Fin 2 × Fin 16 × Fin 4 => outSet (co p.1 p.2.1) p.2.2) (fun p _ p' _ h => outSet_disjoint p p' h), outSet_cover]
    try rfl
  have h2 : (bigSep Finset.univ fun p : Fin 2 × Fin 16 × Fin 4 => (oLoc d ↦[outSet (co p.1 p.2.1) p.2.2]{fullShare} g : sProp 𝕄))
      = bigSep Finset.univ fun c : Fin 2 => bigSep Finset.univ fun q : Fin 16 × Fin 4 => (oLoc d ↦[outSet (co c q.1) q.2]{fullShare} g : sProp 𝕄) := by
    rw [← Finset.univ_product_univ]
    exact SparseCore.bigSep_product Finset.univ Finset.univ (fun p : Fin 2 × Fin 16 × Fin 4 => (oLoc d ↦[outSet (co p.1 p.2.1) p.2.2]{fullShare} g : sProp 𝕄))
  have h3 : ∀ c : Fin 2, (bigSep Finset.univ fun q : Fin 16 × Fin 4 => (oLoc d ↦[outSet (co c q.1) q.2]{fullShare} g : sProp 𝕄))
      = bigSep Finset.univ fun s : Fin 16 => oBlock d c s g := by
    intro c
    rw [← Finset.univ_product_univ]
    refine (SparseCore.bigSep_product Finset.univ Finset.univ (fun q : Fin 16 × Fin 4 => (oLoc d ↦[outSet (co c q.1) q.2]{fullShare} g : sProp 𝕄))).trans ?_
    exact bigSep_congr fun s _ => fin4 (F := F) (fun r : Fin 4 => (oLoc d ↦[outSet (co c s) r]{fullShare} g : sProp 𝕄))
  rw [h1, h2]
  exact bigSep_congr fun c _ => h3 c

/-- A SparseCore's part, as the three arrays' parts. -/
theorem coreSt_iff (d : Dev nD) (c : Fin 2) (gi : Buf (Elt F) (iLoc d)) (gt : Buf (Elt F) (tLoc d)) (go : Buf (Elt F) (oLoc d)) :
    iprop((bigSep Finset.univ fun s : Fin 16 => iLoc d ↦[inSet (co c s)]{fullShare} gi) ∗ (tLoc d ↦{Transfers.shareTokN fullShare c.val} gt)
        ∗ (bigSep Finset.univ fun s : Fin 16 => oBlock d c s go))
      ⊣⊢ (coreSt d c gi gt go : sProp 𝕄) := by
  unfold coreSt
  rw [bigSep_congr fun s _ => tileGo_eq d c s gi gt go, bigSep_sep', bigSep_sep']
  constructor
  · iintro ⟨HI, HT, HO⟩
    ihave HT' := (Transfers.pointsTo_toks_split (Transfers.shareTokN fullShare c.val) 16) $$ HT
    icases HT' with ⟨HTd, HTs⟩
    isplitl [HTd]; · iexact HTd
    isplitl [HI]; · iexact HI
    isplitl [HTs]; · iexact HTs
    iexact HO
  · iintro ⟨HTd, HI, HTs, HO⟩
    isplitl [HI]; · iexact HI
    isplitl [HTd HTs]
    · iapply (Transfers.pointsTo_toks_join (Transfers.shareTokN fullShare c.val) 16)
      isplitl [HTd]; · iexact HTd
      iexact HTs
    iexact HO

theorem fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The three arrays held whole are what remains of the table's read share beside the two SparseCores' parts. -/
theorem whole_iff (d : Dev nD) (gi : Buf (Elt F) (iLoc d)) (gt : Buf (Elt F) (tLoc d)) (go : Buf (Elt F) (oLoc d)) :
    iprop((iLoc d ↦{fullShare} gi) ∗ (tLoc d ↦{fullShare} gt) ∗ (oLoc d ↦{fullShare} go))
      ⊣⊢ iprop((tLoc d ↦{Transfers.shareDrop fullShare 2} gt) ∗ coreSt d 0 gi gt go ∗ coreSt d 1 gi gt go) := by
  rw [iPts_tiles, oPts_tiles, fin2, fin2]
  constructor
  · iintro ⟨⟨HI0, HI1⟩, HT, ⟨HO0, HO1⟩⟩
    ihave HT' := (Transfers.pointsTo_toks_split fullShare 2) $$ HT
    icases HT' with ⟨HTd, HTs⟩
    ihave HTs' := (Entails.of_eq (fin2 _)) $$ HTs
    icases HTs' with ⟨HT0, HT1⟩
    isplitl [HTd]; · iexact HTd
    isplitl [HI0 HT0 HO0]
    · iapply (coreSt_iff d 0 gi gt go).1
      isplitl [HI0]; · iexact HI0
      isplitl [HT0]; · iexact HT0
      iexact HO0
    · iapply (coreSt_iff d 1 gi gt go).1
      isplitl [HI1]; · iexact HI1
      isplitl [HT1]; · iexact HT1
      iexact HO1
  · iintro ⟨HTd, H0, H1⟩
    ihave H0' := (coreSt_iff d 0 gi gt go).2 $$ H0
    ihave H1' := (coreSt_iff d 1 gi gt go).2 $$ H1
    icases H0' with ⟨HI0, HT0, HO0⟩
    icases H1' with ⟨HI1, HT1, HO1⟩
    isplitl [HI0 HI1]
    · isplitl [HI0]; · iexact HI0
      iexact HI1
    isplitl [HTd HT0 HT1]
    · iapply (Transfers.pointsTo_toks_join fullShare 2)
      isplitl [HTd]; · iexact HTd
      rw [fin2]
      isplitl [HT0]; · iexact HT0
      iexact HT1
    isplitl [HO0]; · iexact HO0
    iexact HO1

/-! ## What the handshakes carry -/

variable (fi : (d : Dev nD) → Buf (Elt F) (iLoc d)) (ft : (d : Dev nD) → Buf (Elt F) (tLoc d)) (fo : (d : Dev nD) → Buf (Elt F) (oLoc d))

/-- The one call takes each SparseCore's part at the arrays' contents then, each task its tile's part, and brings them
    back with the result runs at the kernel's function; the kernel's proof consumes nothing of the launch's. -/
def P : (K (F := F)).Pay (nD := nD) (Val := Elt F) (Name := ℕ) (U := UU) where
  st := fun q d c => match q with | 0 => coreSt d (Fin.cast bound0 c) (fi d) (ft d) (fo d)
  dn := fun q d c => match q with | 0 => coreSt d (Fin.cast bound0 c) (fi d) (ft d) (Gout (fi d) (ft d))
  go := fun q d c i => match q with | 0 => tileGo d (co (Fin.cast bound0 c) (Fin.cast bound1 i)) (fi d) (ft d) (fo d)
  td := fun q d c i => match q with | 0 => tileTd d (co (Fin.cast bound0 c) (Fin.cast bound1 i)) (fi d) (ft d)
  x := fun _ _ => iprop(emp)

instance P_storable : (P (F := F) fi ft fo).IsStorable where
  st q d c := match q with
    | 0 => by show BI.Storable (upEmb : UEmb _ 𝕄) (coreSt d (Fin.cast bound0 c) (fi d) (ft d) (fo d)); unfold coreSt tileGo; infer_instance
  dn q d c := match q with
    | 0 => by show BI.Storable (upEmb : UEmb _ 𝕄) (coreSt d (Fin.cast bound0 c) (fi d) (ft d) (Gout (fi d) (ft d))); unfold coreSt tileGo; infer_instance
  go q d c i := match q with
    | 0 => by show BI.Storable (upEmb : UEmb _ 𝕄) (tileGo d (co (Fin.cast bound0 c) (Fin.cast bound1 i)) (fi d) (ft d) (fo d)); unfold tileGo; infer_instance
  td q d c i := match q with
    | 0 => by show BI.Storable (upEmb : UEmb _ 𝕄) (tileTd d (co (Fin.cast bound0 c) (Fin.cast bound1 i)) (fi d) (ft d)); unfold tileTd tileGo; infer_instance

/-! ## The launch theorem's obligations -/

theorem defs₀_vector (c : Fin τ.nSC) (s : Fin τ.nSub) :
    defs₀ (F := F) (.scVector c s) 0 ()
      = SparseCore.onTile hcore0 hsub0 (fun c s => cc0__sc_body (coV c s) a2 (Memref.isWhole_whole _) a3 (Memref.isWhole_whole _) a4 (Memref.isWhole_whole _)
          a5 (Memref.isWhole_whole _) a6 (Memref.isWhole_whole _) a7 (Memref.isWhole_whole _) cc0_scratch3 cc0_scoped0 cc0_scoped1 cc0_scoped2 cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : ∀ d z, (fi d z).toNat ≤ 999) : (K (F := F)).TileObl (D (F := F)) 𝒱 (P fi ft fo) v₀ 0 := by
  intro d c i O W hO _ _
  -- this kernel owes nothing for a protocol of its own
  simp only [show (P fi ft fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coV ⟨_, hc.1⟩ ⟨_, hc.2⟩) hF (fi d) (ft d) (fo d) (hpre d) O W hO).trans (wp_mono frame _ _ fun _ => obl_post)

theorem bigSep_tasks (Φ : Fin 16 → sProp 𝕄) :
    (bigSep Finset.univ fun i : Fin ((K (F := F)).nSub 0) => Φ (Fin.cast bound1 i)) = bigSep Finset.univ Φ :=
  bigSep_congr fun _ _ => congrArg Φ (Fin.ext rfl)

theorem vecSplit : (K (F := F)).VecSplit' (P fi ft fo) 0 := by
  intro d c
  show coreSt d (Fin.cast bound0 c) (fi d) (ft d) (fo d) ⊢ |={Set.univ}=> iprop(
      (bigSep Finset.univ fun i : Fin ((K (F := F)).nSub 0) => tileGo d (co (Fin.cast bound0 c) (Fin.cast bound1 i)) (fi d) (ft d) (fo d))
      ∗ ((bigSep Finset.univ fun i : Fin ((K (F := F)).nSub 0) => tileTd d (co (Fin.cast bound0 c) (Fin.cast bound1 i)) (fi d) (ft d))
          -∗ coreSt d (Fin.cast bound0 c) (fi d) (ft d) (Gout (fi d) (ft d))))
  rw [bigSep_tasks (F := F) (fun s => tileGo d (co (Fin.cast bound0 c) s) (fi d) (ft d) (fo d)),
    bigSep_tasks (F := F) (fun s => tileTd d (co (Fin.cast bound0 c) s) (fi d) (ft d))]
  unfold coreSt tileTd
  iintro ⟨Hd, H⟩; imodintro
  isplitl [H]; · iexact H
  iintro H
  isplitl [Hd]; · iexact Hd
  iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fi ft fo).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.HostB.lean ====
import proofs.«208194_g50654844289024_cont_8to1c4_348_33_alg».proof.Defs
import Idealize.ShloMosaic.Lib.Pipeline.Value
import Idealize.ShloMosaic.Lib.ValueIdx
import Idealize.ShloMosaic.Lib.ReduceAll
import Idealize.ShloMosaic.Lib.Affine
import proofs.«208194_g50654844289024_cont_8to1c4_348_33_alg».proof.Proof.Gen.Kernel
import proofs.«208194_g50654844289024_cont_8to1c4_348_33_alg».proof.Proof.Gen.Pre_input_domain

/-!
  The arrays the kernel is called on, as functions of the program's arguments.

  The program interleaves the pairs: it transposes the 16384 × 2 array of pairs, cuts each of its two rows into 128
  blocks of 128, swaps the two outer axes and flattens, so that word `256 b + 128 h + l` of the interleaved array is
  coordinate `h` of pair `128 b + l`. The table is flattened row by row: entry `n` is the table's at
  `(n / 1000, n % 1000)`. Under the precondition every coordinate of every pair lies between 0 and 999.
-/

noncomputable section

namespace Cert.Proof.KB

open Cert.Kernel Idealize.ShloMosaic Idealize.ShloMosaic.ValueIdx

/-- The interleaved index array, from the array of pairs. -/
def V3val (x : S16384x2.Idx → BitVec 32) : S32768.Idx → BitVec 32 :=
  shapeCast S32768 (transpose S128x2x128 [1, 0, 2] (shapeCast S2x128x128 (transpose S2x16384 [1, 0] x Cert.Kernel.Gen.transposes_S16384x2_S2x16384_1_0)
    Cert.Kernel.Gen.shapeCasts_S2x16384_S2x128x128) Cert.Kernel.Gen.transposes_S2x128x128_S128x2x128_1_0_2) Cert.Kernel.Gen.shapeCasts_S128x2x128_S32768

/-- The flat table, from the table. -/
def V4val {α : Type} (y : S1000x1000.Idx → α) : S1000000.Idx → α :=
  shapeCast S1000000 y Cert.Kernel.Gen.shapeCasts_S1000x1000_S1000000

/-- Word `j` of the interleaved array is coordinate `(j / 128) % 2` of pair `128 (j / 256) + j % 128`. -/
theorem V3val_apply (x : S16384x2.Idx → BitVec 32) (j : S32768.Idx) :
    V3val x j = x (ix2 (⟨128 * ((j 0).val / 256) + (j 0).val % 128, by have h : (j 0).val < 32768 := (j 0).isLt; omega⟩ : Fin 16384)
      (⟨(j 0).val / 128 % 2, by omega⟩ : Fin 2)) := by
  have hj : (j 0).val < 32768 := (j 0).isLt
  unfold V3val
  rw [shapeCast_apply _ _ j (ix3 (⟨(j 0).val / 256, by omega⟩ : Fin 128) (⟨(j 0).val / 128 % 2, by omega⟩ : Fin 2) (⟨(j 0).val % 128, by omega⟩ : Fin 128))
      (by rw [Shape.rowMajor_val_three, Shape.rowMajor_val_one]; show ((j 0).val / 256 * 2 + (j 0).val / 128 % 2) * 128 + (j 0).val % 128 = (j 0).val; omega),
    transpose_apply _ _ _ _ (ix3 (⟨(j 0).val / 128 % 2, by omega⟩ : Fin 2) (⟨(j 0).val / 256, by omega⟩ : Fin 128) (⟨(j 0).val % 128, by omega⟩ : Fin 128))
      (by intro b; match b with | ⟨0, _⟩ => rfl | ⟨1, _⟩ => rfl | ⟨2, _⟩ => rfl),
    shapeCast_apply _ _ _ (ix2 (⟨(j 0).val / 128 % 2, by omega⟩ : Fin 2) (⟨128 * ((j 0).val / 256) + (j 0).val % 128, by omega⟩ : Fin 16384))
      (by rw [Shape.rowMajor_val_three, Shape.rowMajor_val_two]
          show (j 0).val / 128 % 2 * 16384 + (128 * ((j 0).val / 256) + (j 0).val % 128) = ((j 0).val / 128 % 2 * 128 + (j 0).val / 256) * 128 + (j 0).val % 128
          omega),
    transpose_apply _ _ _ _ (ix2 (⟨128 * ((j 0).val / 256) + (j 0).val % 128, by omega⟩ : Fin 16384) (⟨(j 0).val / 128 % 2, by omega⟩ : Fin 2))
      (by intro b; match b with | ⟨0, _⟩ => rfl | ⟨1, _⟩ => rfl)]

/-- Entry `n` of the flat table is the table's at `(n / 1000, n % 1000)`. -/
theorem V4val_apply {α : Type} (y : S1000x1000.Idx → α) (n : S1000000.Idx) :
    V4val y n = y (ix2 (⟨(n 0).val / 1000, by have h : (n 0).val < 1000000 := (n 0).isLt; omega⟩ : Fin 1000) (⟨(n 0).val % 1000, by omega⟩ : Fin 1000)) := by
  have hn : (n 0).val < 1000000 := (n 0).isLt
  unfold V4val
  exact shapeCast_apply _ _ n _ (by rw [Shape.rowMajor_val_two, Shape.rowMajor_val_one]; show (n 0).val / 1000 * 1000 + (n 0).val % 1000 = (n 0).val; omega)

/-! ## The precondition -/

instance : Subsingleton Cert.Pre_input_domain.S_.Idx := ⟨fun a b => funext fun d => d.elim0⟩

/-- The precondition's test of one word: at least 0 and at most 999 as a signed number. -/
def InRange (v : BitVec 32) : Prop := IntOp.andi (IntOp.cmpi .sge v 0#32) (IntOp.cmpi .sle v 999#32) = 1#1

theorem InRange.bounds {v : BitVec 32} (h : InRange v) : v.toNat ≤ 999 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  unfold InRange at h
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

/-- Such a word read as a signed number is itself, -/
theorem InRange.toInt_toNat {v : BitVec 32} (h : InRange v) : v.toInt.toNat = v.toNat := by
  have hb := h.bounds
  rw [BitVec.toInt_eq_toNat_cond]
  have : 2 * v.toNat < 2 ^ 32 := by omega
  rw [if_pos this]
  exact Int.toNat_natCast _

/-- and is not negative. -/
theorem InRange.not_neg {v : BitVec 32} (h : InRange v) : IntOp.cmpi .slt v 0#32 = 0#1 := by
  have hb := h.bounds
  have hs : v.slt 0#32 = false := by
    rw [BitVec.slt_eq_decide, BitVec.toInt_eq_toNat_cond, if_pos (by omega)]
    simp
  show BitVec.ofBool (v.slt 0#32) = 0#1
  rw [hs]
  rfl

variable {F : FTy → Type} [FloatOps F] [Cert.Pre_input_domain.Facts]

/-- Under the precondition every coordinate of every pair is at most 999. -/
theorem pre_pairs (x : IVec Cert.Pre_input_domain.S16384x2 32) (y : FVec F Cert.Pre_input_domain.S1000x1000 .f32)
    (h : Cert.Pre_input_domain.fn (F := F) x y = fun _ => 1#1) (i : Cert.Pre_input_domain.S16384x2.Idx) : InRange (x i) := by
  have e := congrFun h ix0
  dsimp only [Cert.Pre_input_domain.fn] at e
  have e' := (IntOp.andi_eq_one.mp e).2
  exact Host.reduce_andi_all _ _ _ _ ix0 e' i

end Cert.Proof.KB

end
-- ==== Proof.MainB.lean ====
import proofs.«208194_g50654844289024_cont_8to1c4_348_33_alg».proof.Proof.LaunchB
import proofs.«208194_g50654844289024_cont_8to1c4_348_33_alg».proof.Proof.HostB

/-!
  The program's run.

  On the TensorCore @main interleaves the pairs and flattens the table — five host operations, which leave the
  arguments as they were —, starts the call on the arrays so made and the result array, and returns when both
  SparseCores have; the result array then holds the kernel's function of the two arrays, the arguments their launch
  contents. By the launch theorem every weakly fair execution of the device's thirty-five threads ends so.
-/

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

open Idealize.ShloMosaic.StableHlo (after unary reshape seq)

local notation "a2" => (Memref.whole Cert.Kernel.main_v3_scv : Memref Cert.Kernel.sig Kind.scVector Space.hbm Cert.Kernel.S32768 EltTy.i32)
local notation "a3" => (Memref.whole Cert.Kernel.main_v4_scv : Memref Cert.Kernel.sig Kind.scVector Space.hbm Cert.Kernel.S1000000 EltTy.f32)
local notation "a4" => (Memref.whole Cert.Kernel.main_v5_scv : Memref Cert.Kernel.sig Kind.scVector Space.hbm Cert.Kernel.S16384 EltTy.f32)
local notation "a5" => (Memref.whole Cert.Kernel.cc0_scratch0 : Memref Cert.Kernel.sig Kind.scVector Space.vmem Cert.Kernel.S1024 EltTy.i32)
local notation "a6" => (Memref.whole Cert.Kernel.cc0_scratch1 : Memref Cert.Kernel.sig Kind.scVector Space.vmem Cert.Kernel.S4x128 EltTy.i32)
local notation "a7" => (Memref.whole Cert.Kernel.cc0_scratch2 : Memref Cert.Kernel.sig Kind.scVector Space.vmem Cert.Kernel.S4x128 EltTy.f32)

local notation "𝕄" => MT nD τ sig (HIx 1) (Elt F) ℕ UU ℕ

variable (m : (ℓ : Loc nD τ sig) → Buf (Elt F) ℓ) (ρ : Dev nD → PrngReg)

abbrev pLoc (d : Dev nD) : Loc nD τ sig := (SparseCore.T d).loc main_arg0
abbrev qLoc (d : Dev nD) : Loc nD τ sig := (SparseCore.T d).loc main_arg1

/-- The arrays the call is made on: the interleaved pairs, the flat table, the result array as launched. -/
def fI (d : Dev nD) : Buf (Elt F) (iLoc d) := V3val (m (pLoc d))
def fT (d : Dev nD) : Buf (Elt F) (tLoc d) := V4val (m (qLoc d))
def fO (d : Dev nD) : Buf (Elt F) (oLoc d) := m (oLoc d)

/-! ## @main's host operations -/

abbrev hostOps : List (HloOp τ sig (Elt F)) :=
  [ unary main_arg0 main_v0 ((transpose S2x16384 [1, 0] · transposes_S16384x2_S2x16384_1_0) : (⟨S16384x2, .i32⟩ : BufTy).Contents (Elt F) → (⟨S2x16384, .i32⟩ : BufTy).Contents (Elt F)),
    reshape main_v0 main_v1 rfl shapeCasts_S2x16384_S2x128x128,
    unary main_v1 main_v2 ((transpose S128x2x128 [1, 0, 2] · transposes_S2x128x128_S128x2x128_1_0_2) : (⟨S2x128x128, .i32⟩ : BufTy).Contents (Elt F) → (⟨S128x2x128, .i32⟩ : BufTy).Contents (Elt F)),
    reshape main_v2 main_v3 rfl shapeCasts_S128x2x128_S32768,
    reshape main_arg1 main_v4 rfl shapeCasts_S1000x1000_S1000000 ]

theorem main_eq (d : Dev nD) : main (F := F) d = (seq hostOps >>= fun _ => ((K (F := F)).run d 0 >>= fun _ => pure ⟨⟩)) := rfl

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The TensorCore's arrays: the eight tensor values of @main, none scoped. -/
abbrev S8 : Finset (DevRef τ sig) := {a0', a1', v0', v1', v2', v3', v4', v5'}

theorem held_S8 (d : Dev nD) (W : Valuation τ sig (Elt F)) :
    (held (T d) S8 W : sProp 𝕄) = iprop(((SparseCore.T d).loc main_arg0 ↦{fullShare} W a0')
        ∗ ((SparseCore.T d).loc main_arg1 ↦{fullShare} W a1')
        ∗ ((SparseCore.T d).loc main_v0 ↦{fullShare} W v0')
        ∗ ((SparseCore.T d).loc main_v1 ↦{fullShare} W v1')
        ∗ ((SparseCore.T d).loc main_v2 ↦{fullShare} W v2')
        ∗ ((SparseCore.T d).loc main_v3 ↦{fullShare} W v3')
        ∗ ((SparseCore.T d).loc main_v4 ↦{fullShare} W v4')
        ∗ ((SparseCore.T d).loc main_v5 ↦{fullShare} W v5')) := by
  unfold held S8
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0)
        ∗ ((SparseCore.T d).loc main_arg1 ↦{fullShare} W main_arg1)
        ∗ ((SparseCore.T d).loc main_v0 ↦{fullShare} W main_v0)
        ∗ ((SparseCore.T d).loc main_v1 ↦{fullShare} W main_v1)
        ∗ ((SparseCore.T d).loc main_v2 ↦{fullShare} W main_v2)
        ∗ ((SparseCore.T d).loc main_v3 ↦{fullShare} W main_v3)
        ∗ ((SparseCore.T d).loc main_v4 ↦{fullShare} W main_v4)
        ∗ ((SparseCore.T d).loc main_v5 ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S8 (V0 m d) := by
  rw [unscopedBufs_eq, held_S8]; rfl

theorem hsub : ∀ op ∈ (hostOps : List (HloOp τ sig (Elt F))), op.bufs ⊆ S8 := by
  intro op hop
  simp only [hostOps, List.mem_cons, List.not_mem_nil, or_false] at hop
  rcases hop with rfl | rfl | rfl | rfl | rfl
  · show ({a0', v0'} : Finset (DevRef τ sig)) ⊆ S8; decide
  · show ({v0', v1'} : Finset (DevRef τ sig)) ⊆ S8; decide
  · show ({v1', v2'} : Finset (DevRef τ sig)) ⊆ S8; decide
  · show ({v2', v3'} : Finset (DevRef τ sig)) ⊆ S8; decide
  · show ({a1', v4'} : Finset (DevRef τ sig)) ⊆ S8; decide

theorem hfresh : ∀ op ∈ (hostOps : List (HloOp τ sig (Elt F))), op.fresh = ∅ := by
  intro op hop
  simp only [hostOps, List.mem_cons, List.not_mem_nil, or_false] at hop
  rcases hop with rfl | rfl | rfl | rfl | rfl <;> rfl

/-- What the arrays hold once the host operations have run. -/
theorem after_v3 (d : Dev nD) : after hostOps (V0 m d) v3' = fI m d := by
  unfold fI V3val; after_results <;> rfl
theorem after_v4 (d : Dev nD) : after hostOps (V0 m d) v4' = fT m d := by
  unfold fT V4val; after_results <;> rfl
theorem after_v5 (d : Dev nD) : after hostOps (V0 m d) v5' = fO m d := by
  unfold fO; after_results <;> rfl
theorem after_a0 (d : Dev nD) : after hostOps (V0 m d) a0' = m (pLoc d) := by
  after_results <;> rfl
theorem after_a1 (d : Dev nD) : after hostOps (V0 m d) a1' = m (qLoc d) := by
  after_results <;> rfl

/-! ## @main on the TensorCore -/

theorem bigSep_cores (Φ : Fin 2 → sProp 𝕄) :
    (bigSep Finset.univ fun c : Fin ((K (F := F)).nCore 0) => Φ (Fin.cast bound0 c)) = iprop(Φ 0 ∗ Φ 1) :=
  (bigSep_congr fun _ _ => congrArg Φ (Fin.ext rfl)).trans (fin2 Φ)

theorem st0_eq (d : Dev nD) : (bigSep Finset.univ fun c : Fin ((K (F := F)).nCore 0) => (P (fI m) (fT m) (fO m)).st 0 d c)
    = iprop(coreSt d 0 (fI m d) (fT m d) (fO m d) ∗ coreSt d 1 (fI m d) (fT m d) (fO m d)) :=
  bigSep_cores (F := F) (fun c => coreSt d c (fI m d) (fT m d) (fO m d))
theorem dn0_eq (d : Dev nD) : (bigSep Finset.univ fun c : Fin ((K (F := F)).nCore 0) => (P (fI m) (fT m) (fO m)).dn 0 d c)
    = iprop(coreSt d 0 (fI m d) (fT m d) (Gout (fI m d) (fT m d)) ∗ coreSt d 1 (fI m d) (fT m d) (Gout (fI m d) (fT m d))) :=
  bigSep_cores (F := F) (fun c => coreSt d c (fI m d) (fT m d) (Gout (fI m d) (fT m d)))

/-- What @main leaves the claim: the arguments at their launch contents, the result array at the kernel's function. -/
abbrev FIN (d : Dev nD) : sProp 𝕄 :=
  iprop((pLoc d ↦{fullShare} m (pLoc d)) ∗ (qLoc d ↦{fullShare} m (qLoc d)) ∗ (oLoc d ↦{fullShare} Gout (fI m d) (fT m d)))

set_option backward.isDefEq.respectTransparency.types false in
theorem hmain (κ : GSem nD τ sig → ℕ) (d : Dev nD) :
    iprop((K (F := F)).ctx EH (P (fI m) (fT m) (fO m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S8 _ hostOps hsub hfresh (V0 m d)) $$ [Hb Hheld]
  · isplitl [Hb]; · iexact Hb
    iexact Hheld
  iintro ⟨Hb, Hheld⟩
  ihave Hh := (Entails.of_eq (held_S8 (F := F) d _)) $$ Hheld
  icases Hh with ⟨Ha0, Ha1, -, -, -, Hv3, Hv4, Hv5⟩
  rw [after_v3, after_v4, after_v5, after_a0, after_a1]
  -- the three arrays to the two SparseCores
  ihave Hw := (whole_iff d (fI m d) (fT m d) (fO m d)).1 $$ [Hv3 Hv4 Hv5]
  · isplitl [Hv3]; · iexact Hv3
    isplitl [Hv4]; · iexact Hv4
    iexact Hv5
  icases Hw with ⟨HTd, Hc0, Hc1⟩
  rw [wp_bind]
  iapply ((K (F := F)).wp_run (D (F := F)) 𝒱 (EH := EH) (P := P (fI m) (fT m) (fO m)) κ d 0) $$ [Hst Hc0 Hc1 Ha0 Ha1 HTd]
  isplitr; · iexact Hctx
  isplitl [Hst]; · iexact Hst
  isplitl [Hc0 Hc1]
  · rw [st0_eq]
    isplitl [Hc0]; · iexact Hc0
    iexact Hc1
  iintro ⟨Hst, Hdn⟩
  ihave Hdn' := (Entails.of_eq (dn0_eq m d)) $$ Hdn
  icases Hdn' with ⟨Hc0, Hc1⟩
  ihave Hw := (whole_iff d (fI m d) (fT m d) (Gout (fI m d) (fT m d))).2 $$ [HTd Hc0 Hc1]
  · isplitl [HTd]; · iexact HTd
    isplitl [Hc0]; · iexact Hc0
    iexact Hc1
  icases Hw with ⟨-, -, Hv5⟩
  rw [wp_pure]
  imodintro
  isplitl [Hst]; · iexact Hst
  isplitl [Ha0]; · iexact Ha0
  isplitl [Ha1]; · iexact Ha1
  iexact Hv5

def fq (d : Dev nD) (s' : Phys nD τ sig (Elt F)) : Prop :=
  s'.mem.mem (oLoc d) = Gout (fI m d) (fT m d) ∧ s'.mem.mem (pLoc d) = m (pLoc d) ∧ s'.mem.mem (qLoc d) = m (qLoc d)

theorem hfin (d : Dev nD) (s' : Phys nD τ sig (Elt F)) : iprop(FIN m d ∗ SI s') ⊢ (⌜fq m d s'⌝ : sProp 𝕄) := by
  iintro ⟨⟨Hp, Hq, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%h2, HSI, -⟩
  ihave H := (SI_pointsTo_agree (st := s') (ℓ := oLoc d) (I := Finset.univ) (q := fullShare) (f := Gout (fI m d) (fT m d))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Gout (fI m c) (fT m c) ∧ r.2.mem (pLoc c) = m (pLoc c) ∧ r.2.mem (qLoc c) = m (qLoc c)

theorem run_main [∀ e, Nonempty (Elt F e)] (hpre : ∀ d z, (fI m d z).toNat ≤ 999) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (fI m) (fT m) (fO m)) facts v₀
    (fun q hq => match q with | 0 => nomatch hq)
    (fun q _ => match q with | 0 => tileObl (fI m) (fT m) (fO m) facts hpre)
    (fun q _ => match q with | 0 => SparseCore.Cfg.VecSplit.of_plain (vecSplit (fI m) (fT m) (fO m)))
    m ρ main (fun _ => iprop(emp)) (FIN m) (u₀ (F := F)) (sep_elim_left.trans (hu₀ (fI m) (fT m) (fO m))) (hmain m ρ) (fq m) (hfin m) (QC m) (fun _ h => h)

end Cert.Proof.KB

end
-- ==== Proof.RowsI.lean ====
import proofs.«208194_g50654844289024_cont_8to1c4_348_33_alg».proof.Defs
import Idealize.ShloMosaic.Lib.Writes
import Idealize.ShloMosaic.Lib.ValueIdx
import Idealize.ShloMosaic.Lib.Pipeline.Value
import proofs.«208194_g50654844289024_cont_8to1c4_348_33_alg».proof.Proof.Gen.KernelIdeal

/-!
  What one tile leaves in its scratch of gather indices.

  A tile holds 1024 index words `w` (four chunks of 256: 128 first coordinates, then 128 second coordinates). Store
  number `n` (0 … 31) belongs to chunk `n / 8` and lanes `16 (n % 8) … 16 (n % 8) + 15`: it reads sixteen first
  coordinates at `256 (n / 8) + 16 (n % 8)`, the sixteen second coordinates 128 words later, and writes
  `first · 1000 + second` at row `n / 8`, lanes `16 (n % 8) …` of the 4 × 128 scratch. So after the first `8 (r + 1)`
  stores, row `r` of the scratch holds `w (256 r + l) · 1000 + w (256 r + 128 + l)` at lane `l`, whatever it held before;
  and when every index word is at most 999 this is below one million.
-/

noncomputable section

namespace Cert.Proof.KI

open Cert.KernelIdeal Idealize.ShloMosaic Idealize.ShloMosaic.ValueIdx

variable {F : FTy → Type}

local notation "a5" => (Memref.whole Cert.KernelIdeal.cc0_scratch0 : Memref Cert.KernelIdeal.sig Kind.scVector Space.vmem Cert.KernelIdeal.S1024 EltTy.i32)
local notation "a6" => (Memref.whole Cert.KernelIdeal.cc0_scratch1 : Memref Cert.KernelIdeal.sig Kind.scVector Space.vmem Cert.KernelIdeal.S4x128 EltTy.i32)

theorem rS_inb (n : ℕ) : ∀ a, (![(n / 8) % 4, 16 * (n % 8)] : Fin 2 → ℕ) a + S1x16.size a ≤ S4x128.size a := by
  intro a
  match a with
  | ⟨0, _⟩ => show (n / 8) % 4 + 1 ≤ 4; omega
  | ⟨1, _⟩ => show 16 * (n % 8) + 16 ≤ 128; omega
theorem rA_inb (n : ℕ) : ∀ a, (![256 * ((n / 8) % 4) + 16 * (n % 8)] : Fin 1 → ℕ) a + S16.size a ≤ S1024.size a := by
  intro a
  match a with
  | ⟨0, _⟩ => show 256 * ((n / 8) % 4) + 16 * (n % 8) + 16 ≤ 1024; omega
theorem rB_inb (n : ℕ) : ∀ a, (![256 * ((n / 8) % 4) + 128 + 16 * (n % 8)] : Fin 1 → ℕ) a + S16.size a ≤ S1024.size a := by
  intro a
  match a with
  | ⟨0, _⟩ => show 256 * ((n / 8) % 4) + 128 + 16 * (n % 8) + 16 ≤ 1024; omega

/-- Where store `n` writes, and where its two loads read. -/
def rS (n : ℕ) : Rect S4x128 := Rect.unit (s := S4x128) ![(n / 8) % 4, 16 * (n % 8)] S1x16.size (rS_inb n)
def rA (n : ℕ) : Rect S1024 := Rect.unit (s := S1024) ![256 * ((n / 8) % 4) + 16 * (n % 8)] S16.size (rA_inb n)
def rB (n : ℕ) : Rect S1024 := Rect.unit (s := S1024) ![256 * ((n / 8) % 4) + 128 + 16 * (n % 8)] S16.size (rB_inb n)

/-- What store `n` writes, from the index words `g5`. -/
def pay (g5 : S1024.Idx → BitVec 32) (n : ℕ) : S1x16.Idx → BitVec 32 :=
  shapeCast S1x16 (addi (muli (shapeCast S16 ((a5).view.readAt (Elt F) (rA n).toLoadRect g5) Cert.KernelIdeal.Gen.shapeCasts_S16_S16) (broadcast S16 1000#32))
    (shapeCast S16 ((a5).view.readAt (Elt F) (rB n).toLoadRect g5) Cert.KernelIdeal.Gen.shapeCasts_S16_S16)) Cert.KernelIdeal.Gen.shapeCasts_S16_S1x16

/-- The first `n` stores, the last one first. -/
def pieces (g5 : S1024.Idx → BitVec 32) : ℕ → List (View.Piece (Elt F) S4x128 .i32)
  | 0 => []
  | n + 1 => ⟨rS n, pay (F := F) g5 n⟩ :: pieces g5 n

/-- Row `y 0`, lane `y 1` of the scratch of gather indices, from the index words `w`. -/
def Qf (w : S1024.Idx → BitVec 32) (y : S4x128.Idx) : BitVec 32 :=
  w (ix1 ⟨256 * (y 0).val + (y 1).val, by have h0 := idx2_lt0 y; have h1 := idx2_lt1 y; omega⟩) * 1000#32
    + w (ix1 ⟨256 * (y 0).val + 128 + (y 1).val, by have h0 := idx2_lt0 y; have h1 := idx2_lt1 y; omega⟩)

theorem pay_apply (g5 : S1024.Idx → BitVec 32) (n : ℕ) (x : S1x16.Idx) : pay (F := F) g5 n x = Qf g5 ((rS n).emb x) := by
  have hx0 : (x 0).val = 0 := by have := idx2_lt0 x; omega
  have e1 : shapeCast S16 ((a5).view.readAt (Elt F) (rA n).toLoadRect g5) Cert.KernelIdeal.Gen.shapeCasts_S16_S16
      = (a5).view.readAt (Elt F) (rA n).toLoadRect g5 := shapeCast_self _ _
  have e2 : shapeCast S16 ((a5).view.readAt (Elt F) (rB n).toLoadRect g5) Cert.KernelIdeal.Gen.shapeCasts_S16_S16
      = (a5).view.readAt (Elt F) (rB n).toLoadRect g5 := shapeCast_self _ _
  unfold pay Qf
  rw [e1, e2]
  refine (shapeCast_apply _ _ x (ix1 (x 1)) (by rw [Shape.rowMajor_val_one, Shape.rowMajor_val_two]; show (x 1).val = (x 0).val * 16 + (x 1).val; omega)).trans ?_
  show (g5 _) * 1000#32 + (g5 _) = _
  congr 2
  · congr 1
    funext a
    match a with
    | ⟨0, _⟩ =>
      apply Fin.ext
      show 256 * ((n / 8) % 4) + 16 * (n % 8) + 1 * (x 1).val = 256 * ((n / 8) % 4 + 1 * (x 0).val) + (16 * (n % 8) + 1 * (x 1).val)
      omega
  · congr 1
    funext a
    match a with
    | ⟨0, _⟩ =>
      apply Fin.ext
      show 256 * ((n / 8) % 4) + 128 + 16 * (n % 8) + 1 * (x 1).val = 256 * ((n / 8) % 4 + 1 * (x 0).val) + 128 + (16 * (n % 8) + 1 * (x 1).val)
      omega

/-- Every store writes the one function `Qf g5` of the scratch's index. -/
theorem pieces_agree (g5 : S1024.Idx → BitVec 32) : ∀ n, ∀ p ∈ pieces (F := F) g5 n, ∀ x : p.1.shape.Idx, p.2 x = Qf g5 (p.1.emb x)
  | 0, p, hp, _ => absurd hp List.not_mem_nil
  | n + 1, p, hp, x => by
    rcases List.mem_cons.mp hp with rfl | hp
    · exact pay_apply g5 n x
    · exact pieces_agree g5 n p hp x

/-- The first `n` stores cover the first `16 n` lanes in row-major order. -/
theorem pieces_cover (g5 : S1024.Idx → BitVec 32) : ∀ n, n ≤ 32 → ∀ y : S4x128.Idx, 128 * (y 0).val + (y 1).val < 16 * n →
    ∃ p ∈ pieces (F := F) g5 n, y ∈ p.1.set
  | 0, _, y, h => absurd h (by omega)
  | n + 1, hn, y, h => by
    have h0 := idx2_lt0 y; have h1 := idx2_lt1 y
    by_cases hy : 128 * (y 0).val + (y 1).val < 16 * n
    · obtain ⟨p, hp, hm⟩ := pieces_cover g5 n (by omega) y hy
      exact ⟨p, List.mem_cons_of_mem _ hp, hm⟩
    · refine ⟨⟨rS n, pay (F := F) g5 n⟩, List.mem_cons_self, ?_⟩
      show y ∈ (rS n).set
      unfold rS
      rw [Rect.mem_set_unit]
      intro a
      match a with
      | ⟨0, _⟩ =>
        show (n / 8) % 4 ≤ (y 0).val ∧ (y 0).val < (n / 8) % 4 + 1
        omega
      | ⟨1, _⟩ =>
        show 16 * (n % 8) ≤ (y 1).val ∧ (y 1).val < 16 * (n % 8) + 16
        omega

/-- After the first `n` stores an index among the first `16 n` reads `Qf g5`, whatever the scratch held before. -/
theorem read_pieces (g5 : S1024.Idx → BitVec 32) (g6 : S4x128.Idx → BitVec 32) (n : ℕ) (hn : n ≤ 32) (y : S4x128.Idx)
    (hy : 128 * (y 0).val + (y 1).val < 16 * n) :
    (a6).view.writes (Elt F) g6 (pieces (F := F) g5 n) y = Qf g5 y := by
  have h := View.read_writes_apply_of_pieces (v := (a6).view) (f := g6) (Qf g5) (pieces (F := F) g5 n) (pieces_agree g5 n) y (pieces_cover g5 n hn y hy)
  exact h

/-- With every index word at most 999 the gather index is below one million. -/
theorem word_toNat (a b : BitVec 32) (ha : a.toNat ≤ 999) (hb : b.toNat ≤ 999) : (a * 1000#32 + b).toNat = a.toNat * 1000 + b.toNat := by
  have h1000 : (1000#32 : BitVec 32).toNat = 1000 := by decide
  rw [BitVec.toNat_add, BitVec.toNat_mul, h1000, Nat.mod_eq_of_lt (show a.toNat * 1000 < 2 ^ 32 by omega),
    Nat.mod_eq_of_lt (show a.toNat * 1000 + b.toNat < 2 ^ 32 by omega)]

theorem Qf_toNat (w : S1024.Idx → BitVec 32) (hw : ∀ z, (w z).toNat ≤ 999) (y : S4x128.Idx) :
    (Qf w y).toNat = (w (ix1 ⟨256 * (y 0).val + (y 1).val, by have h0 := idx2_lt0 y; have h1 := idx2_lt1 y; omega⟩)).toNat * 1000
      + (w (ix1 ⟨256 * (y 0).val + 128 + (y 1).val, by have h0 := idx2_lt0 y; have h1 := idx2_lt1 y; omega⟩)).toNat :=
  word_toNat _ _ (hw _) (hw _)

/-- With every index word at most 999 the gather index is below one million. -/
theorem Qf_lt (w : S1024.Idx → BitVec 32) (hw : ∀ z, (w z).toNat ≤ 999) (y : S4x128.Idx) : (Qf w y).toNat < 1000000 := by
  rw [Qf_toNat w hw y]
  have h1 := hw (ix1 ⟨256 * (y 0).val + (y 1).val, by have h0 := idx2_lt0 y; have h1 := idx2_lt1 y; omega⟩)
  have h2 := hw (ix1 ⟨256 * (y 0).val + 128 + (y 1).val, by have h0 := idx2_lt0 y; have h1 := idx2_lt1 y; omega⟩)
  omega

end Cert.Proof.KI

end
-- ==== Proof.GeomI.lean ====
import proofs.«208194_g50654844289024_cont_8to1c4_348_33_alg».proof.Defs
import Idealize.ShloMosaic.Lib.SparseCore.Launch
import proofs.«208194_g50654844289024_cont_8to1c4_348_33_alg».proof.Proof.Gen.KernelIdeal

/-!
  How the kernel's thirty-two tiles share the two arrays they move whole runs of.

  Tile (c, s) — SparseCore c, vector subcore s — is worker w = 2 s + c. It copies in the 1024 index words
  [1024 w, 1024 w + 1024) of the interleaved index array, and writes out the four runs of 128 results
  [512 w + 128 r, 512 w + 128 r + 128), r = 0 … 3. The thirty-two input runs are pairwise disjoint and cover the 32768
  words; the hundred and twenty-eight output runs are pairwise disjoint and cover the 16384 results.
-/

noncomputable section

namespace Cert.Proof.KI

open Cert.KernelIdeal Cert.KernelIdeal.Gen
open Idealize.ShloMosaic

/-- The grid point of SparseCore `c`, vector subcore `s`, as the launch spells it -/
def coV (c : Fin (grid0.bound 0)) (s : Fin (grid0.bound 1)) : grid0.Coords :=
  fun | 0 => c | 1 => s | ⟨_ + 2, h⟩ => absurd h (Nat.not_lt.2 (Nat.le_add_left _ _))

/-- and over the two SparseCores and their sixteen tiles. -/
def co (c : Fin 2) (s : Fin 16) : grid0.Coords := coV c s

/-- The input run of the tile at grid point `L`, as a set of indices of the interleaved index array. -/
def inSet (L : grid0.Coords) : Finset S32768.Idx := (Rect.unit (s := S32768) (k0_off1 L) S1024.size (k0_off1_inb L)).set

/-- Output run `r` of the tile at grid point `L`, as a set of indices of the result array. -/
def outSet (L : grid0.Coords) (r : Fin 4) : Finset S16384.Idx :=
  (Rect.unit (s := S16384) (k0_off2 L (BitVec.ofNat 32 (128 * r.val))) S128.size (k0_off2_inb L r)).set

theorem mem_inSet (c : Fin 2) (s : Fin 16) (i : S32768.Idx) :
    i ∈ inSet (co c s) ↔ 2048 * s.val + 1024 * c.val ≤ (i 0).val ∧ (i 0).val < 2048 * s.val + 1024 * c.val + 1024 := by
  unfold inSet
  rw [Rect.mem_set_unit]
  constructor
  · intro h
    have h0 := h 0
    rw [k0_off1_eq] at h0
    exact h0
  · intro h a
    obtain rfl : a = 0 := Subsingleton.elim _ _
    rw [k0_off1_eq]
    exact h

theorem mem_outSet (c : Fin 2) (s : Fin 16) (r : Fin 4) (i : S16384.Idx) :
    i ∈ outSet (co c s) r ↔ 1024 * s.val + 512 * c.val + 128 * r.val ≤ (i 0).val ∧ (i 0).val < 1024 * s.val + 512 * c.val + 128 * r.val + 128 := by
  unfold outSet
  rw [Rect.mem_set_unit]
  constructor
  · intro h
    have h0 := h 0
    rw [k0_off2_eq] at h0
    exact h0
  · intro h a
    obtain rfl : a = 0 := Subsingleton.elim _ _
    rw [k0_off2_eq]
    exact h

theorem inSet_disjoint (p p' : Fin 2 × Fin 16) (h : p ≠ p') : Disjoint (inSet (co p.1 p.2)) (inSet (co p'.1 p'.2)) := by
  rw [Finset.disjoint_left]
  intro i h1 h2
  rw [mem_inSet] at h1 h2
  apply h
  have hc := p.1.isLt; have hc' := p'.1.isLt
  exact Prod.ext (Fin.ext (by omega)) (Fin.ext (by omega))

theorem inSet_cover : (Finset.univ : Finset (Fin 2 × Fin 16)).biUnion (fun p => inSet (co p.1 p.2)) = Finset.univ := by
  ext i
  simp only [Finset.mem_biUnion, Finset.mem_univ, true_and, iff_true]
  have hi : (i 0).val < 32768 := (i 0).isLt
  refine ⟨(⟨(i 0).val % 2048 / 1024, by omega⟩, ⟨(i 0).val / 2048, by omega⟩), ?_⟩
  rw [mem_inSet]
  dsimp only
  omega

theorem outSet_disjoint (p p' : Fin 2 × Fin 16 × Fin 4) (h : p ≠ p') :
    Disjoint (outSet (co p.1 p.2.1) p.2.2) (outSet (co p'.1 p'.2.1) p'.2.2) := by
  rw [Finset.disjoint_left]
  intro i h1 h2
  rw [mem_outSet] at h1 h2
  apply h
  have hc := p.1.isLt; have hc' := p'.1.isLt
  have hr := p.2.2.isLt; have hr' := p'.2.2.isLt
  exact Prod.ext (Fin.ext (by omega)) (Prod.ext (Fin.ext (by omega)) (Fin.ext (by omega)))

theorem outSet_cover : (Finset.univ : Finset (Fin 2 × Fin 16 × Fin 4)).biUnion (fun p => outSet (co p.1 p.2.1) p.2.2) = Finset.univ := by
  ext i
  simp only [Finset.mem_biUnion, Finset.mem_univ, true_and, iff_true]
  have hi : (i 0).val < 16384 := (i 0).isLt
  refine ⟨(⟨(i 0).val % 1024 / 512, by omega⟩, ⟨(i 0).val / 1024, by omega⟩, ⟨(i 0).val % 512 / 128, by omega⟩), ?_⟩
  rw [mem_outSet]
  dsimp only
  omega

end Cert.Proof.KI

end
-- ==== Proof.ValueI.lean ====
import proofs.«208194_g50654844289024_cont_8to1c4_348_33_alg».proof.Proof.RowsI
import proofs.«208194_g50654844289024_cont_8to1c4_348_33_alg».proof.Proof.GeomI
import Idealize.ShloMosaic.Lib.SparseCore.Stream

/-!
  What one tile writes out.

  Result `i` of the kernel is the table entry at the word `first · 1000 + second`, where `first` and `second` are the
  interleaved index array's words at `256 (i / 128) + i % 128` and 128 further on. A tile reaches it in four steps: its
  1024 index words are the interleaved array's from `1024 w` on; row `r` of its scratch of gather indices holds the
  words' combinations (Rows); the gather brings, for lane `l` of row `r`, the table's entry at that row's lane-`l`
  word; and run `r` of its output, `128` results from `512 w + 128 r` on, is that row copied out.
-/

noncomputable section

namespace Cert.Proof.KI

open Cert.KernelIdeal Cert.KernelIdeal.Gen Idealize.ShloMosaic Idealize.ShloMosaic.ValueIdx

variable {F : FTy → Type}

local notation "a2" => (Memref.whole Cert.KernelIdeal.main_v3_scv : Memref Cert.KernelIdeal.sig Kind.scVector Space.hbm Cert.KernelIdeal.S32768 EltTy.i32)
local notation "a3" => (Memref.whole Cert.KernelIdeal.main_v4_scv : Memref Cert.KernelIdeal.sig Kind.scVector Space.hbm Cert.KernelIdeal.S1000000 EltTy.f32)
local notation "a4" => (Memref.whole Cert.KernelIdeal.main_v5_scv : Memref Cert.KernelIdeal.sig Kind.scVector Space.hbm Cert.KernelIdeal.S16384 EltTy.f32)
local notation "a5" => (Memref.whole Cert.KernelIdeal.cc0_scratch0 : Memref Cert.KernelIdeal.sig Kind.scVector Space.vmem Cert.KernelIdeal.S1024 EltTy.i32)
local notation "a6" => (Memref.whole Cert.KernelIdeal.cc0_scratch1 : Memref Cert.KernelIdeal.sig Kind.scVector Space.vmem Cert.KernelIdeal.S4x128 EltTy.i32)
local notation "a7" => (Memref.whole Cert.KernelIdeal.cc0_scratch2 : Memref Cert.KernelIdeal.sig Kind.scVector Space.vmem Cert.KernelIdeal.S4x128 EltTy.f32)

/-! ## The value the kernel computes, as one function of the result's index -/

/-- The word the kernel forms for result `i`: `first · 1000 + second`. -/
def wordAt (fi : S32768.Idx → BitVec 32) (i : S16384.Idx) : BitVec 32 :=
  fi (ix1 ⟨256 * ((i 0).val / 128) + (i 0).val % 128, by have h := (i 0).isLt; have h' : (i 0).val < 16384 := h; omega⟩) * 1000#32
    + fi (ix1 ⟨256 * ((i 0).val / 128) + 128 + (i 0).val % 128, by have h := (i 0).isLt; have h' : (i 0).val < 16384 := h; omega⟩)

/-- Result `i`: the flat table at the word's value. -/
def Gout (fi : S32768.Idx → BitVec 32) (ft : S1000000.Idx → Elt F .f32) (i : S16384.Idx) : Elt F .f32 :=
  ft (ix1 ⟨(wordAt fi i).toNat % 1000000, Nat.mod_lt _ (by norm_num)⟩)

/-! ## Rows of a 4 × 128 scratch -/

section Row
variable {e : EltTy} {Val : EltTy → Type}

/-- Row `r` of a 4 × 128 array, as the 128-vector the kernel's copies address. -/
abbrev rowM (M : Memref sig .scVector .vmem S4x128 e) (r : ℕ) (inb : ∀ a, (![r, 0] : Fin 2 → ℕ) a + S1x128.size a ≤ S4x128.size a) :
    Memref sig .scVector .vmem S128 e :=
  (M.slice (Rect.unit (s := S4x128) ![r, 0] S1x128.size inb) (fun _ => rfl)).squeeze S128 Cert.KernelIdeal.Gen.squeezes_S1x128_S128

theorem rowM_emb (M : Memref sig .scVector .vmem S4x128 e) (r : ℕ) (hr : r < 4) (inb) (x : S128.Idx) :
    (rowM M r inb).view.emb x = M.view.emb (ix2 (⟨r, hr⟩ : Fin 4) (x 0)) := by
  show M.view.emb ((Rect.unit (s := S4x128) ![r, 0] S1x128.size inb).emb (Shape.reshapeEquiv _ x)) = _
  congr 1
  rw [Shape.reshapeEquiv_eq_of_rowMajor (y := (ix2 (0 : Fin 1) (x 0) : S1x128.Idx)) _
    (by rw [Shape.rowMajor_val_two, Shape.rowMajor_val_one]; show 0 * 128 + (x 0).val = (x 0).val; omega)]
  funext a
  match a with
  | ⟨0, _⟩ => apply Fin.ext; show r + 1 * 0 = r; omega
  | ⟨1, _⟩ => apply Fin.ext; show 0 + 1 * (x 0).val = (x 0).val; omega

theorem rowM_set (M : Memref sig .scVector .vmem S4x128 e) (r : ℕ) (inb) :
    (rowM M r inb).view.set = (Rect.unit (s := S4x128) ![r, 0] S1x128.size inb).set.map M.view.emb := by
  show ((M.view.slice _).reshape S128 _).set = _
  rw [View.set_reshape, View.set_slice]

theorem rowM_disjoint (M : Memref sig .scVector .vmem S4x128 e) (r r' : ℕ) (hne : r ≠ r') (inb inb') :
    Disjoint (rowM M r inb).view.set (rowM M r' inb').view.set := by
  rw [rowM_set, rowM_set, Finset.disjoint_map]
  exact Rect.unit_disjoint 0 (by show r + 1 ≤ r' ∨ r' + 1 ≤ r; omega)

/-- A row reads past a write of another row. -/
theorem read_row_write_ne (M : Memref sig .scVector .vmem S4x128 e) (r r' : ℕ) (hne : r ≠ r') (inb inb')
    (f : M.view.ty.Contents Val) (g : S128.Idx → Val e) :
    (rowM M r inb).view.read Val ((rowM M r' inb').view.write Val f g Finset.univ) = (rowM M r inb).view.read Val f :=
  View.read_congr fun _ hi => View.write_of_not_mem _ _ _ (fun h => Finset.disjoint_left.mp (rowM_disjoint M r r' hne inb inb') hi h)

/-- The four rows written one after the other: each reads what was written to it. -/
theorem read_nest0 (M : Memref sig .scVector .vmem S4x128 e) (f : M.view.ty.Contents Val) (g0 g1 g2 g3 : S128.Idx → Val e) (i0 i1 i2 i3 j) :
    (rowM M 0 j).view.read Val ((rowM M 3 i3).view.write Val ((rowM M 2 i2).view.write Val ((rowM M 1 i1).view.write Val
      ((rowM M 0 i0).view.write Val f g0 Finset.univ) g1 Finset.univ) g2 Finset.univ) g3 Finset.univ) = g0 := by
  rw [read_row_write_ne M 0 3 (by omega), read_row_write_ne M 0 2 (by omega), read_row_write_ne M 0 1 (by omega)]
  exact View.read_write_univ _ _
theorem read_nest1 (M : Memref sig .scVector .vmem S4x128 e) (f : M.view.ty.Contents Val) (g0 g1 g2 g3 : S128.Idx → Val e) (i0 i1 i2 i3 j) :
    (rowM M 1 j).view.read Val ((rowM M 3 i3).view.write Val ((rowM M 2 i2).view.write Val ((rowM M 1 i1).view.write Val
      ((rowM M 0 i0).view.write Val f g0 Finset.univ) g1 Finset.univ) g2 Finset.univ) g3 Finset.univ) = g1 := by
  rw [read_row_write_ne M 1 3 (by omega), read_row_write_ne M 1 2 (by omega)]
  exact View.read_write_univ _ _
theorem read_nest2 (M : Memref sig .scVector .vmem S4x128 e) (f : M.view.ty.Contents Val) (g0 g1 g2 g3 : S128.Idx → Val e) (i0 i1 i2 i3 j) :
    (rowM M 2 j).view.read Val ((rowM M 3 i3).view.write Val ((rowM M 2 i2).view.write Val ((rowM M 1 i1).view.write Val
      ((rowM M 0 i0).view.write Val f g0 Finset.univ) g1 Finset.univ) g2 Finset.univ) g3 Finset.univ) = g2 := by
  rw [read_row_write_ne M 2 3 (by omega)]
  exact View.read_write_univ _ _
theorem read_nest3 (M : Memref sig .scVector .vmem S4x128 e) (f : M.view.ty.Contents Val) (g0 g1 g2 g3 : S128.Idx → Val e) (i0 i1 i2 i3 j) :
    (rowM M 3 j).view.read Val ((rowM M 3 i3).view.write Val ((rowM M 2 i2).view.write Val ((rowM M 1 i1).view.write Val
      ((rowM M 0 i0).view.write Val f g0 Finset.univ) g1 Finset.univ) g2 Finset.univ) g3 Finset.univ) = g3 :=
  View.read_write_univ _ _

end Row

/-! ## The tile's index words and its rows of gather indices -/

/-- The 1024 index words of the tile at `L`, as the kernel slices them out of the interleaved array. -/
abbrev inSl (L : grid0.Coords) : Memref sig .scVector .hbm S1024 .i32 :=
  (a2).slice (Rect.unit (s := S32768) (k0_off1 L) S1024.size (k0_off1_inb L)) (fun _ => rfl)

/-- The tile's index words: word `z` is the interleaved array's at `2048 s + 1024 c + z`. -/
theorem inSl_read (L : grid0.Coords) (fi : S32768.Idx → BitVec 32) (z : S1024.Idx) :
    (inSl L).view.read (Elt F) fi z
      = fi (ix1 ⟨2048 * (L 1).val + 1024 * (L 0).val + (z 0).val, by
          have h0 : (L 0).val < 2 := (L 0).isLt; have h1 : (L 1).val < 16 := (L 1).isLt; have hz : (z 0).val < 1024 := (z 0).isLt; omega⟩) := by
  show fi ((Rect.unit (s := S32768) (k0_off1 L) S1024.size (k0_off1_inb L)).emb z) = _
  congr 1
  funext a
  match a with
  | ⟨0, _⟩ =>
    apply Fin.ext
    rw [Rect.emb_apply]
    show (k0_off1 L) 0 + 1 * (z 0).val = _
    rw [k0_off1_eq]
    show 2048 * (L 1).val + 1024 * (L 0).val + 1 * (z 0).val = 2048 * (L 1).val + 1024 * (L 0).val + (z 0).val
    omega

/-- Row `r` of the scratch of gather indices after the first `n ≥ 8 (r + 1)` stores. -/
theorem row6_read (g5 : S1024.Idx → BitVec 32) (g6 : S4x128.Idx → BitVec 32) (n : ℕ) (hn : n ≤ 32) (r : ℕ) (hr : r < 4) (h8 : 8 * (r + 1) ≤ n)
    (inb) (x : S128.Idx) :
    (rowM (a6) r inb).view.read (Elt F) ((a6).view.writes (Elt F) g6 (pieces (F := F) g5 n)) x = Qf g5 (ix2 (⟨r, hr⟩ : Fin 4) (x 0)) := by
  have hx : (x 0).val < 128 := (x 0).isLt
  rw [View.read_apply, rowM_emb (a6) r hr inb x]
  exact read_pieces g5 g6 n hn (ix2 (⟨r, hr⟩ : Fin 4) (x 0)) (by show 128 * r + (x 0).val < 16 * n; omega)

/-- The rank-one shape's row-major order is the index itself. -/
theorem rowMajor_symm_128 (k : Fin S128.numel) : (S128.rowMajor.symm k) 0 = ⟨k.val, k.isLt⟩ := by
  apply Fin.ext
  have h := Shape.rowMajor_val_one (d := ![128]) (S128.rowMajor.symm k)
  rw [Equiv.apply_symm_apply] at h
  exact h.symm

/-! ## What the gather brings, and what is copied out -/

/-- Lane `y` of the gather through row `r` of the index scratch is the result the kernel owes at position `y` of the tile's
    run `r`. -/
theorem gather_value (L : grid0.Coords) (fi : S32768.Idx → BitVec 32) (hpre : ∀ z, (fi z).toNat ≤ 999) (ft : S1000000.Idx → Elt F .f32)
    (g5 : S1024.Idx → BitVec 32) (hg5 : g5 = (inSl L).view.read (Elt F) fi)
    (g6 : S4x128.Idx → BitVec 32) (n : ℕ) (hn : n ≤ 32) (r : Fin 4) (h8 : 8 * (r.val + 1) ≤ n) (inb inb3)
    (hg : S1000000.Gathers 0 S128) (hnum : S128.numel = S128.size hg.axis')
    (hin : ∀ x, ((rowM (a6) r.val inb).view.read (Elt F) ((a6).view.writes (Elt F) g6 (pieces (F := F) g5 n)) x).toNat < S1000000.size hg.axis)
    (y : S128.Idx) :
    SparseCore.gatherPayload hg (((a3).slice (Rect.unit (s := S1000000) ![0] S1000000.size inb3) (fun _ => rfl)).view.read (Elt F) ft)
        (SparseCore.rows ((rowM (a6) r.val inb).view.read (Elt F) ((a6).view.writes (Elt F) g6 (pieces (F := F) g5 n))) hnum hin) y
      = Gout fi ft ((Rect.unit (s := S16384) (k0_off2 L (BitVec.ofNat 32 (128 * r.val))) S128.size (k0_off2_inb L r)).emb y) := by
  subst hg5
  have hy : (y 0).val < 128 := (y 0).isLt
  have h0 : (L 0).val < 2 := (L 0).isLt
  have h1 : (L 1).val < 16 := (L 1).isLt
  have hw5 : ∀ z, ((inSl L).view.read (Elt F) fi z).toNat ≤ 999 := fun z => by rw [inSl_read]; exact hpre _
  unfold SparseCore.gatherPayload Gout
  show ft ((Rect.unit (s := S1000000) ![0] S1000000.size inb3).emb (hg.idx _ y)) = _
  congr 1
  funext a
  match a with
  | ⟨0, _⟩ =>
    apply Fin.ext
    rw [Rect.emb_apply]
    show 0 + 1 * (hg.idx _ y hg.axis).val = (wordAt fi _).toNat % 1000000
    rw [Shape.Gathers.idx_axis]
    unfold SparseCore.rows
    show 0 + 1 * ((rowM (a6) r.val inb).view.read (Elt F) _ _).toNat = _
    rw [row6_read _ g6 n hn r.val r.isLt h8 inb, Nat.zero_add, Nat.one_mul]
    have hx0 : (S128.rowMajor.symm ((y hg.axis').cast hnum.symm)) 0 = y 0 := by
      rw [rowMajor_symm_128]; apply Fin.ext; rfl
    rw [hx0]
    have hlt := Qf_lt _ hw5 (ix2 (⟨r.val, r.isLt⟩ : Fin 4) (y 0))
    have hword : Qf ((inSl L).view.read (Elt F) fi) (ix2 (⟨r.val, r.isLt⟩ : Fin 4) (y 0))
        = wordAt fi ((Rect.unit (s := S16384) (k0_off2 L (BitVec.ofNat 32 (128 * r.val))) S128.size (k0_off2_inb L r)).emb y) := by
      have hemb : (((Rect.unit (s := S16384) (k0_off2 L (BitVec.ofNat 32 (128 * r.val))) S128.size (k0_off2_inb L r)).emb y) 0).val
          = 1024 * (L 1).val + 512 * (L 0).val + 128 * r.val + (y 0).val := by
        rw [Rect.emb_apply]
        show (k0_off2 L (BitVec.ofNat 32 (128 * r.val))) 0 + 1 * (y 0).val = _
        rw [k0_off2_eq]
        show 1024 * (L 1).val + 512 * (L 0).val + 128 * r.val + 1 * (y 0).val = _
        omega
      have hr : r.val < 4 := r.isLt
      unfold Qf wordAt
      rw [inSl_read, inSl_read]
      have key : ∀ (A B : ℕ) (hA : A < 32768) (hB : B < 32768), A = B → fi (ix1 ⟨A, hA⟩) = fi (ix1 ⟨B, hB⟩) := by
        intro A B hA hB h; subst h; rfl
      refine congrArg₂ (· + ·) (congrArg (· * 1000#32) (key _ _ _ _ ?_)) (key _ _ _ _ ?_)
      · show 2048 * (L 1).val + 1024 * (L 0).val + (256 * r.val + (y 0).val) = 256 * (_ / 128) + _ % 128
        rw [hemb]
        omega
      · show 2048 * (L 1).val + 1024 * (L 0).val + (256 * r.val + 128 + (y 0).val) = 256 * (_ / 128) + 128 + _ % 128
        rw [hemb]
        omega
    rw [← hword, Nat.mod_eq_of_lt hlt]

/-- The same bound the gathers ask of their index lists: every word of row `r` is below one million. -/
theorem row6_lt (L : grid0.Coords) (fi : S32768.Idx → BitVec 32) (hpre : ∀ z, (fi z).toNat ≤ 999)
    (g5 : S1024.Idx → BitVec 32) (hg5 : g5 = (inSl L).view.read (Elt F) fi)
    (g6 : S4x128.Idx → BitVec 32) (n : ℕ) (hn : n ≤ 32) (r : ℕ) (hr : r < 4) (h8 : 8 * (r + 1) ≤ n) (inb) (x : S128.Idx) :
    ((rowM (a6) r inb).view.read (Elt F) ((a6).view.writes (Elt F) g6 (pieces (F := F) g5 n)) x).toNat < 1000000 := by
  subst hg5
  rw [row6_read _ g6 n hn r hr h8 inb]
  exact Qf_lt _ (fun z => by rw [inSl_read]; exact hpre _) _

/-- A run written whole: the element under position `y` holds the payload's `y`. -/
theorem writes_whole_emb {sg : RefSig} {κ : Kind} {sp : Space} {s : Shape} {e : EltTy} {Val : EltTy → Type} (v : View sg κ sp s e)
    (f : v.ty.Contents Val) (w : s.Idx → Val e) (y : s.Idx) :
    v.read Val (v.writes Val f [⟨Rect.whole s, w⟩]) y = w y := by
  have h := View.read_writes_cons_emb v f (Rect.whole s) w [] y
  rw [Rect.emb_whole_apply] at h
  exact h

end Cert.Proof.KI

end
-- ==== Proof.SetupI.lean ====
import proofs.«208194_g50654844289024_cont_8to1c4_348_33_alg».proof.Defs
import Idealize.ShloMosaic.Lib.SparseCore.Launch
import Idealize.ShloMosaic.Lib.StableHlo.Run
import Idealize.ShloMosaic.Lib.Pipeline.Kit
import Idealize.ShloMosaic.Lib.Tactic
import proofs.«208194_g50654844289024_cont_8to1c4_348_33_alg».proof.Proof.Gen.KernelIdeal
import proofs.«208194_g50654844289024_cont_8to1c4_348_33_alg».proof.Proof.Gen.KernelIdeal.Skeleton
import proofs.«208194_g50654844289024_cont_8to1c4_348_33_alg».proof.Proof.ValueI

/-!
  The program as the launch theorem reads it: one vector-subcore call on two SparseCores of sixteen tiles each; the
  ghost state is the launch handshakes' rounds beside the local copies' counters; the three arrays the kernel names, and
  what each tile is handed of them — its run of the interleaved index array, a read share of the flat table, its four
  runs of the result array.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays, and a tile's part of each -/

abbrev iLoc (d : Dev nD) : Loc nD τ sig := (SparseCore.T d).loc main_v3
abbrev tLoc (d : Dev nD) : Loc nD τ sig := (SparseCore.T d).loc main_v4
abbrev oLoc (d : Dev nD) : Loc nD τ sig := (SparseCore.T d).loc main_v5

abbrev cV (L : grid0.Coords) : Fin τ.nSC := (L 0).castLE hcore0
abbrev jV (L : grid0.Coords) : Fin τ.nSub := (L 1).castLE hsub0

/-- The read share of the flat table the tile at `L` is handed: the two SparseCores halve it, each SparseCore's
    sixteen tiles take a token of its half. -/
def qT (L : grid0.Coords) : PosShare TreeShare := Transfers.shareTokN (Transfers.shareTokN fullShare (L 0).val) (L 1).val

end Cert.Proof.KI

end
-- ==== Proof.TileI.lean ====
import proofs.«208194_g50654844289024_cont_8to1c4_348_33_alg».proof.Proof.SetupI

/-!
  One tile's task, run once at a symbolic tile.

  The tile copies its 1024 index words in and waits; four times over it forms a row of 128 gather indices, sixteen
  at a time, and starts the gather of the flat table through that row into a row of its result scratch, each gather on a
  semaphore of its own; then, four times over, it waits for a gather and copies the row it brought out to its run of the
  result array, waiting for the copy. No gather's list, source or destination is touched while it is in flight: the
  stores of the later rows fall on other rows of the index scratch, and a row is copied out only after its gather's
  wait. The index words are at most 999, so every gather index is below one million (Rows): the gathers' range
  condition. At the end the four runs hold the kernel's function of the result's index (Value).
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "a2" => (Memref.whole Cert.KernelIdeal.main_v3_scv : Memref Cert.KernelIdeal.sig Kind.scVector Space.hbm Cert.KernelIdeal.S32768 EltTy.i32)
local notation "a3" => (Memref.whole Cert.KernelIdeal.main_v4_scv : Memref Cert.KernelIdeal.sig Kind.scVector Space.hbm Cert.KernelIdeal.S1000000 EltTy.f32)
local notation "a4" => (Memref.whole Cert.KernelIdeal.main_v5_scv : Memref Cert.KernelIdeal.sig Kind.scVector Space.hbm Cert.KernelIdeal.S16384 EltTy.f32)
local notation "a5" => (Memref.whole Cert.KernelIdeal.cc0_scratch0 : Memref Cert.KernelIdeal.sig Kind.scVector Space.vmem Cert.KernelIdeal.S1024 EltTy.i32)
local notation "a6" => (Memref.whole Cert.KernelIdeal.cc0_scratch1 : Memref Cert.KernelIdeal.sig Kind.scVector Space.vmem Cert.KernelIdeal.S4x128 EltTy.i32)
local notation "a7" => (Memref.whole Cert.KernelIdeal.cc0_scratch2 : Memref Cert.KernelIdeal.sig Kind.scVector Space.vmem Cert.KernelIdeal.S4x128 EltTy.f32)

local notation "𝕄" => MT nD τ sig (HIx 1) (Elt F) ℕ UU ℕ

/-! ## The tile's semaphores and scratch among its subcore's own -/

abbrev gsem0 : DmaSem sig := ((cc0_scratch3.slice (Rect.unit (s := S4) ![0] S1.size inb_S4_S1_0)).squeeze S_ squeezes_S1_S_).sem
abbrev gsem1 : DmaSem sig := ((cc0_scratch3.slice (Rect.unit (s := S4) ![1] S1.size inb_S4_S1_1)).squeeze S_ squeezes_S1_S_).sem
abbrev gsem2 : DmaSem sig := ((cc0_scratch3.slice (Rect.unit (s := S4) ![2] S1.size inb_S4_S1_2)).squeeze S_ squeezes_S1_S_).sem
abbrev gsem3 : DmaSem sig := ((cc0_scratch3.slice (Rect.unit (s := S4) ![3] S1.size inb_S4_S1_3)).squeeze S_ squeezes_S1_S_).sem

theorem cell_ne {thr : Thread nD τ} {a b : SemLoc sig} (h : a ≠ b) : ((thr, a) : GSem nD τ sig) ≠ (thr, b) := fun e => h (Prod.mk.inj e).2

variable (d : Dev nD) (c : Fin τ.nSC) (i : Fin τ.nSub)

theorem ownSems0_V :
    (ownSems0 (V d c i) : sProp 𝕄)
      = iprop(semVal ((V d c i, SemLoc.dma gsem0) : GSem nD τ sig) 0
          ∗ semVal ((V d c i, SemLoc.dma gsem1) : GSem nD τ sig) 0
          ∗ semVal ((V d c i, SemLoc.dma gsem2) : GSem nD τ sig) 0
          ∗ semVal ((V d c i, SemLoc.dma gsem3) : GSem nD τ sig) 0
          ∗ semVal ((V d c i, SemLoc.dma cc0_scoped0.sem) : GSem nD τ sig) 0
          ∗ semVal ((V d c i, SemLoc.dma cc0_scoped1.sem) : GSem nD τ sig) 0
          ∗ semVal ((V d c i, SemLoc.dma cc0_scoped2.sem) : GSem nD τ sig) 0
          ∗ semVal ((V d c i, SemLoc.dma cc0_scoped3.sem) : GSem nD τ sig) 0
          ∗ semVal ((V d c i, SemLoc.dma cc0_scoped4.sem) : GSem nD τ sig) 0
          ∗ bigSep ((((((((((ownCells (V d c i)).erase (V d c i, SemLoc.dma gsem0)).erase (V d c i, SemLoc.dma gsem1)).erase (V d c i, SemLoc.dma gsem2)).erase (V d c i, SemLoc.dma gsem3)).erase (V d c i, SemLoc.dma cc0_scoped0.sem)).erase (V d c i, SemLoc.dma cc0_scoped1.sem)).erase (V d c i, SemLoc.dma cc0_scoped2.sem)).erase (V d c i, SemLoc.dma cc0_scoped3.sem)).erase (V d c i, SemLoc.dma cc0_scoped4.sem)) fun g => semVal g 0) := by
  unfold SparseCore.Cfg.ownSems0
  rw [SparseCore.bigSep_erase' ((mem_ownCells (g := ((V d c i, SemLoc.dma gsem0) : GSem nD τ sig))).mpr ⟨rfl, by show (SemLoc.dma gsem0 : SemLoc sig).isScoped .scVector = true; decide⟩),
    SparseCore.bigSep_erase' (Finset.mem_erase.mpr ⟨cell_ne (show (SemLoc.dma gsem1 : SemLoc sig) ≠ SemLoc.dma gsem0 by decide), (mem_ownCells (g := ((V d c i, SemLoc.dma gsem1) : GSem nD τ sig))).mpr ⟨rfl, by show (SemLoc.dma gsem1 : SemLoc sig).isScoped .scVector = true; decide⟩⟩),
    SparseCore.bigSep_erase' (Finset.mem_erase.mpr ⟨cell_ne (show (SemLoc.dma gsem2 : SemLoc sig) ≠ SemLoc.dma gsem1 by decide), Finset.mem_erase.mpr ⟨cell_ne (show (SemLoc.dma gsem2 : SemLoc sig) ≠ SemLoc.dma gsem0 by decide), (mem_ownCells (g := ((V d c i, SemLoc.dma gsem2) : GSem nD τ sig))).mpr ⟨rfl, by show (SemLoc.dma gsem2 : SemLoc sig).isScoped .scVector = true; decide⟩⟩⟩),
    SparseCore.bigSep_erase' (Finset.mem_erase.mpr ⟨cell_ne (show (SemLoc.dma gsem3 : SemLoc sig) ≠ SemLoc.dma gsem2 by decide), Finset.mem_erase.mpr ⟨cell_ne (show (SemLoc.dma gsem3 : SemLoc sig) ≠ SemLoc.dma gsem1 by decide), Finset.mem_erase.mpr ⟨cell_ne (show (SemLoc.dma gsem3 : SemLoc sig) ≠ SemLoc.dma gsem0 by decide), (mem_ownCells (g := ((V d c i, SemLoc.dma gsem3) : GSem nD τ sig))).mpr ⟨rfl, by show (SemLoc.dma gsem3 : SemLoc sig).isScoped .scVector = true; decide⟩⟩⟩⟩),
    SparseCore.bigSep_erase' (Finset.mem_erase.mpr ⟨cell_ne (show (SemLoc.dma cc0_scoped0.sem : SemLoc sig) ≠ SemLoc.dma gsem3 by decide), Finset.mem_erase.mpr ⟨cell_ne (show (SemLoc.dma cc0_scoped0.sem : SemLoc sig) ≠ SemLoc.dma gsem2 by decide), Finset.mem_erase.mpr ⟨cell_ne (show (SemLoc.dma cc0_scoped0.sem : SemLoc sig) ≠ SemLoc.dma gsem1 by decide), Finset.mem_erase.mpr ⟨cell_ne (show (SemLoc.dma cc0_scoped0.sem : SemLoc sig) ≠ SemLoc.dma gsem0 by decide), (mem_ownCells (g := ((V d c i, SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨cell_ne (show (SemLoc.dma cc0_scoped1.sem : SemLoc sig) ≠ SemLoc.dma cc0_scoped0.sem by decide), Finset.mem_erase.mpr ⟨cell_ne (show (SemLoc.dma cc0_scoped1.sem : SemLoc sig) ≠ SemLoc.dma gsem3 by decide), Finset.mem_erase.mpr ⟨cell_ne (show (SemLoc.dma cc0_scoped1.sem : SemLoc sig) ≠ SemLoc.dma gsem2 by decide), Finset.mem_erase.mpr ⟨cell_ne (show (SemLoc.dma cc0_scoped1.sem : SemLoc sig) ≠ SemLoc.dma gsem1 by decide), Finset.mem_erase.mpr ⟨cell_ne (show (SemLoc.dma cc0_scoped1.sem : SemLoc sig) ≠ SemLoc.dma gsem0 by decide), (mem_ownCells (g := ((V d c i, SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨cell_ne (show (SemLoc.dma cc0_scoped2.sem : SemLoc sig) ≠ SemLoc.dma cc0_scoped1.sem by decide), Finset.mem_erase.mpr ⟨cell_ne (show (SemLoc.dma cc0_scoped2.sem : SemLoc sig) ≠ SemLoc.dma cc0_scoped0.sem by decide), Finset.mem_erase.mpr ⟨cell_ne (show (SemLoc.dma cc0_scoped2.sem : SemLoc sig) ≠ SemLoc.dma gsem3 by decide), Finset.mem_erase.mpr ⟨cell_ne (show (SemLoc.dma cc0_scoped2.sem : SemLoc sig) ≠ SemLoc.dma gsem2 by decide), Finset.mem_erase.mpr ⟨cell_ne (show (SemLoc.dma cc0_scoped2.sem : SemLoc sig) ≠ SemLoc.dma gsem1 by decide), Finset.mem_erase.mpr ⟨cell_ne (show (SemLoc.dma cc0_scoped2.sem : SemLoc sig) ≠ SemLoc.dma gsem0 by decide), (mem_ownCells (g := ((V d c i, SemLoc.dma cc0_scoped2.sem) : GSem nD τ sig))).mpr ⟨rfl, by show (SemLoc.dma cc0_scoped2.sem : SemLoc sig).isScoped .scVector = true; decide⟩⟩⟩⟩⟩⟩⟩),
    SparseCore.bigSep_erase' (Finset.mem_erase.mpr ⟨cell_ne (show (SemLoc.dma cc0_scoped3.sem : SemLoc sig) ≠ SemLoc.dma cc0_scoped2.sem by decide), Finset.mem_erase.mpr ⟨cell_ne (show (SemLoc.dma cc0_scoped3.sem : SemLoc sig) ≠ SemLoc.dma cc0_scoped1.sem by decide), Finset.mem_erase.mpr ⟨cell_ne (show (SemLoc.dma cc0_scoped3.sem : SemLoc sig) ≠ SemLoc.dma cc0_scoped0.sem by decide), Finset.mem_erase.mpr ⟨cell_ne (show (SemLoc.dma cc0_scoped3.sem : SemLoc sig) ≠ SemLoc.dma gsem3 by decide), Finset.mem_erase.mpr ⟨cell_ne (show (SemLoc.dma cc0_scoped3.sem : SemLoc sig) ≠ SemLoc.dma gsem2 by decide), Finset.mem_erase.mpr ⟨cell_ne (show (SemLoc.dma cc0_scoped3.sem : SemLoc sig) ≠ SemLoc.dma gsem1 by decide), Finset.mem_erase.mpr ⟨cell_ne (show (SemLoc.dma cc0_scoped3.sem : SemLoc sig) ≠ SemLoc.dma gsem0 by decide), (mem_ownCells (g := ((V d c i, SemLoc.dma cc0_scoped3.sem) : GSem nD τ sig))).mpr ⟨rfl, by show (SemLoc.dma cc0_scoped3.sem : SemLoc sig).isScoped .scVector = true; decide⟩⟩⟩⟩⟩⟩⟩⟩),
    SparseCore.bigSep_erase' (Finset.mem_erase.mpr ⟨cell_ne (show (SemLoc.dma cc0_scoped4.sem : SemLoc sig) ≠ SemLoc.dma cc0_scoped3.sem by decide), Finset.mem_erase.mpr ⟨cell_ne (show (SemLoc.dma cc0_scoped4.sem : SemLoc sig) ≠ SemLoc.dma cc0_scoped2.sem by decide), Finset.mem_erase.mpr ⟨cell_ne (show (SemLoc.dma cc0_scoped4.sem : SemLoc sig) ≠ SemLoc.dma cc0_scoped1.sem by decide), Finset.mem_erase.mpr ⟨cell_ne (show (SemLoc.dma cc0_scoped4.sem : SemLoc sig) ≠ SemLoc.dma cc0_scoped0.sem by decide), Finset.mem_erase.mpr ⟨cell_ne (show (SemLoc.dma cc0_scoped4.sem : SemLoc sig) ≠ SemLoc.dma gsem3 by decide), Finset.mem_erase.mpr ⟨cell_ne (show (SemLoc.dma cc0_scoped4.sem : SemLoc sig) ≠ SemLoc.dma gsem2 by decide), Finset.mem_erase.mpr ⟨cell_ne (show (SemLoc.dma cc0_scoped4.sem : SemLoc sig) ≠ SemLoc.dma gsem1 by decide), Finset.mem_erase.mpr ⟨cell_ne (show (SemLoc.dma cc0_scoped4.sem : SemLoc sig) ≠ SemLoc.dma gsem0 by decide), (mem_ownCells (g := ((V d c i, SemLoc.dma cc0_scoped4.sem) : GSem nD τ sig))).mpr ⟨rfl, by show (SemLoc.dma cc0_scoped4.sem : SemLoc sig).isScoped .scVector = true; decide⟩⟩⟩⟩⟩⟩⟩⟩⟩)]

theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)
          ∗ bigSep ((((ownRefs (τ := τ) (.scVector c i)).erase ((Proc.scVector c i).devRef cc0_scratch0)).erase
              ((Proc.scVector c i).devRef cc0_scratch1)).erase ((Proc.scVector c i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector c i) (b := (Proc.scVector c i).devRef cc0_scratch2) rfl⟩⟩)]

/-! ## The tile's share of the three arrays -/

abbrev outSl0 (L : grid0.Coords) : Memref sig .scVector .hbm S128 .f32 := ((a4).slice (Rect.unit (s := S16384) (k0_off2 L 0#32) S128.size (k0_off2_inb L 0)) (fun _ => rfl))
abbrev outSl1 (L : grid0.Coords) : Memref sig .scVector .hbm S128 .f32 := ((a4).slice (Rect.unit (s := S16384) (k0_off2 L 128#32) S128.size (k0_off2_inb L 1)) (fun _ => rfl))
abbrev outSl2 (L : grid0.Coords) : Memref sig .scVector .hbm S128 .f32 := ((a4).slice (Rect.unit (s := S16384) (k0_off2 L 256#32) S128.size (k0_off2_inb L 2)) (fun _ => rfl))
abbrev outSl3 (L : grid0.Coords) : Memref sig .scVector .hbm S128 .f32 := ((a4).slice (Rect.unit (s := S16384) (k0_off2 L 384#32) S128.size (k0_off2_inb L 3)) (fun _ => rfl))

/-- What a tile is handed: its run of the interleaved index array, its read share of the flat table, its four runs of
    the result array. -/
def tileGo (L : grid0.Coords) (fi : Buf (Elt F) (iLoc d)) (ft : Buf (Elt F) (tLoc d)) (fo : Buf (Elt F) (oLoc d)) : sProp 𝕄 :=
  iprop((iLoc d ↦[inSet L]{fullShare} fi) ∗ (tLoc d ↦{qT L} ft)
    ∗ (oLoc d ↦[outSet L 0]{fullShare} fo) ∗ (oLoc d ↦[outSet L 1]{fullShare} fo) ∗ (oLoc d ↦[outSet L 2]{fullShare} fo) ∗ (oLoc d ↦[outSet L 3]{fullShare} fo))

/-- What it hands back: the same, its four runs at the kernel's function of the result's index. -/
def tileTd (L : grid0.Coords) (fi : Buf (Elt F) (iLoc d)) (ft : Buf (Elt F) (tLoc d)) : sProp 𝕄 :=
  tileGo d L fi ft (Gout fi ft)

variable (L : grid0.Coords)

theorem pts_in (q : PosShare TreeShare) (f : Buf (Elt F) (iLoc d)) :
    ((inSl L).view.loc (V d (cV L) (jV L)) ↦[(inSl L).view.set]{q} f : sProp 𝕄) = (iLoc d ↦[inSet L]{q} f) := by
  unfold inSet
  have h : (inSl L).view.set = (Rect.unit (s := S32768) (k0_off1 L) S1024.size (k0_off1_inb L)).set := View.set_slice_whole _ _
  rw [h]
theorem pts_out0 (f : Buf (Elt F) (oLoc d)) :
    ((outSl0 L).view.loc (V d (cV L) (jV L)) ↦[(outSl0 L).view.set]{fullShare} f : sProp 𝕄) = (oLoc d ↦[outSet L 0]{fullShare} f) := by
  unfold outSet
  have h : (outSl0 L).view.set = (Rect.unit (s := S16384) (k0_off2 L 0#32) S128.size (k0_off2_inb L 0)).set := View.set_slice_whole _ _
  rw [h]
  try rfl
theorem pts_out1 (f : Buf (Elt F) (oLoc d)) :
    ((outSl1 L).view.loc (V d (cV L) (jV L)) ↦[(outSl1 L).view.set]{fullShare} f : sProp 𝕄) = (oLoc d ↦[outSet L 1]{fullShare} f) := by
  unfold outSet
  have h : (outSl1 L).view.set = (Rect.unit (s := S16384) (k0_off2 L 128#32) S128.size (k0_off2_inb L 1)).set := View.set_slice_whole _ _
  rw [h]
  try rfl
theorem pts_out2 (f : Buf (Elt F) (oLoc d)) :
    ((outSl2 L).view.loc (V d (cV L) (jV L)) ↦[(outSl2 L).view.set]{fullShare} f : sProp 𝕄) = (oLoc d ↦[outSet L 2]{fullShare} f) := by
  unfold outSet
  have h : (outSl2 L).view.set = (Rect.unit (s := S16384) (k0_off2 L 256#32) S128.size (k0_off2_inb L 2)).set := View.set_slice_whole _ _
  rw [h]
  try rfl
theorem pts_out3 (f : Buf (Elt F) (oLoc d)) :
    ((outSl3 L).view.loc (V d (cV L) (jV L)) ↦[(outSl3 L).view.set]{fullShare} f : sProp 𝕄) = (oLoc d ↦[outSet L 3]{fullShare} f) := by
  unfold outSet
  have h : (outSl3 L).view.set = (Rect.unit (s := S16384) (k0_off2 L 384#32) S128.size (k0_off2_inb L 3)).set := View.set_slice_whole _ _
  rw [h]
  try rfl

theorem toks4 (ℓ : Loc nD τ sig) (f : Buf (Elt F) ℓ) (q : PosShare TreeShare) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h := Transfers.pointsTo_toks_range (Ix := HIx 1) (Name := ℕ) (U := UU) (Lvl := ℕ) (ℓ := ℓ) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

/-- A run written whole: the element under position `y` holds the payload's `y`. -/
theorem writes_whole_apply {sg : RefSig} {κ : Kind} {sp : Space} {s : Shape} {e : EltTy} {Val : EltTy → Type} (v : View sg κ sp s e)
    (f : v.ty.Contents Val) (w : s.Idx → Val e) (y : s.Idx) :
    v.writes Val f [⟨Rect.whole s, w⟩] (v.emb y) = _root_.cast (congrArg Val v.elt_eq.symm) (w y) := by
  have h := View.write_emb_of_mem (v := v.slice (Rect.whole s)) f w (Finset.mem_univ y)
  have he : (v.slice (Rect.whole s)).emb y = v.emb y := by
    show v.emb ((Rect.whole s).emb y) = _
    rw [Rect.emb_whole_apply]
  rw [he] at h
  exact h

/-- The index scratch, held as row 0, row 1 and the rest, is the scratch whole. -/
theorem a6_join (g0 g1 g2 : Buf (Elt F) ((V d (cV L) (jV L)).loc cc0_scratch1)) (i0 i1) :
    iprop(((a6).view.loc (V d (cV L) (jV L)) ↦[(rowM (a6) 0 i0).view.set]{fullShare} g0)
        ∗ ((a6).view.loc (V d (cV L) (jV L)) ↦[(rowM (a6) 1 i1).view.set]{fullShare} g1)
        ∗ ((a6).view.loc (V d (cV L) (jV L)) ↦[(Finset.univ \ (rowM (a6) 0 i0).view.set) \ (rowM (a6) 1 i1).view.set]{fullShare} g2))
      ⊢ (iprop(∃ f, (V d (cV L) (jV L)).loc cc0_scratch1 ↦{fullShare} f) : sProp 𝕄) := by
  iintro ⟨H0, H1, H2⟩
  ihave H12 := (pointsTo_join_subset (ℓ := (V d (cV L) (jV L)).loc cc0_scratch1) (I := (rowM (a6) 1 i1).view.set) (S := Finset.univ \ (rowM (a6) 0 i0).view.set)
      (Finset.subset_sdiff.mpr ⟨Finset.subset_univ _, rowM_disjoint (a6) 1 0 (by omega) i1 i0⟩)) $$ [H1 H2]
  · isplitl [H1] <;> iassumption
  ihave H := (pointsTo_join_subset (ℓ := (V d (cV L) (jV L)).loc cc0_scratch1) (I := (rowM (a6) 0 i0).view.set) (S := Finset.univ) (Finset.subset_univ _)) $$ [H0 H12]
  · isplitl [H0] <;> iassumption
  iexists _; iexact H

/-! ## The task -/

theorem tile_body (hF : (K (F := F)).Facts) (fi : Buf (Elt F) (iLoc d)) (ft : Buf (Elt F) (tLoc d)) (fo : Buf (Elt F) (oLoc d))
    (hpre : ∀ z, (fi z).toNat ≤ 999) (O : CellTallies nD τ sig (HIx 1)) (W : Waits sig (HIx 1)) (hO : ∀ g, O g none = 0) :
    iprop(levAts (K (F := F)).L (K (F := F)).lev ∗ emp ∗ tileGo d L fi ft fo
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L a2 (Memref.isWhole_whole _) a3 (Memref.isWhole_whole _) a4 (Memref.isWhole_whole _)
            a5 (Memref.isWhole_whole _) a6 (Memref.isWhole_whole _) a7 (Memref.isWhole_whole _) cc0_scratch3 cc0_scoped0 cc0_scoped1 cc0_scoped2 cc0_scoped3 cc0_scoped4)
          fun _ => iprop(tileTd d L fi ft ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileTd tileGo
  iintro ⟨#Hlv, -, ⟨Hin, Ht, Ho0, Ho1, Ho2, Ho3⟩, ⟨⟨%f5, H5⟩, ⟨%f6, H6⟩, ⟨%f7, H7⟩, Hbufs⟩, ⟨Hg0, Hg1, Hg2, Hg3, Hs0, Hs1, Hs2, Hs3, Hs4, Hsems⟩, HO⟩
  ihave Hmw := ((K (F := F)).mayWaits_none (thr := (V d (cV L) (jV L))) hO) $$ Hlv
  ihave Htt := ((toks4 (F := F) (tLoc d) ft (qT L)).1) $$ Ht
  icases Htt with ⟨Htd, Ht0, Ht1, Ht2, Ht3⟩
  ihave Hin := (Entails.of_eq (pts_in (F := F) d L fullShare fi).symm) $$ Hin
  ihave Ht0 := (Entails.of_eq (show (tLoc d ↦{Transfers.shareTokN (qT L) 0} ft : sProp 𝕄) = ((a3).view.loc (V d (cV L) (jV L)) ↦{Transfers.shareTokN (qT L) 0} ft) from rfl)) $$ Ht0
  ihave Ht1 := (Entails.of_eq (show (tLoc d ↦{Transfers.shareTokN (qT L) 1} ft : sProp 𝕄) = ((a3).view.loc (V d (cV L) (jV L)) ↦{Transfers.shareTokN (qT L) 1} ft) from rfl)) $$ Ht1
  ihave Ht2 := (Entails.of_eq (show (tLoc d ↦{Transfers.shareTokN (qT L) 2} ft : sProp 𝕄) = ((a3).view.loc (V d (cV L) (jV L)) ↦{Transfers.shareTokN (qT L) 2} ft) from rfl)) $$ Ht2
  ihave Ht3 := (Entails.of_eq (show (tLoc d ↦{Transfers.shareTokN (qT L) 3} ft : sProp 𝕄) = ((a3).view.loc (V d (cV L) (jV L)) ↦{Transfers.shareTokN (qT L) 3} ft) from rfl)) $$ Ht3
  ihave Ho0 := (Entails.of_eq (pts_out0 (F := F) d L fo).symm) $$ Ho0
  ihave Ho1 := (Entails.of_eq (pts_out1 (F := F) d L fo).symm) $$ Ho1
  ihave Ho2 := (Entails.of_eq (pts_out2 (F := F) d L fo).symm) $$ Ho2
  ihave Ho3 := (Entails.of_eq (pts_out3 (F := F) d L fo).symm) $$ Ho3
  ihave H5 := (Entails.of_eq (show ((V d (cV L) (jV L)).loc cc0_scratch0 ↦{fullShare} f5 : sProp 𝕄) = ((a5).view.loc (V d (cV L) (jV L)) ↦{fullShare} f5) from rfl)) $$ H5
  ihave H6 := (Entails.of_eq (show ((V d (cV L) (jV L)).loc cc0_scratch1 ↦{fullShare} f6 : sProp 𝕄) = ((a6).view.loc (V d (cV L) (jV L)) ↦{fullShare} f6) from rfl)) $$ H6
  ihave H7 := (Entails.of_eq (show ((V d (cV L) (jV L)).loc cc0_scratch2 ↦{fullShare} f7 : sProp 𝕄) = ((a7).view.loc (V d (cV L) (jV L)) ↦{fullShare} f7) from rfl)) $$ H7
  sl_exec_parts
  -- the index words the copy brought in
  have hF5 : View.write (Elt F) (a5).view f5 (tile_body.sl.dma0 d L fi) Finset.univ = (inSl L).view.read (Elt F) fi :=
    View.write_whole_univ _ _ _
  have hin0 : ∀ x, ((rowM (a6) 0 inb_S4x128_S1x128_0_0).view.read (Elt F) ((a6).view.writes (Elt F) f6 (tile_body.sl.H6_8 d L fi f5)) x).toNat < S1000000.size gathers_S1000000_S128.axis :=
    fun x => row6_lt L fi hpre _ hF5 f6 8 (by omega) 0 (by omega) (by omega) _ x
  sl_exec_parts
  have hin1 : ∀ x, ((rowM (a6) 1 inb_S4x128_S1x128_1_0).view.read (Elt F) ((a6).view.writes (Elt F) f6 (tile_body.sl.H6_16 d L fi f5)) x).toNat < S1000000.size gathers_S1000000_S128.axis :=
    fun x => row6_lt L fi hpre _ hF5 f6 16 (by omega) 1 (by omega) (by omega) _ x
  sl_exec_parts
  have hin2 : ∀ x, ((rowM (a6) 2 inb_S4x128_S1x128_2_0).view.read (Elt F) ((a6).view.writes (Elt F) f6 (tile_body.sl.H6_24 d L fi f5)) x).toNat < S1000000.size gathers_S1000000_S128.axis :=
    fun x => row6_lt L fi hpre _ hF5 f6 24 (by omega) 2 (by omega) (by omega) _ x
  sl_exec_parts
  have hin3 : ∀ x, ((rowM (a6) 3 inb_S4x128_S1x128_3_0).view.read (Elt F) ((a6).view.writes (Elt F) f6 (tile_body.sl.H6_32 d L fi f5)) x).toNat < S1000000.size gathers_S1000000_S128.axis :=
    fun x => row6_lt L fi hpre _ hF5 f6 32 (by omega) 3 (by omega) (by omega) _ x
  sl_exec_parts
  have hval0 : ∀ i ∈ (outSl0 L).view.set, ((outSl0 L).view.writes (Elt F) fo [⟨Rect.whole S128, tile_body.sl.dma0_1 d L fi ft f5 f6 f7 hin0 hin1 hin2 hin3⟩]) i = Gout fi ft i := by
    intro i hi
    obtain ⟨y, -, rfl⟩ := Finset.mem_map.mp hi
    refine ((writes_whole_apply (outSl0 L).view fo _ y).trans (cast_eq _ _)).trans ?_
    show (rowM (a7) 0 inb_S4x128_S1x128_0_0).view.read (Elt F) _ y = _
    rw [read_nest0]
    exact gather_value L fi hpre ft _ hF5 f6 8 (by omega) (0 : Fin 4) (by show 8 * (0 + 1) ≤ 8; omega) _ _ _ _ _ y
  have hval1 : ∀ i ∈ (outSl1 L).view.set, ((outSl1 L).view.writes (Elt F) fo [⟨Rect.whole S128, tile_body.sl.dma0_2 d L fi ft f5 f6 f7 hin0 hin1 hin2 hin3⟩]) i = Gout fi ft i := by
    intro i hi
    obtain ⟨y, -, rfl⟩ := Finset.mem_map.mp hi
    refine ((writes_whole_apply (outSl1 L).view fo _ y).trans (cast_eq _ _)).trans ?_
    show (rowM (a7) 1 inb_S4x128_S1x128_1_0).view.read (Elt F) _ y = _
    rw [read_nest1]
    exact gather_value L fi hpre ft _ hF5 f6 16 (by omega) (1 : Fin 4) (by show 8 * (1 + 1) ≤ 16; omega) _ _ _ _ _ y
  have hval2 : ∀ i ∈ (outSl2 L).view.set, ((outSl2 L).view.writes (Elt F) fo [⟨Rect.whole S128, tile_body.sl.dma0_3 d L fi ft f5 f6 f7 hin0 hin1 hin2 hin3⟩]) i = Gout fi ft i := by
    intro i hi
    obtain ⟨y, -, rfl⟩ := Finset.mem_map.mp hi
    refine ((writes_whole_apply (outSl2 L).view fo _ y).trans (cast_eq _ _)).trans ?_
    show (rowM (a7) 2 inb_S4x128_S1x128_2_0).view.read (Elt F) _ y = _
    rw [read_nest2]
    exact gather_value L fi hpre ft _ hF5 f6 24 (by omega) (2 : Fin 4) (by show 8 * (2 + 1) ≤ 24; omega) _ _ _ _ _ y
  have hval3 : ∀ i ∈ (outSl3 L).view.set, ((outSl3 L).view.writes (Elt F) fo [⟨Rect.whole S128, tile_body.sl.dma0_4 d L fi ft f5 f6 f7 hin0 hin1 hin2 hin3⟩]) i = Gout fi ft i := by
    intro i hi
    obtain ⟨y, -, rfl⟩ := Finset.mem_map.mp hi
    refine ((writes_whole_apply (outSl3 L).view fo _ y).trans (cast_eq _ _)).trans ?_
    show (rowM (a7) 3 inb_S4x128_S1x128_3_0).view.read (Elt F) _ y = _
    rw [read_nest3]
    exact gather_value L fi hpre ft _ hF5 f6 32 (by omega) (3 : Fin 4) (by show 8 * (3 + 1) ≤ 32; omega) _ _ _ _ _ y
  ihave Ho0 := (Entails.of_eq (pointsTo_congr hval0)) $$ Ho0
  ihave Ho0 := (Entails.of_eq (pts_out0 (F := F) d L (Gout fi ft))) $$ Ho0
  ihave Ho1 := (Entails.of_eq (pointsTo_congr hval1)) $$ Ho1
  ihave Ho1 := (Entails.of_eq (pts_out1 (F := F) d L (Gout fi ft))) $$ Ho1
  ihave Ho2 := (Entails.of_eq (pointsTo_congr hval2)) $$ Ho2
  ihave Ho2 := (Entails.of_eq (pts_out2 (F := F) d L (Gout fi ft))) $$ Ho2
  ihave Ho3 := (Entails.of_eq (pointsTo_congr hval3)) $$ Ho3
  ihave Ho3 := (Entails.of_eq (pts_out3 (F := F) d L (Gout fi ft))) $$ Ho3
  ihave Hin := (Entails.of_eq (pts_in (F := F) d L fullShare fi)) $$ Hin
  ihave Ht := ((toks4 (F := F) (tLoc d) ft (qT L)).2) $$ [Htd Ht0 Ht1 Ht2 Ht3]
  · isplitl [Htd]; · iexact Htd
    isplitl [Ht0]; · iexact Ht0
    isplitl [Ht1]; · iexact Ht1
    isplitl [Ht2]; · iexact Ht2
    iexact Ht3
  ihave H6' := (a6_join (F := F) d L _ _ _ _ _) $$ [H6_2 H6_3 H6]
  · isplitl [H6_2]; · iexact H6_2
    isplitl [H6_3]; · iexact H6_3
    iexact H6
  sl_step
  isplitl [Hin Ht Ho0 Ho1 Ho2 Ho3]
  · isplitl [Hin]; · iexact Hin
    isplitl [Ht]; · iexact Ht
    isplitl [Ho0]; · iexact Ho0
    isplitl [Ho1]; · iexact Ho1
    isplitl [Ho2]; · iexact Ho2
    iexact Ho3
  isplitl [H5 H6' H7 Hbufs]
  · isplitl [H5]; · iexists _; iexact H5
    isplitl [H6']; · iexact H6'
    isplitl [H7]; · iexists _; iexact H7
    iexact Hbufs
  isplitl [Hg0 Hg1 Hg2 Hg3 Hs0 Hs1 Hs2 Hs3 Hs4 Hsems]
  · isplitl [Hg0]; · iexact Hg0
    isplitl [Hg1]; · iexact Hg1
    isplitl [Hg2]; · iexact Hg2
    isplitl [Hg3]; · iexact Hg3
    isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  rotate_left
  · iexact HO
  · ipureintro; intro p hp
    repeat (rcases Finset.mem_insert.mp hp with rfl | hp; · exact .inr rfl)
    exact .inl hp

end Cert.Proof.KI

end
-- ==== Proof.LaunchI.lean ====
import proofs.«208194_g50654844289024_cont_8to1c4_348_33_alg».proof.Proof.TileI

/-!
  The launch: what the one SparseCore call carries, and how the arrays are dealt.

  The call hands each of the two SparseCores its sixteen tiles' parts of the interleaved index array and of the result
  array, and half the read share of the flat table, a sixteenth of it (but for a remainder kept with the SparseCore) to
  each tile; the tiles hand the same back, the result runs at the kernel's function. The thirty-two input runs tile the
  index array and the hundred and twenty-eight output runs the result array (Geom), so the arrays held whole are exactly
  the tiles' parts.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "a2" => (Memref.whole Cert.KernelIdeal.main_v3_scv : Memref Cert.KernelIdeal.sig Kind.scVector Space.hbm Cert.KernelIdeal.S32768 EltTy.i32)
local notation "a3" => (Memref.whole Cert.KernelIdeal.main_v4_scv : Memref Cert.KernelIdeal.sig Kind.scVector Space.hbm Cert.KernelIdeal.S1000000 EltTy.f32)
local notation "a4" => (Memref.whole Cert.KernelIdeal.main_v5_scv : Memref Cert.KernelIdeal.sig Kind.scVector Space.hbm Cert.KernelIdeal.S16384 EltTy.f32)
local notation "a5" => (Memref.whole Cert.KernelIdeal.cc0_scratch0 : Memref Cert.KernelIdeal.sig Kind.scVector Space.vmem Cert.KernelIdeal.S1024 EltTy.i32)
local notation "a6" => (Memref.whole Cert.KernelIdeal.cc0_scratch1 : Memref Cert.KernelIdeal.sig Kind.scVector Space.vmem Cert.KernelIdeal.S4x128 EltTy.i32)
local notation "a7" => (Memref.whole Cert.KernelIdeal.cc0_scratch2 : Memref Cert.KernelIdeal.sig Kind.scVector Space.vmem Cert.KernelIdeal.S4x128 EltTy.f32)

local notation "𝕄" => MT nD τ sig (HIx 1) (Elt F) ℕ UU ℕ

theorem bound0 : (K (F := F)).nCore 0 = 2 := rfl
theorem bound1 : (K (F := F)).nSub 0 = 16 := rfl

/-- The four runs of the result array the tile (c, s) writes. -/
def oBlock (d : Dev nD) (c : Fin 2) (s : Fin 16) (go : Buf (Elt F) (oLoc d)) : sProp 𝕄 :=
  iprop((oLoc d ↦[outSet (co c s) 0]{fullShare} go) ∗ (oLoc d ↦[outSet (co c s) 1]{fullShare} go)
    ∗ (oLoc d ↦[outSet (co c s) 2]{fullShare} go) ∗ (oLoc d ↦[outSet (co c s) 3]{fullShare} go))

/-- What a SparseCore is handed: what its half of the table's read share leaves after its tiles' tokens, and its
    sixteen tiles' parts. -/
def coreSt (d : Dev nD) (c : Fin 2) (gi : Buf (Elt F) (iLoc d)) (gt : Buf (Elt F) (tLoc d)) (go : Buf (Elt F) (oLoc d)) : sProp 𝕄 :=
  iprop((tLoc d ↦{Transfers.shareDrop (Transfers.shareTokN fullShare c.val) 16} gt) ∗ bigSep Finset.univ fun s : Fin 16 => tileGo d (co c s) gi gt go)

theorem tileGo_eq (d : Dev nD) (c : Fin 2) (s : Fin 16) (gi : Buf (Elt F) (iLoc d)) (gt : Buf (Elt F) (tLoc d)) (go : Buf (Elt F) (oLoc d)) :
    (tileGo d (co c s) gi gt go : sProp 𝕄)
      = iprop((iLoc d ↦[inSet (co c s)]{fullShare} gi) ∗ (tLoc d ↦{Transfers.shareTok (Transfers.shareTokN fullShare c.val) 16 s} gt) ∗ oBlock d c s go) := rfl

theorem fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The interleaved index array held whole is the thirty-two tiles' runs of it. -/
theorem iPts_tiles (d : Dev nD) (g : Buf (Elt F) (iLoc d)) :
    (iLoc d ↦{fullShare} g : sProp 𝕄) = bigSep Finset.univ fun c : Fin 2 => bigSep Finset.univ fun s : Fin 16 => iLoc d ↦[inSet (co c s)]{fullShare} g := by
  have h1 : (iLoc d ↦{fullShare} g : sProp 𝕄) = bigSep Finset.univ fun p : Fin 2 × Fin 16 => iLoc d ↦[inSet (co p.1 p.2)]{fullShare} g := by
    rw [← pointsTo_biUnion Finset.univ (ℓ := iLoc d) (fun p : Fin 2 × Fin 16 => inSet (co p.1 p.2)) (fun p _ p' _ h => inSet_disjoint p p' h), inSet_cover]
    try rfl
  rw [h1, ← Finset.univ_product_univ]
  exact SparseCore.bigSep_product Finset.univ Finset.univ (fun p : Fin 2 × Fin 16 => (iLoc d ↦[inSet (co p.1 p.2)]{fullShare} g : sProp 𝕄))

/-- The result array held whole is the hundred and twenty-eight runs the tiles write. -/
theorem oPts_tiles (d : Dev nD) (g : Buf (Elt F) (oLoc d)) :
    (oLoc d ↦{fullShare} g : sProp 𝕄) = bigSep Finset.univ fun c : Fin 2 => bigSep Finset.univ fun s : Fin 16 => oBlock d c s g := by
  have h1 : (oLoc d ↦{fullShare} g : sProp 𝕄) = bigSep Finset.univ fun p : Fin 2 × Fin 16 × Fin 4 => oLoc d ↦[outSet (co p.1 p.2.1) p.2.2]{fullShare} g := by
    rw [← pointsTo_biUnion Finset.univ (ℓ := oLoc d) (fun p : Fin 2 × Fin 16 × Fin 4 => outSet (co p.1 p.2.1) p.2.2) (fun p _ p' _ h => outSet_disjoint p p' h), outSet_cover]
    try rfl
  have h2 : (bigSep Finset.univ fun p : Fin 2 × Fin 16 × Fin 4 => (oLoc d ↦[outSet (co p.1 p.2.1) p.2.2]{fullShare} g : sProp 𝕄))
      = bigSep Finset.univ fun c : Fin 2 => bigSep Finset.univ fun q : Fin 16 × Fin 4 => (oLoc d ↦[outSet (co c q.1) q.2]{fullShare} g : sProp 𝕄) := by
    rw [← Finset.univ_product_univ]
    exact SparseCore.bigSep_product Finset.univ Finset.univ (fun p : Fin 2 × Fin 16 × Fin 4 => (oLoc d ↦[outSet (co p.1 p.2.1) p.2.2]{fullShare} g : sProp 𝕄))
  have h3 : ∀ c : Fin 2, (bigSep Finset.univ fun q : Fin 16 × Fin 4 => (oLoc d ↦[outSet (co c q.1) q.2]{fullShare} g : sProp 𝕄))
      = bigSep Finset.univ fun s : Fin 16 => oBlock d c s g := by
    intro c
    rw [← Finset.univ_product_univ]
    refine (SparseCore.bigSep_product Finset.univ Finset.univ (fun q : Fin 16 × Fin 4 => (oLoc d ↦[outSet (co c q.1) q.2]{fullShare} g : sProp 𝕄))).trans ?_
    exact bigSep_congr fun s _ => fin4 (F := F) (fun r : Fin 4 => (oLoc d ↦[outSet (co c s) r]{fullShare} g : sProp 𝕄))
  rw [h1, h2]
  exact bigSep_congr fun c _ => h3 c

/-- A SparseCore's part, as the three arrays' parts. -/
theorem coreSt_iff (d : Dev nD) (c : Fin 2) (gi : Buf (Elt F) (iLoc d)) (gt : Buf (Elt F) (tLoc d)) (go : Buf (Elt F) (oLoc d)) :
    iprop((bigSep Finset.univ fun s : Fin 16 => iLoc d ↦[inSet (co c s)]{fullShare} gi) ∗ (tLoc d ↦{Transfers.shareTokN fullShare c.val} gt)
        ∗ (bigSep Finset.univ fun s : Fin 16 => oBlock d c s go))
      ⊣⊢ (coreSt d c gi gt go : sProp 𝕄) := by
  unfold coreSt
  rw [bigSep_congr fun s _ => tileGo_eq d c s gi gt go, bigSep_sep', bigSep_sep']
  constructor
  · iintro ⟨HI, HT, HO⟩
    ihave HT' := (Transfers.pointsTo_toks_split (Transfers.shareTokN fullShare c.val) 16) $$ HT
    icases HT' with ⟨HTd, HTs⟩
    isplitl [HTd]; · iexact HTd
    isplitl [HI]; · iexact HI
    isplitl [HTs]; · iexact HTs
    iexact HO
  · iintro ⟨HTd, HI, HTs, HO⟩
    isplitl [HI]; · iexact HI
    isplitl [HTd HTs]
    · iapply (Transfers.pointsTo_toks_join (Transfers.shareTokN fullShare c.val) 16)
      isplitl [HTd]; · iexact HTd
      iexact HTs
    iexact HO

theorem fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The three arrays held whole are what remains of the table's read share beside the two SparseCores' parts. -/
theorem whole_iff (d : Dev nD) (gi : Buf (Elt F) (iLoc d)) (gt : Buf (Elt F) (tLoc d)) (go : Buf (Elt F) (oLoc d)) :
    iprop((iLoc d ↦{fullShare} gi) ∗ (tLoc d ↦{fullShare} gt) ∗ (oLoc d ↦{fullShare} go))
      ⊣⊢ iprop((tLoc d ↦{Transfers.shareDrop fullShare 2} gt) ∗ coreSt d 0 gi gt go ∗ coreSt d 1 gi gt go) := by
  rw [iPts_tiles, oPts_tiles, fin2, fin2]
  constructor
  · iintro ⟨⟨HI0, HI1⟩, HT, ⟨HO0, HO1⟩⟩
    ihave HT' := (Transfers.pointsTo_toks_split fullShare 2) $$ HT
    icases HT' with ⟨HTd, HTs⟩
    ihave HTs' := (Entails.of_eq (fin2 _)) $$ HTs
    icases HTs' with ⟨HT0, HT1⟩
    isplitl [HTd]; · iexact HTd
    isplitl [HI0 HT0 HO0]
    · iapply (coreSt_iff d 0 gi gt go).1
      isplitl [HI0]; · iexact HI0
      isplitl [HT0]; · iexact HT0
      iexact HO0
    · iapply (coreSt_iff d 1 gi gt go).1
      isplitl [HI1]; · iexact HI1
      isplitl [HT1]; · iexact HT1
      iexact HO1
  · iintro ⟨HTd, H0, H1⟩
    ihave H0' := (coreSt_iff d 0 gi gt go).2 $$ H0
    ihave H1' := (coreSt_iff d 1 gi gt go).2 $$ H1
    icases H0' with ⟨HI0, HT0, HO0⟩
    icases H1' with ⟨HI1, HT1, HO1⟩
    isplitl [HI0 HI1]
    · isplitl [HI0]; · iexact HI0
      iexact HI1
    isplitl [HTd HT0 HT1]
    · iapply (Transfers.pointsTo_toks_join fullShare 2)
      isplitl [HTd]; · iexact HTd
      rw [fin2]
      isplitl [HT0]; · iexact HT0
      iexact HT1
    isplitl [HO0]; · iexact HO0
    iexact HO1

/-! ## What the handshakes carry -/

variable (fi : (d : Dev nD) → Buf (Elt F) (iLoc d)) (ft : (d : Dev nD) → Buf (Elt F) (tLoc d)) (fo : (d : Dev nD) → Buf (Elt F) (oLoc d))

/-- The one call takes each SparseCore's part at the arrays' contents then, each task its tile's part, and brings them
    back with the result runs at the kernel's function; the kernel's proof consumes nothing of the launch's. -/
def P : (K (F := F)).Pay (nD := nD) (Val := Elt F) (Name := ℕ) (U := UU) where
  st := fun q d c => match q with | 0 => coreSt d (Fin.cast bound0 c) (fi d) (ft d) (fo d)
  dn := fun q d c => match q with | 0 => coreSt d (Fin.cast bound0 c) (fi d) (ft d) (Gout (fi d) (ft d))
  go := fun q d c i => match q with | 0 => tileGo d (co (Fin.cast bound0 c) (Fin.cast bound1 i)) (fi d) (ft d) (fo d)
  td := fun q d c i => match q with | 0 => tileTd d (co (Fin.cast bound0 c) (Fin.cast bound1 i)) (fi d) (ft d)
  x := fun _ _ => iprop(emp)

instance P_storable : (P (F := F) fi ft fo).IsStorable where
  st q d c := match q with
    | 0 => by show BI.Storable (upEmb : UEmb _ 𝕄) (coreSt d (Fin.cast bound0 c) (fi d) (ft d) (fo d)); unfold coreSt tileGo; infer_instance
  dn q d c := match q with
    | 0 => by show BI.Storable (upEmb : UEmb _ 𝕄) (coreSt d (Fin.cast bound0 c) (fi d) (ft d) (Gout (fi d) (ft d))); unfold coreSt tileGo; infer_instance
  go q d c i := match q with
    | 0 => by show BI.Storable (upEmb : UEmb _ 𝕄) (tileGo d (co (Fin.cast bound0 c) (Fin.cast bound1 i)) (fi d) (ft d) (fo d)); unfold tileGo; infer_instance
  td q d c i := match q with
    | 0 => by show BI.Storable (upEmb : UEmb _ 𝕄) (tileTd d (co (Fin.cast bound0 c) (Fin.cast bound1 i)) (fi d) (ft d)); unfold tileTd tileGo; infer_instance

/-! ## The launch theorem's obligations -/

theorem defs₀_vector (c : Fin τ.nSC) (s : Fin τ.nSub) :
    defs₀ (F := F) (.scVector c s) 0 ()
      = SparseCore.onTile hcore0 hsub0 (fun c s => cc0__sc_body (coV c s) a2 (Memref.isWhole_whole _) a3 (Memref.isWhole_whole _) a4 (Memref.isWhole_whole _)
          a5 (Memref.isWhole_whole _) a6 (Memref.isWhole_whole _) a7 (Memref.isWhole_whole _) cc0_scratch3 cc0_scoped0 cc0_scoped1 cc0_scoped2 cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : ∀ d z, (fi d z).toNat ≤ 999) : (K (F := F)).TileObl (D (F := F)) 𝒱 (P fi ft fo) v₀ 0 := by
  intro d c i O W hO _ _
  -- this kernel owes nothing for a protocol of its own
  simp only [show (P fi ft fo).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coV ⟨_, hc.1⟩ ⟨_, hc.2⟩) hF (fi d) (ft d) (fo d) (hpre d) O W hO).trans (wp_mono frame _ _ fun _ => obl_post)

theorem bigSep_tasks (Φ : Fin 16 → sProp 𝕄) :
    (bigSep Finset.univ fun i : Fin ((K (F := F)).nSub 0) => Φ (Fin.cast bound1 i)) = bigSep Finset.univ Φ :=
  bigSep_congr fun _ _ => congrArg Φ (Fin.ext rfl)

theorem vecSplit : (K (F := F)).VecSplit' (P fi ft fo) 0 := by
  intro d c
  show coreSt d (Fin.cast bound0 c) (fi d) (ft d) (fo d) ⊢ |={Set.univ}=> iprop(
      (bigSep Finset.univ fun i : Fin ((K (F := F)).nSub 0) => tileGo d (co (Fin.cast bound0 c) (Fin.cast bound1 i)) (fi d) (ft d) (fo d))
      ∗ ((bigSep Finset.univ fun i : Fin ((K (F := F)).nSub 0) => tileTd d (co (Fin.cast bound0 c) (Fin.cast bound1 i)) (fi d) (ft d))
          -∗ coreSt d (Fin.cast bound0 c) (fi d) (ft d) (Gout (fi d) (ft d))))
  rw [bigSep_tasks (F := F) (fun s => tileGo d (co (Fin.cast bound0 c) s) (fi d) (ft d) (fo d)),
    bigSep_tasks (F := F) (fun s => tileTd d (co (Fin.cast bound0 c) s) (fi d) (ft d))]
  unfold coreSt tileTd
  iintro ⟨Hd, H⟩; imodintro
  isplitl [H]; · iexact H
  iintro H
  isplitl [Hd]; · iexact Hd
  iexact H

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fi ft fo).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.HostI.lean ====
import proofs.«208194_g50654844289024_cont_8to1c4_348_33_alg».proof.Defs
import Idealize.ShloMosaic.Lib.Pipeline.Value
import Idealize.ShloMosaic.Lib.ValueIdx
import Idealize.ShloMosaic.Lib.ReduceAll
import Idealize.ShloMosaic.Lib.Affine
import proofs.«208194_g50654844289024_cont_8to1c4_348_33_alg».proof.Proof.Gen.KernelIdeal
import proofs.«208194_g50654844289024_cont_8to1c4_348_33_alg».proof.Proof.Gen.Pre_input_domain

/-!
  The arrays the kernel is called on, as functions of the program's arguments.

  The program interleaves the pairs: it transposes the 16384 × 2 array of pairs, cuts each of its two rows into 128
  blocks of 128, swaps the two outer axes and flattens, so that word `256 b + 128 h + l` of the interleaved array is
  coordinate `h` of pair `128 b + l`. The table is flattened row by row: entry `n` is the table's at
  `(n / 1000, n % 1000)`. Under the precondition every coordinate of every pair lies between 0 and 999.
-/

noncomputable section

namespace Cert.Proof.KI

open Cert.KernelIdeal Idealize.ShloMosaic Idealize.ShloMosaic.ValueIdx

/-- The interleaved index array, from the array of pairs. -/
def V3val (x : S16384x2.Idx → BitVec 32) : S32768.Idx → BitVec 32 :=
  shapeCast S32768 (transpose S128x2x128 [1, 0, 2] (shapeCast S2x128x128 (transpose S2x16384 [1, 0] x Cert.KernelIdeal.Gen.transposes_S16384x2_S2x16384_1_0)
    Cert.KernelIdeal.Gen.shapeCasts_S2x16384_S2x128x128) Cert.KernelIdeal.Gen.transposes_S2x128x128_S128x2x128_1_0_2) Cert.KernelIdeal.Gen.shapeCasts_S128x2x128_S32768

/-- The flat table, from the table. -/
def V4val {α : Type} (y : S1000x1000.Idx → α) : S1000000.Idx → α :=
  shapeCast S1000000 y Cert.KernelIdeal.Gen.shapeCasts_S1000x1000_S1000000

/-- Word `j` of the interleaved array is coordinate `(j / 128) % 2` of pair `128 (j / 256) + j % 128`. -/
theorem V3val_apply (x : S16384x2.Idx → BitVec 32) (j : S32768.Idx) :
    V3val x j = x (ix2 (⟨128 * ((j 0).val / 256) + (j 0).val % 128, by have h : (j 0).val < 32768 := (j 0).isLt; omega⟩ : Fin 16384)
      (⟨(j 0).val / 128 % 2, by omega⟩ : Fin 2)) := by
  have hj : (j 0).val < 32768 := (j 0).isLt
  unfold V3val
  rw [shapeCast_apply _ _ j (ix3 (⟨(j 0).val / 256, by omega⟩ : Fin 128) (⟨(j 0).val / 128 % 2, by omega⟩ : Fin 2) (⟨(j 0).val % 128, by omega⟩ : Fin 128))
      (by rw [Shape.rowMajor_val_three, Shape.rowMajor_val_one]; show ((j 0).val / 256 * 2 + (j 0).val / 128 % 2) * 128 + (j 0).val % 128 = (j 0).val; omega),
    transpose_apply _ _ _ _ (ix3 (⟨(j 0).val / 128 % 2, by omega⟩ : Fin 2) (⟨(j 0).val / 256, by omega⟩ : Fin 128) (⟨(j 0).val % 128, by omega⟩ : Fin 128))
      (by intro b; match b with | ⟨0, _⟩ => rfl | ⟨1, _⟩ => rfl | ⟨2, _⟩ => rfl),
    shapeCast_apply _ _ _ (ix2 (⟨(j 0).val / 128 % 2, by omega⟩ : Fin 2) (⟨128 * ((j 0).val / 256) + (j 0).val % 128, by omega⟩ : Fin 16384))
      (by rw [Shape.rowMajor_val_three, Shape.rowMajor_val_two]
          show (j 0).val / 128 % 2 * 16384 + (128 * ((j 0).val / 256) + (j 0).val % 128) = ((j 0).val / 128 % 2 * 128 + (j 0).val / 256) * 128 + (j 0).val % 128
          omega),
    transpose_apply _ _ _ _ (ix2 (⟨128 * ((j 0).val / 256) + (j 0).val % 128, by omega⟩ : Fin 16384) (⟨(j 0).val / 128 % 2, by omega⟩ : Fin 2))
      (by intro b; match b with | ⟨0, _⟩ => rfl | ⟨1, _⟩ => rfl)]

/-- Entry `n` of the flat table is the table's at `(n / 1000, n % 1000)`. -/
theorem V4val_apply {α : Type} (y : S1000x1000.Idx → α) (n : S1000000.Idx) :
    V4val y n = y (ix2 (⟨(n 0).val / 1000, by have h : (n 0).val < 1000000 := (n 0).isLt; omega⟩ : Fin 1000) (⟨(n 0).val % 1000, by omega⟩ : Fin 1000)) := by
  have hn : (n 0).val < 1000000 := (n 0).isLt
  unfold V4val
  exact shapeCast_apply _ _ n _ (by rw [Shape.rowMajor_val_two, Shape.rowMajor_val_one]; show (n 0).val / 1000 * 1000 + (n 0).val % 1000 = (n 0).val; omega)

/-! ## The precondition -/

instance : Subsingleton Cert.Pre_input_domain.S_.Idx := ⟨fun a b => funext fun d => d.elim0⟩

/-- The precondition's test of one word: at least 0 and at most 999 as a signed number. -/
def InRange (v : BitVec 32) : Prop := IntOp.andi (IntOp.cmpi .sge v 0#32) (IntOp.cmpi .sle v 999#32) = 1#1

theorem InRange.bounds {v : BitVec 32} (h : InRange v) : v.toNat ≤ 999 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  unfold InRange at h
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

/-- Such a word read as a signed number is itself, -/
theorem InRange.toInt_toNat {v : BitVec 32} (h : InRange v) : v.toInt.toNat = v.toNat := by
  have hb := h.bounds
  rw [BitVec.toInt_eq_toNat_cond]
  have : 2 * v.toNat < 2 ^ 32 := by omega
  rw [if_pos this]
  exact Int.toNat_natCast _

/-- and is not negative. -/
theorem InRange.not_neg {v : BitVec 32} (h : InRange v) : IntOp.cmpi .slt v 0#32 = 0#1 := by
  have hb := h.bounds
  have hs : v.slt 0#32 = false := by
    rw [BitVec.slt_eq_decide, BitVec.toInt_eq_toNat_cond, if_pos (by omega)]
    simp
  show BitVec.ofBool (v.slt 0#32) = 0#1
  rw [hs]
  rfl

variable {F : FTy → Type} [FloatOps F] [Cert.Pre_input_domain.Facts]

/-- Under the precondition every coordinate of every pair is at most 999. -/
theorem pre_pairs (x : IVec Cert.Pre_input_domain.S16384x2 32) (y : FVec F Cert.Pre_input_domain.S1000x1000 .f32)
    (h : Cert.Pre_input_domain.fn (F := F) x y = fun _ => 1#1) (i : Cert.Pre_input_domain.S16384x2.Idx) : InRange (x i) := by
  have e := congrFun h ix0
  dsimp only [Cert.Pre_input_domain.fn] at e
  have e' := (IntOp.andi_eq_one.mp e).2
  exact Host.reduce_andi_all _ _ _ _ ix0 e' i

end Cert.Proof.KI

end
-- ==== Proof.MainI.lean ====
import proofs.«208194_g50654844289024_cont_8to1c4_348_33_alg».proof.Proof.LaunchI
import proofs.«208194_g50654844289024_cont_8to1c4_348_33_alg».proof.Proof.HostI

/-!
  The program's run.

  On the TensorCore @main interleaves the pairs and flattens the table — five host operations, which leave the
  arguments as they were —, starts the call on the arrays so made and the result array, and returns when both
  SparseCores have; the result array then holds the kernel's function of the two arrays, the arguments their launch
  contents. By the launch theorem every weakly fair execution of the device's thirty-five threads ends so.
-/

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

open Idealize.ShloMosaic.StableHlo (after unary reshape seq)

local notation "a2" => (Memref.whole Cert.KernelIdeal.main_v3_scv : Memref Cert.KernelIdeal.sig Kind.scVector Space.hbm Cert.KernelIdeal.S32768 EltTy.i32)
local notation "a3" => (Memref.whole Cert.KernelIdeal.main_v4_scv : Memref Cert.KernelIdeal.sig Kind.scVector Space.hbm Cert.KernelIdeal.S1000000 EltTy.f32)
local notation "a4" => (Memref.whole Cert.KernelIdeal.main_v5_scv : Memref Cert.KernelIdeal.sig Kind.scVector Space.hbm Cert.KernelIdeal.S16384 EltTy.f32)
local notation "a5" => (Memref.whole Cert.KernelIdeal.cc0_scratch0 : Memref Cert.KernelIdeal.sig Kind.scVector Space.vmem Cert.KernelIdeal.S1024 EltTy.i32)
local notation "a6" => (Memref.whole Cert.KernelIdeal.cc0_scratch1 : Memref Cert.KernelIdeal.sig Kind.scVector Space.vmem Cert.KernelIdeal.S4x128 EltTy.i32)
local notation "a7" => (Memref.whole Cert.KernelIdeal.cc0_scratch2 : Memref Cert.KernelIdeal.sig Kind.scVector Space.vmem Cert.KernelIdeal.S4x128 EltTy.f32)

local notation "𝕄" => MT nD τ sig (HIx 1) (Elt F) ℕ UU ℕ

variable (m : (ℓ : Loc nD τ sig) → Buf (Elt F) ℓ) (ρ : Dev nD → PrngReg)

abbrev pLoc (d : Dev nD) : Loc nD τ sig := (SparseCore.T d).loc main_arg0
abbrev qLoc (d : Dev nD) : Loc nD τ sig := (SparseCore.T d).loc main_arg1

/-- The arrays the call is made on: the interleaved pairs, the flat table, the result array as launched. -/
def fI (d : Dev nD) : Buf (Elt F) (iLoc d) := V3val (m (pLoc d))
def fT (d : Dev nD) : Buf (Elt F) (tLoc d) := V4val (m (qLoc d))
def fO (d : Dev nD) : Buf (Elt F) (oLoc d) := m (oLoc d)

/-! ## @main's host operations -/

abbrev hostOps : List (HloOp τ sig (Elt F)) :=
  [ unary main_arg0 main_v0 ((transpose S2x16384 [1, 0] · transposes_S16384x2_S2x16384_1_0) : (⟨S16384x2, .i32⟩ : BufTy).Contents (Elt F) → (⟨S2x16384, .i32⟩ : BufTy).Contents (Elt F)),
    reshape main_v0 main_v1 rfl shapeCasts_S2x16384_S2x128x128,
    unary main_v1 main_v2 ((transpose S128x2x128 [1, 0, 2] · transposes_S2x128x128_S128x2x128_1_0_2) : (⟨S2x128x128, .i32⟩ : BufTy).Contents (Elt F) → (⟨S128x2x128, .i32⟩ : BufTy).Contents (Elt F)),
    reshape main_v2 main_v3 rfl shapeCasts_S128x2x128_S32768,
    reshape main_arg1 main_v4 rfl shapeCasts_S1000x1000_S1000000 ]

theorem main_eq (d : Dev nD) : main (F := F) d = (seq hostOps >>= fun _ => ((K (F := F)).run d 0 >>= fun _ => pure ⟨⟩)) := rfl

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The TensorCore's arrays: the eight tensor values of @main, none scoped. -/
abbrev S8 : Finset (DevRef τ sig) := {a0', a1', v0', v1', v2', v3', v4', v5'}

theorem held_S8 (d : Dev nD) (W : Valuation τ sig (Elt F)) :
    (held (T d) S8 W : sProp 𝕄) = iprop(((SparseCore.T d).loc main_arg0 ↦{fullShare} W a0')
        ∗ ((SparseCore.T d).loc main_arg1 ↦{fullShare} W a1')
        ∗ ((SparseCore.T d).loc main_v0 ↦{fullShare} W v0')
        ∗ ((SparseCore.T d).loc main_v1 ↦{fullShare} W v1')
        ∗ ((SparseCore.T d).loc main_v2 ↦{fullShare} W v2')
        ∗ ((SparseCore.T d).loc main_v3 ↦{fullShare} W v3')
        ∗ ((SparseCore.T d).loc main_v4 ↦{fullShare} W v4')
        ∗ ((SparseCore.T d).loc main_v5 ↦{fullShare} W v5')) := by
  unfold held S8
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0)
        ∗ ((SparseCore.T d).loc main_arg1 ↦{fullShare} W main_arg1)
        ∗ ((SparseCore.T d).loc main_v0 ↦{fullShare} W main_v0)
        ∗ ((SparseCore.T d).loc main_v1 ↦{fullShare} W main_v1)
        ∗ ((SparseCore.T d).loc main_v2 ↦{fullShare} W main_v2)
        ∗ ((SparseCore.T d).loc main_v3 ↦{fullShare} W main_v3)
        ∗ ((SparseCore.T d).loc main_v4 ↦{fullShare} W main_v4)
        ∗ ((SparseCore.T d).loc main_v5 ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S8 (V0 m d) := by
  rw [unscopedBufs_eq, held_S8]; rfl

theorem hsub : ∀ op ∈ (hostOps : List (HloOp τ sig (Elt F))), op.bufs ⊆ S8 := by
  intro op hop
  simp only [hostOps, List.mem_cons, List.not_mem_nil, or_false] at hop
  rcases hop with rfl | rfl | rfl | rfl | rfl
  · show ({a0', v0'} : Finset (DevRef τ sig)) ⊆ S8; decide
  · show ({v0', v1'} : Finset (DevRef τ sig)) ⊆ S8; decide
  · show ({v1', v2'} : Finset (DevRef τ sig)) ⊆ S8; decide
  · show ({v2', v3'} : Finset (DevRef τ sig)) ⊆ S8; decide
  · show ({a1', v4'} : Finset (DevRef τ sig)) ⊆ S8; decide

theorem hfresh : ∀ op ∈ (hostOps : List (HloOp τ sig (Elt F))), op.fresh = ∅ := by
  intro op hop
  simp only [hostOps, List.mem_cons, List.not_mem_nil, or_false] at hop
  rcases hop with rfl | rfl | rfl | rfl | rfl <;> rfl

/-- What the arrays hold once the host operations have run. -/
theorem after_v3 (d : Dev nD) : after hostOps (V0 m d) v3' = fI m d := by
  unfold fI V3val; after_results <;> rfl
theorem after_v4 (d : Dev nD) : after hostOps (V0 m d) v4' = fT m d := by
  unfold fT V4val; after_results <;> rfl
theorem after_v5 (d : Dev nD) : after hostOps (V0 m d) v5' = fO m d := by
  unfold fO; after_results <;> rfl
theorem after_a0 (d : Dev nD) : after hostOps (V0 m d) a0' = m (pLoc d) := by
  after_results <;> rfl
theorem after_a1 (d : Dev nD) : after hostOps (V0 m d) a1' = m (qLoc d) := by
  after_results <;> rfl

/-! ## @main on the TensorCore -/

theorem bigSep_cores (Φ : Fin 2 → sProp 𝕄) :
    (bigSep Finset.univ fun c : Fin ((K (F := F)).nCore 0) => Φ (Fin.cast bound0 c)) = iprop(Φ 0 ∗ Φ 1) :=
  (bigSep_congr fun _ _ => congrArg Φ (Fin.ext rfl)).trans (fin2 Φ)

theorem st0_eq (d : Dev nD) : (bigSep Finset.univ fun c : Fin ((K (F := F)).nCore 0) => (P (fI m) (fT m) (fO m)).st 0 d c)
    = iprop(coreSt d 0 (fI m d) (fT m d) (fO m d) ∗ coreSt d 1 (fI m d) (fT m d) (fO m d)) :=
  bigSep_cores (F := F) (fun c => coreSt d c (fI m d) (fT m d) (fO m d))
theorem dn0_eq (d : Dev nD) : (bigSep Finset.univ fun c : Fin ((K (F := F)).nCore 0) => (P (fI m) (fT m) (fO m)).dn 0 d c)
    = iprop(coreSt d 0 (fI m d) (fT m d) (Gout (fI m d) (fT m d)) ∗ coreSt d 1 (fI m d) (fT m d) (Gout (fI m d) (fT m d))) :=
  bigSep_cores (F := F) (fun c => coreSt d c (fI m d) (fT m d) (Gout (fI m d) (fT m d)))

/-- What @main leaves the claim: the arguments at their launch contents, the result array at the kernel's function. -/
abbrev FIN (d : Dev nD) : sProp 𝕄 :=
  iprop((pLoc d ↦{fullShare} m (pLoc d)) ∗ (qLoc d ↦{fullShare} m (qLoc d)) ∗ (oLoc d ↦{fullShare} Gout (fI m d) (fT m d)))

set_option backward.isDefEq.respectTransparency.types false in
theorem hmain (κ : GSem nD τ sig → ℕ) (d : Dev nD) :
    iprop((K (F := F)).ctx EH (P (fI m) (fT m) (fO m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  iapply (StableHlo.wp_seq 𝒱 none Set.univ d S8 _ hostOps hsub hfresh (V0 m d)) $$ [Hb Hheld]
  · isplitl [Hb]; · iexact Hb
    iexact Hheld
  iintro ⟨Hb, Hheld⟩
  ihave Hh := (Entails.of_eq (held_S8 (F := F) d _)) $$ Hheld
  icases Hh with ⟨Ha0, Ha1, -, -, -, Hv3, Hv4, Hv5⟩
  rw [after_v3, after_v4, after_v5, after_a0, after_a1]
  -- the three arrays to the two SparseCores
  ihave Hw := (whole_iff d (fI m d) (fT m d) (fO m d)).1 $$ [Hv3 Hv4 Hv5]
  · isplitl [Hv3]; · iexact Hv3
    isplitl [Hv4]; · iexact Hv4
    iexact Hv5
  icases Hw with ⟨HTd, Hc0, Hc1⟩
  rw [wp_bind]
  iapply ((K (F := F)).wp_run (D (F := F)) 𝒱 (EH := EH) (P := P (fI m) (fT m) (fO m)) κ d 0) $$ [Hst Hc0 Hc1 Ha0 Ha1 HTd]
  isplitr; · iexact Hctx
  isplitl [Hst]; · iexact Hst
  isplitl [Hc0 Hc1]
  · rw [st0_eq]
    isplitl [Hc0]; · iexact Hc0
    iexact Hc1
  iintro ⟨Hst, Hdn⟩
  ihave Hdn' := (Entails.of_eq (dn0_eq m d)) $$ Hdn
  icases Hdn' with ⟨Hc0, Hc1⟩
  ihave Hw := (whole_iff d (fI m d) (fT m d) (Gout (fI m d) (fT m d))).2 $$ [HTd Hc0 Hc1]
  · isplitl [HTd]; · iexact HTd
    isplitl [Hc0]; · iexact Hc0
    iexact Hc1
  icases Hw with ⟨-, -, Hv5⟩
  rw [wp_pure]
  imodintro
  isplitl [Hst]; · iexact Hst
  isplitl [Ha0]; · iexact Ha0
  isplitl [Ha1]; · iexact Ha1
  iexact Hv5

def fq (d : Dev nD) (s' : Phys nD τ sig (Elt F)) : Prop :=
  s'.mem.mem (oLoc d) = Gout (fI m d) (fT m d) ∧ s'.mem.mem (pLoc d) = m (pLoc d) ∧ s'.mem.mem (qLoc d) = m (qLoc d)

theorem hfin (d : Dev nD) (s' : Phys nD τ sig (Elt F)) : iprop(FIN m d ∗ SI s') ⊢ (⌜fq m d s'⌝ : sProp 𝕄) := by
  iintro ⟨⟨Hp, Hq, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%h2, HSI, -⟩
  ihave H := (SI_pointsTo_agree (st := s') (ℓ := oLoc d) (I := Finset.univ) (q := fullShare) (f := Gout (fI m d) (fT m d))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Gout (fI m c) (fT m c) ∧ r.2.mem (pLoc c) = m (pLoc c) ∧ r.2.mem (qLoc c) = m (qLoc c)

theorem run_main [∀ e, Nonempty (Elt F e)] (hpre : ∀ d z, (fI m d z).toNat ≤ 999) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (fI m) (fT m) (fO m)) facts v₀
    (fun q hq => match q with | 0 => nomatch hq)
    (fun q _ => match q with | 0 => tileObl (fI m) (fT m) (fO m) facts hpre)
    (fun q _ => match q with | 0 => SparseCore.Cfg.VecSplit.of_plain (vecSplit (fI m) (fT m) (fO m)))
    m ρ main (fun _ => iprop(emp)) (FIN m) (u₀ (F := F)) (sep_elim_left.trans (hu₀ (fI m) (fT m) (fO m))) (hmain m ρ) (fq m) (hfin m) (QC m) (fun _ h => h)

end Cert.Proof.KI

end
-- ==== Proof.LibGatherRead.lean ====
/-
  Two gathers read at an index.

  A gather reads, for every result index, the operand at a start index taken from an integer array, each component read
  as a signed integer and clamped so that the slice fits inside the operand.

  Rows: the operand is an N x C matrix, the start indices an R x 1 array of row numbers; result row e is the operand's
  row number idx(e, 0), clamped into [0, N - 1], so entry (e, a) of the result is the operand at (that row, a).

  Pairs: the operand is an N x M matrix, the start indices an R x 2 array of (row, column) pairs; result entry e is
  the operand at (idx(e, 0) clamped into [0, N - 1], idx(e, 1) clamped into [0, M - 1]).
-/
import Idealize.ShloMosaic.Lib.ValueIdx

noncomputable section

namespace Cert.LibGatherRead

open Idealize.ShloMosaic Idealize.ShloMosaic.ValueIdx

variable {α : Type}

/-- The dimension numbers of a gather of whole rows: operand N x C, start indices R x 1, result R x C. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A gather of whole rows read at (e, a): the operand at (row number idx(e, 0) clamped into [0, N - 1], a). -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (a : Fin C) :
    Host.gather (rowsDims N R C wf) x idx (ix2 e a)
      = x (ix2 ⟨min (idx (ix2 e (0 : Fin 1))).toInt.toNat (N - 1), by omega⟩ a) := by
  unfold Host.gather
  congr 1
  funext b
  refine Fin.ext ?_
  match b with
  | ⟨0, _⟩ =>
    show (rowsDims N R C wf).start (ix2 e a) idx 0 + (rowsDims N R C wf).batchCoord (ix2 e a) 0
      + (rowsDims N R C wf).offCoord (ix2 e a) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e a) ⟨List.idxOf (0 : Fin 2) (rowsDims N R C wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (rowsDims N R C wf).start (ix2 e a) idx 1 + (rowsDims N R C wf).batchCoord (ix2 e a) 1
      + (rowsDims N R C wf).offCoord (ix2 e a) 1 = _
    rw [GatherDims.batchCoord_eq_zero _ _ _ List.not_mem_nil]
    have hs : (rowsDims N R C wf).start (ix2 e a) idx 1 = 0 := by
      unfold GatherDims.start
      rw [dif_neg (show ¬ (1 : Fin 2) ∈ ([0] : List (Fin 2)) by decide)]
    have hk : (1 : Fin 2) ∈ (rowsDims N R C wf).sKept :=
      (GatherDims.mem_sKept _ _).mpr ⟨(show ¬ (1 : Fin 2) ∈ ([0] : List (Fin 2)) by decide), List.not_mem_nil⟩
    rw [hs]
    unfold GatherDims.offCoord
    rw [dif_pos hk]
    simp only [Nat.zero_add, Nat.add_zero]
    rfl

/-- The dimension numbers of a gather of single entries at (row, column) pairs: operand N x M, start indices R x 2,
    result R. -/
abbrev pairDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- A gather of single entries read at e: the operand at (idx(e, 0) clamped into [0, N - 1], idx(e, 1) clamped into
    [0, M - 1]). -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (e : Fin R) :
    Host.gather (pairDims N M R wf) x idx (ix1 e)
      = x (ix2 ⟨min (idx (ix2 e (0 : Fin 2))).toInt.toNat (N - 1), by omega⟩
            ⟨min (idx (ix2 e (1 : Fin 2))).toInt.toNat (M - 1), by omega⟩) := by
  unfold Host.gather
  congr 1
  funext b
  refine Fin.ext ?_
  match b with
  | ⟨0, _⟩ =>
    show (pairDims N M R wf).start (ix1 e) idx 0 + (pairDims N M R wf).batchCoord (ix1 e) 0
      + (pairDims N M R wf).offCoord (ix1 e) 0 = _
    rw [GatherDims.batchCoord_eq_zero _ _ _ List.not_mem_nil,
      GatherDims.offCoord_eq_zero _ _ _ (fun h => ((GatherDims.mem_sKept _ _).mp h).1 (show (0 : Fin 2) ∈ ([0, 1] : List (Fin 2)) by decide))]
    simp only [Nat.add_zero]
    unfold GatherDims.start
    rw [dif_pos (show (0 : Fin 2) ∈ ([0, 1] : List (Fin 2)) by decide)]
    have hsi : (pairDims N M R wf).siIdx (ix1 e) ⟨List.idxOf (0 : Fin 2) (pairDims N M R wf).startIndexMap,
        List.idxOf_lt_length_iff.2 (show (0 : Fin 2) ∈ ([0, 1] : List (Fin 2)) by decide)⟩ = ix2 e (0 : Fin 2) := by
      funext c; refine Fin.ext ?_
      match c with
      | ⟨0, _⟩ => rfl
      | ⟨1, _⟩ => rfl
    rw [hsi]
    rfl
  | ⟨1, _⟩ =>
    show (pairDims N M R wf).start (ix1 e) idx 1 + (pairDims N M R wf).batchCoord (ix1 e) 1
      + (pairDims N M R wf).offCoord (ix1 e) 1 = _
    rw [GatherDims.batchCoord_eq_zero _ _ _ List.not_mem_nil,
      GatherDims.offCoord_eq_zero _ _ _ (fun h => ((GatherDims.mem_sKept _ _).mp h).1 (show (1 : Fin 2) ∈ ([0, 1] : List (Fin 2)) by decide))]
    simp only [Nat.add_zero]
    unfold GatherDims.start
    rw [dif_pos (show (1 : Fin 2) ∈ ([0, 1] : List (Fin 2)) by decide)]
    have hsi : (pairDims N M R wf).siIdx (ix1 e) ⟨List.idxOf (1 : Fin 2) (pairDims N M R wf).startIndexMap,
        List.idxOf_lt_length_iff.2 (show (1 : Fin 2) ∈ ([0, 1] : List (Fin 2)) by decide)⟩ = ix2 e (1 : Fin 2) := by
      funext c; refine Fin.ext ?_
      match c with
      | ⟨0, _⟩ => rfl
      | ⟨1, _⟩ => rfl
    rw [hsi]
    rfl

end Cert.LibGatherRead

end
-- ==== Proof.RefValue.lean ====
import proofs.«208194_g50654844289024_cont_8to1c4_348_33_alg».proof.Defs
import proofs.«208194_g50654844289024_cont_8to1c4_348_33_alg».proof.Proof.Gen.ReferenceIdeal.Read
import proofs.«208194_g50654844289024_cont_8to1c4_348_33_alg».proof.Proof.LibGatherRead
import proofs.«208194_g50654844289024_cont_8to1c4_348_33_alg».proof.Proof.MainI

/-!
  The reference and the kernel compute one function of the arguments.

  The reference takes the two columns of the array of pairs, adds 1000 to a negative coordinate, puts the columns side by
  side again and gathers the table's entries at the pairs, each coordinate clamped into the table. Where every coordinate
  lies between 0 and 999 nothing is added and nothing clamped: result `e` is the table at `(a, b)`, the pair `e`.
  The kernel's result `e` is the flat table at the word `a · 1000 + b` read off the interleaved array — no overflow, below
  one million —, which is the table at `(a, b)`.
-/

noncomputable section

namespace Cert.Proof.Ref

open Cert.ReferenceIdeal Cert.ReferenceIdeal.Read Idealize.ShloMosaic Idealize.ShloMosaic.ValueIdx Cert.LibGatherRead
open Cert.Proof.KI (InRange V3val V4val V3val_apply V4val_apply Gout wordAt word_toNat)

variable {F : FTy → Type} [FloatOps F]

/-- Column 0 of the pairs as the reference normalizes it is column 0. -/
theorem col0 (x0 : S16384x2.Idx → BitVec 32) (hx : ∀ idx, InRange (x0 idx)) (e : Fin 16384) :
    val_main_v8 (F := F) x0 (ix1 e) = x0 (ix2 e (0 : Fin 2)) := by
  have hK : idx_main_v0 (idx_main_v1 (ix1 e)) = ix2 e (0 : Fin 2) := by
    funext a
    match a with
    | ⟨0, _⟩ => apply Fin.ext; show e.val / 1 = e.val; omega
    | ⟨1, _⟩ => rfl
  have hn := (hx (ix2 e (0 : Fin 2))).not_neg
  rw [val_main_v8_apply, val_main_v5_apply, val_main_v4_apply, val_main_c_apply, val_main_v1_apply, val_main_v0_apply, hK, hn]
  rfl

/-- Column 1 likewise. -/
theorem col1 (x0 : S16384x2.Idx → BitVec 32) (hx : ∀ idx, InRange (x0 idx)) (e : Fin 16384) :
    val_main_v13 (F := F) x0 (ix1 e) = x0 (ix2 e (1 : Fin 2)) := by
  have hK : idx_main_v2 (idx_main_v3 (ix1 e)) = ix2 e (1 : Fin 2) := by
    funext a
    match a with
    | ⟨0, _⟩ => apply Fin.ext; show e.val / 1 = e.val; omega
    | ⟨1, _⟩ => rfl
  have hn := (hx (ix2 e (1 : Fin 2))).not_neg
  rw [val_main_v13_apply, val_main_v10_apply, val_main_v9_apply, val_main_c_1_apply, val_main_v3_apply, val_main_v2_apply, hK, hn]
  rfl

/-- The pairs the reference gathers at are the pairs. -/
theorem pairs_left (x0 : S16384x2.Idx → BitVec 32) (hx : ∀ idx, InRange (x0 idx)) (e : Fin 16384) :
    val_main_v16 (F := F) x0 (ix2 e (0 : Fin 2)) = x0 (ix2 e (0 : Fin 2)) := by
  unfold val_main_v16
  rw [concatenate_pair_apply_left (t := S16384x2) (s₁ := S16384x1) (s₂ := S16384x1) (1 : Fin 2) _ _ _ (ix2 e (0 : Fin 2)) rfl (ix2 e (0 : Fin 1))
    (by intro b; match b with | ⟨0, _⟩ => rfl | ⟨1, _⟩ => rfl), val_main_v14_apply]
  exact col0 x0 hx e
theorem pairs_right (x0 : S16384x2.Idx → BitVec 32) (hx : ∀ idx, InRange (x0 idx)) (e : Fin 16384) :
    val_main_v16 (F := F) x0 (ix2 e (1 : Fin 2)) = x0 (ix2 e (1 : Fin 2)) := by
  unfold val_main_v16
  rw [concatenate_pair_apply_right (t := S16384x2) (s₁ := S16384x1) (s₂ := S16384x1) (1 : Fin 2) _ _ _ (ix2 e (1 : Fin 2)) rfl rfl (ix2 e (0 : Fin 1))
    (by intro b hb; match b with | ⟨0, _⟩ => rfl | ⟨1, _⟩ => exact absurd rfl hb) (by rfl), val_main_v15_apply]
  exact col1 x0 hx e

/-- Result `e` of the reference: the table at pair `e`. -/
theorem ref_value (x0 : S16384x2.Idx → BitVec 32) (x1 : S1000x1000.Idx → Elt F .f32) (hx : ∀ idx, InRange (x0 idx)) (e : Fin 16384) :
    val_main_v17 (F := F) x0 x1 (ix1 e)
      = x1 (ix2 (⟨(x0 (ix2 e (0 : Fin 2))).toNat, by have := (hx (ix2 e (0 : Fin 2))).bounds; omega⟩ : Fin 1000)
          (⟨(x0 (ix2 e (1 : Fin 2))).toNat, by have := (hx (ix2 e (1 : Fin 2))).bounds; omega⟩ : Fin 1000)) := by
  have h0 := hx (ix2 e (0 : Fin 2))
  have h1 := hx (ix2 e (1 : Fin 2))
  have hb0 := h0.bounds
  have hb1 := h1.bounds
  unfold val_main_v17
  show Host.gather (pairDims 1000 1000 16384 Cert.ReferenceIdeal.Gen.gather_S1000x1000_S16384x2_S16384_n_01_n_n_01_1_11_wf) x1 _ (ix1 e) = _
  rw [gather_pair_apply (by norm_num) (by norm_num)]
  congr 1
  funext a
  match a with
  | ⟨0, _⟩ =>
    apply Fin.ext
    show min (val_main_v16 (F := F) x0 (ix2 e (0 : Fin 2))).toInt.toNat (1000 - 1) = (x0 (ix2 e (0 : Fin 2))).toNat
    rw [pairs_left x0 hx, h0.toInt_toNat]; omega
  | ⟨1, _⟩ =>
    apply Fin.ext
    show min (val_main_v16 (F := F) x0 (ix2 e (1 : Fin 2))).toInt.toNat (1000 - 1) = (x0 (ix2 e (1 : Fin 2))).toNat
    rw [pairs_right x0 hx, h1.toInt_toNat]; omega

/-- Result `e` of the kernel: the same entry. -/
theorem ker_value (x0 : S16384x2.Idx → BitVec 32) (x1 : S1000x1000.Idx → Elt F .f32) (hx : ∀ idx, InRange (x0 idx)) (e : Fin 16384) :
    Gout (V3val x0) (V4val x1) (ix1 e)
      = x1 (ix2 (⟨(x0 (ix2 e (0 : Fin 2))).toNat, by have := (hx (ix2 e (0 : Fin 2))).bounds; omega⟩ : Fin 1000)
          (⟨(x0 (ix2 e (1 : Fin 2))).toNat, by have := (hx (ix2 e (1 : Fin 2))).bounds; omega⟩ : Fin 1000)) := by
  have hi : e.val < 16384 := e.isLt
  have h0 := hx (ix2 e (0 : Fin 2))
  have h1 := hx (ix2 e (1 : Fin 2))
  have hb0 := h0.bounds
  have hb1 := h1.bounds
  have e0 : V3val x0 (ix1 (⟨256 * (e.val / 128) + e.val % 128, by omega⟩ : Fin 32768)) = x0 (ix2 e (0 : Fin 2)) := by
    rw [V3val_apply]
    congr 1
    funext a
    match a with
    | ⟨0, _⟩ => apply Fin.ext; show 128 * ((256 * (e.val / 128) + e.val % 128) / 256) + (256 * (e.val / 128) + e.val % 128) % 128 = e.val; omega
    | ⟨1, _⟩ => apply Fin.ext; show (256 * (e.val / 128) + e.val % 128) / 128 % 2 = 0; omega
  have e1 : V3val x0 (ix1 (⟨256 * (e.val / 128) + 128 + e.val % 128, by omega⟩ : Fin 32768)) = x0 (ix2 e (1 : Fin 2)) := by
    rw [V3val_apply]
    congr 1
    funext a
    match a with
    | ⟨0, _⟩ => apply Fin.ext; show 128 * ((256 * (e.val / 128) + 128 + e.val % 128) / 256) + (256 * (e.val / 128) + 128 + e.val % 128) % 128 = e.val; omega
    | ⟨1, _⟩ => apply Fin.ext; show (256 * (e.val / 128) + 128 + e.val % 128) / 128 % 2 = 1; omega
  have hw : (wordAt (V3val x0) (ix1 e)).toNat = (x0 (ix2 e (0 : Fin 2))).toNat * 1000 + (x0 (ix2 e (1 : Fin 2))).toNat := by
    have hword : wordAt (V3val x0) (ix1 e) = x0 (ix2 e (0 : Fin 2)) * 1000#32 + x0 (ix2 e (1 : Fin 2)) := by
      show V3val x0 (ix1 (⟨256 * (e.val / 128) + e.val % 128, _⟩ : Fin 32768)) * 1000#32
        + V3val x0 (ix1 (⟨256 * (e.val / 128) + 128 + e.val % 128, _⟩ : Fin 32768)) = _
      rw [e0, e1]
    rw [hword]
    exact word_toNat _ _ hb0 hb1
  unfold Gout
  rw [V4val_apply]
  congr 1
  funext a
  match a with
  | ⟨0, _⟩ =>
    apply Fin.ext
    show (wordAt (V3val x0) (ix1 e)).toNat % 1000000 / 1000 = (x0 (ix2 e (0 : Fin 2))).toNat
    rw [hw]; omega
  | ⟨1, _⟩ =>
    apply Fin.ext
    show (wordAt (V3val x0) (ix1 e)).toNat % 1000000 % 1000 = (x0 (ix2 e (1 : Fin 2))).toNat
    rw [hw]; omega

/-- The two programs' results are one array. -/
theorem result_eq (x0 : S16384x2.Idx → BitVec 32) (x1 : S1000x1000.Idx → Elt F .f32) (hx : ∀ idx, InRange (x0 idx)) :
    val_main_v17 (F := F) x0 x1 = Gout (V3val x0) (V4val x1) := by
  funext i
  obtain ⟨e, rfl⟩ : ∃ e : Fin 16384, i = ix1 e := ⟨i 0, eq_ix1 i⟩
  exact (ref_value x0 x1 hx e).trans (ker_value x0 x1 hx e).symm

end Cert.Proof.Ref

end
-- ==== Proof.lean ====
/-
  The five claims of this certificate.

  The kernel gathers, for each of 16384 pairs (a, b) of indices, the entry (a, b) of a 1000 × 1000 table: on the host it
  interleaves the pairs and flattens the table; thirty-two SparseCore tiles each form 512 words a · 1000 + b and gather
  the flat table at them (Tile, Rows, Value); the launch deals the arrays to the tiles and back (Geom, Launch, Main).
  Under the precondition — every index between 0 and 999 — every gather index names an entry of the flat table, so
  every weakly fair execution of the device's threads terminates with the arguments unchanged (the two kernel frames,
  one at each float instance, the kernel's text having no float operation), and the result array is the reference's,
  which gathers the table at the same pairs (RefValue). The idealization rewrote nothing.
-/
import proofs.«208194_g50654844289024_cont_8to1c4_348_33_alg».proof.Defs
import proofs.«208194_g50654844289024_cont_8to1c4_348_33_alg».proof.Proof.Gen.Kernel
import proofs.«208194_g50654844289024_cont_8to1c4_348_33_alg».proof.Proof.Gen.Kernel.Skeleton
import proofs.«208194_g50654844289024_cont_8to1c4_348_33_alg».proof.Proof.Gen.KernelIdeal
import proofs.«208194_g50654844289024_cont_8to1c4_348_33_alg».proof.Proof.Gen.KernelIdeal.Skeleton
import proofs.«208194_g50654844289024_cont_8to1c4_348_33_alg».proof.Proof.Gen.ReferenceIdeal
import proofs.«208194_g50654844289024_cont_8to1c4_348_33_alg».proof.Proof.Gen.ReferenceIdeal.Run
import proofs.«208194_g50654844289024_cont_8to1c4_348_33_alg».proof.Proof.Gen.ReferenceIdeal.Read
import proofs.«208194_g50654844289024_cont_8to1c4_348_33_alg».proof.Proof.Gen.Pre_input_domain
import proofs.«208194_g50654844289024_cont_8to1c4_348_33_alg».proof.Proof.MainB
import proofs.«208194_g50654844289024_cont_8to1c4_348_33_alg».proof.Proof.MainI
import proofs.«208194_g50654844289024_cont_8to1c4_348_33_alg».proof.Proof.RefValue
import Idealize.ShloMosaic.Adequacy
import Idealize.ShloMosaic.Init

noncomputable section

namespace Cert.Proof

open Idealize.ShloMosaic Idealize.SL.Sem

/-- The word-level kernel runs and leaves its arguments: its run with the result dropped. -/
theorem frame_k : Cert.frame_Kernel (hKernel := Cert.Kernel.Gen.facts) (hPre_input_domain := Cert.Pre_input_domain.Gen.facts) := fun m ρ hpre =>
  (θ_run Cert.Kernel.defs _ _).mono (fun _ h c => (h c).2)
    (Cert.Proof.KB.run_main (F := Bits) m ρ fun d z => by
      rw [Cert.Proof.KB.fI, Cert.Proof.KB.V3val_apply]
      exact (Cert.Proof.KB.pre_pairs _ _ (hpre d) _).bounds)

/-- Every pair's coordinates are in range, from the idealized kernel's precondition. -/
theorem pre_ki (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) (d : Dev Cert.KernelIdeal.nD) (z) :
    (Cert.Proof.KI.fI m d z).toNat ≤ 999 := by
  rw [Cert.Proof.KI.fI, Cert.Proof.KI.V3val_apply]
  exact (Cert.Proof.KI.pre_pairs _ _ (hpre d) _).bounds

/-- The idealized kernel likewise. -/
theorem frame_ki : Cert.frame_KernelIdeal (hKernelIdeal := Cert.KernelIdeal.Gen.facts) (hPre_input_domain := Cert.Pre_input_domain.Gen.facts) := fun m ρ hpre =>
  (θ_run Cert.KernelIdeal.defs _ _).mono (fun _ h c => (h c).2) (Cert.Proof.KI.run_main (F := Ideal) m ρ (pre_ki m hpre))

/-- The reference's frame is its generated run with the result dropped. -/
theorem frame_ri : Cert.frame_ReferenceIdeal (hReferenceIdeal := Cert.ReferenceIdeal.Gen.facts) (hPre_input_domain := Cert.Pre_input_domain.Gen.facts) := fun m ρ _ =>
  (θ_run Cert.ReferenceIdeal.defs _ _).mono (fun _ h c => (h c).2) (Cert.ReferenceIdeal.Value.run (F := Ideal) m ρ)

/-- The two idealized programs, from memories agreeing on the arguments, end with one result array: the kernel's function
    of the interleaved pairs and the flat table, which is the reference's gather (RefValue). -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' hpre hagree
  refine ⟨fun c => Cert.Proof.KI.Gout (Cert.Proof.KI.fI m c) (Cert.Proof.KI.fT m c), Cert.Proof.KI.run_main (F := Ideal) m ρ (pre_ki m hpre), ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v17_eq, (hagree c).1, (hagree c).2]
  exact Cert.Proof.Ref.result_eq _ _ (fun idx => Cert.Proof.KI.pre_pairs _ _ (hpre c) idx)

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
